-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x16 : Shape := ⟨2, ![600000, 16]⟩
abbrev S50000 : Shape := ⟨1, ![50000]⟩
abbrev S16x128 : Shape := ⟨2, ![16, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x16 : S_.BroadcastsInDim S600000x16 (![] : Fin 0 → Fin S600000x16.rank)
  reducesTo_S600000x16_S_d0_1 : S600000x16.ReducesTo [0, 1] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  reducesTo_S_S_d : S_.ReducesTo [] S_

variable [Facts]

def fn_part6 {F : FTy → Type} [FloatOps F] (main_arg23 : FVec F S128 .f32) (main_arg24 : FVec F S_ .f32) (main_v101 : IVec S_ 1) : IVec S_ 1 :=
  let main_v102 : FVec F S128 .f32 := Host.absf main_arg23
  let main_cst_40 : FVec F S_ .f32 := constant S_ .f32 0x7F800000#32
  let main_v103 : FVec F S128 .f32 := broadcastInDim S128 ![] bcast_S_S128 main_cst_40
  let main_v104 : IVec S128 1 := cmpf .olt main_v102 main_v103
  let main_c_41 : IVec S_ 1 := constantI S_ 1 1#1
  let main_v105 : IVec S_ 1 := (fun x v => Host.reduce IntOp.andi x v reducesTo_S128_S_d0 h_S_) main_v104 main_c_41
  let main_v106 : IVec S_ 1 := andi main_v101 main_v105
  let main_v107 : FVec F S_ .f32 := Host.absf main_arg24
  let main_cst_42 : FVec F S_ .f32 := constant S_ .f32 0x7F800000#32
  let main_v108 : IVec S_ 1 := cmpf .olt main_v107 main_cst_42
  let main_c_43 : IVec S_ 1 := constantI S_ 1 1#1
  let main_v109 : IVec S_ 1 := (fun x v => Host.reduce IntOp.andi x v reducesTo_S_S_d h_S_) main_v108 main_c_43
  let main_v110 : IVec S_ 1 := andi main_v106 main_v109
  main_v110

def fn_part5 {F : FTy → Type} [FloatOps F] (main_arg20 : FVec F S128x128 .f32) (main_arg21 : FVec F S128 .f32) (main_arg22 : FVec F S128x128 .f32) (main_arg23 : FVec F S128 .f32) (main_arg24 : FVec F S_ .f32) (main_v82 : IVec S_ 1) (main_v84 : IVec S_ 1) : IVec S_ 1 :=
  let main_c_33 : IVec S_ 1 := constantI S_ 1 1#1
  let main_v85 : IVec S_ 1 := (fun x v => Host.reduce IntOp.andi x v reducesTo_S_S_d h_S_) main_v84 main_c_33
  let main_v86 : IVec S_ 1 := andi main_v82 main_v85
  let main_v87 : FVec F S128x128 .f32 := Host.absf main_arg20
  let main_cst_34 : FVec F S_ .f32 := constant S_ .f32 0x7F800000#32
  let main_v88 : FVec F S128x128 .f32 := broadcastInDim S128x128 ![] bcast_S_S128x128 main_cst_34
  let main_v89 : IVec S128x128 1 := cmpf .olt main_v87 main_v88
  let main_c_35 : IVec S_ 1 := constantI S_ 1 1#1
  let main_v90 : IVec S_ 1 := (fun x v => Host.reduce IntOp.andi x v reducesTo_S128x128_S_d0_1 h_S_) main_v89 main_c_35
  let main_v91 : IVec S_ 1 := andi main_v86 main_v90
  let main_v92 : FVec F S128 .f32 := Host.absf main_arg21
  let main_cst_36 : FVec F S_ .f32 := constant S_ .f32 0x7F800000#32
  let main_v93 : FVec F S128 .f32 := broadcastInDim S128 ![] bcast_S_S128 main_cst_36
  let main_v94 : IVec S128 1 := cmpf .olt main_v92 main_v93
  let main_c_37 : IVec S_ 1 := constantI S_ 1 1#1
  let main_v95 : IVec S_ 1 := (fun x v => Host.reduce IntOp.andi x v reducesTo_S128_S_d0 h_S_) main_v94 main_c_37
  let main_v96 : IVec S_ 1 := andi main_v91 main_v95
  let main_v97 : FVec F S128x128 .f32 := Host.absf main_arg22
  let main_cst_38 : FVec F S_ .f32 := constant S_ .f32 0x7F800000#32
  let main_v98 : FVec F S128x128 .f32 := broadcastInDim S128x128 ![] bcast_S_S128x128 main_cst_38
  let main_v99 : IVec S128x128 1 := cmpf .olt main_v97 main_v98
  let main_c_39 : IVec S_ 1 := constantI S_ 1 1#1
  let main_v100 : IVec S_ 1 := (fun x v => Host.reduce IntOp.andi x v reducesTo_S128x128_S_d0_1 h_S_) main_v99 main_c_39
  let main_v101 : IVec S_ 1 := andi main_v96 main_v100
  fn_part6 (F := F) main_arg23 main_arg24 main_v101

def fn_part4 {F : FTy → Type} [FloatOps F] (main_arg16 : FVec F S128 .f32) (main_arg17 : FVec F S128x128 .f32) (main_arg18 : FVec F S128 .f32) (main_arg19 : FVec F S_ .f32) (main_arg20 : FVec F S128x128 .f32) (main_arg21 : FVec F S128 .f32) (main_arg22 : FVec F S128x128 .f32) (main_arg23 : FVec F S128 .f32) (main_arg24 : FVec F S_ .f32) (main_v67 : IVec S_ 1) : IVec S_ 1 :=
  let main_v68 : FVec F S128 .f32 := Host.absf main_arg16
  let main_cst_26 : FVec F S_ .f32 := constant S_ .f32 0x7F800000#32
  let main_v69 : FVec F S128 .f32 := broadcastInDim S128 ![] bcast_S_S128 main_cst_26
  let main_v70 : IVec S128 1 := cmpf .olt main_v68 main_v69
  let main_c_27 : IVec S_ 1 := constantI S_ 1 1#1
  let main_v71 : IVec S_ 1 := (fun x v => Host.reduce IntOp.andi x v reducesTo_S128_S_d0 h_S_) main_v70 main_c_27
  let main_v72 : IVec S_ 1 := andi main_v67 main_v71
  let main_v73 : FVec F S128x128 .f32 := Host.absf main_arg17
  let main_cst_28 : FVec F S_ .f32 := constant S_ .f32 0x7F800000#32
  let main_v74 : FVec F S128x128 .f32 := broadcastInDim S128x128 ![] bcast_S_S128x128 main_cst_28
  let main_v75 : IVec S128x128 1 := cmpf .olt main_v73 main_v74
  let main_c_29 : IVec S_ 1 := constantI S_ 1 1#1
  let main_v76 : IVec S_ 1 := (fun x v => Host.reduce IntOp.andi x v reducesTo_S128x128_S_d0_1 h_S_) main_v75 main_c_29
  let main_v77 : IVec S_ 1 := andi main_v72 main_v76
  let main_v78 : FVec F S128 .f32 := Host.absf main_arg18
  let main_cst_30 : FVec F S_ .f32 := constant S_ .f32 0x7F800000#32
  let main_v79 : FVec F S128 .f32 := broadcastInDim S128 ![] bcast_S_S128 main_cst_30
  let main_v80 : IVec S128 1 := cmpf .olt main_v78 main_v79
  let main_c_31 : IVec S_ 1 := constantI S_ 1 1#1
  let main_v81 : IVec S_ 1 := (fun x v => Host.reduce IntOp.andi x v reducesTo_S128_S_d0 h_S_) main_v80 main_c_31
  let main_v82 : IVec S_ 1 := andi main_v77 main_v81
  let main_v83 : FVec F S_ .f32 := Host.absf main_arg19
  let main_cst_32 : FVec F S_ .f32 := constant S_ .f32 0x7F800000#32
  let main_v84 : IVec S_ 1 := cmpf .olt main_v83 main_cst_32
  fn_part5 (F := F) main_arg20 main_arg21 main_arg22 main_arg23 main_arg24 main_v82 main_v84

def fn_part3 {F : FTy → Type} [FloatOps F] (main_arg13 : FVec F S128 .f32) (main_arg14 : FVec F S_ .f32) (main_arg15 : FVec F S128x128 .f32) (main_arg16 : FVec F S128 .f32) (main_arg17 : FVec F S128x128 .f32) (main_arg18 : FVec F S128 .f32) (main_arg19 : FVec F S_ .f32) (main_arg20 : FVec F S128x128 .f32) (main_arg21 : FVec F S128 .f32) (main_arg22 : FVec F S128x128 .f32) (main_arg23 : FVec F S128 .f32) (main_arg24 : FVec F S_ .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S_ .f32 := Host.absf main_arg14
  let main_cst_22 : FVec F S_ .f32 := constant S_ .f32 0x7F800000#32
  let main_v60 : IVec S_ 1 := cmpf .olt main_v59 main_cst_22
  let main_c_23 : IVec S_ 1 := constantI S_ 1 1#1
  let main_v61 : IVec S_ 1 := (fun x v => Host.reduce IntOp.andi x v reducesTo_S_S_d h_S_) main_v60 main_c_23
  let main_v62 : IVec S_ 1 := andi main_v58 main_v61
  let main_v63 : FVec F S128x128 .f32 := Host.absf main_arg15
  let main_cst_24 : FVec F S_ .f32 := constant S_ .f32 0x7F800000#32
  let main_v64 : FVec F S128x128 .f32 := broadcastInDim S128x128 ![] bcast_S_S128x128 main_cst_24
  let main_v65 : IVec S128x128 1 := cmpf .olt main_v63 main_v64
  let main_c_25 : IVec S_ 1 := constantI S_ 1 1#1
  let main_v66 : IVec S_ 1 := (fun x v => Host.reduce IntOp.andi x v reducesTo_S128x128_S_d0_1 h_S_) main_v65 main_c_25
  let main_v67 : IVec S_ 1 := andi main_v62 main_v66
  fn_part4 (F := F) main_arg16 main_arg17 main_arg18 main_arg19 main_arg20 main_arg21 main_arg22 main_arg23 main_arg24 main_v67

def fn_part2 {F : FTy → Type} [FloatOps F] (main_arg9 : FVec F S128 .f32) (main_arg10 : FVec F S128x128 .f32) (main_arg11 : FVec F S128 .f32) (main_arg12 : FVec F S128x128 .f32) (main_arg13 : FVec F S128 .f32) (main_arg14 : FVec F S_ .f32) (main_arg15 : FVec F S128x128 .f32) (main_arg16 : FVec F S128 .f32) (main_arg17 : FVec F S128x128 .f32) (main_arg18 : FVec F S128 .f32) (main_arg19 : FVec F S_ .f32) (main_arg20 : FVec F S128x128 .f32) (main_arg21 : FVec F S128 .f32) (main_arg22 : FVec F S128x128 .f32) (main_arg23 : FVec F S128 .f32) (main_arg24 : FVec F S_ .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S_ .f32) (main_arg15 : FVec F S128x128 .f32) (main_arg16 : FVec F S128 .f32) (main_arg17 : FVec F S128x128 .f32) (main_arg18 : FVec F S128 .f32) (main_arg19 : FVec F S_ .f32) (main_arg20 : FVec F S128x128 .f32) (main_arg21 : FVec F S128 .f32) (main_arg22 : FVec F S128x128 .f32) (main_arg23 : FVec F S128 .f32) (main_arg24 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S50000x128 .f32) (main_arg1 : IVec S2x600000 32) (main_arg2 : FVec F S600000x16 .f32) (main_arg3 : IVec S50000 32) (main_arg4 : FVec F S16x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S_ .f32) (main_arg15 : FVec F S128x128 .f32) (main_arg16 : FVec F S128 .f32) (main_arg17 : FVec F S128x128 .f32) (main_arg18 : FVec F S128 .f32) (main_arg19 : FVec F S_ .f32) (main_arg20 : FVec F S128x128 .f32) (main_arg21 : FVec F S128 .f32) (main_arg22 : FVec F S128x128 .f32) (main_arg23 : FVec F S128 .f32) (main_arg24 : FVec F S_ .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x16 .f32 := Host.absf main_arg2
  let main_cst_0 : FVec F S_ .f32 := constant S_ .f32 0x7F800000#32
  let main_v5 : FVec F S600000x16 .f32 := broadcastInDim S600000x16 ![] bcast_S_S600000x16 main_cst_0
  let main_v6 : IVec S600000x16 1 := cmpf .olt main_v4 main_v5
  let main_c_1 : IVec S_ 1 := constantI S_ 1 1#1
  let main_v7 : IVec S_ 1 := (fun x v => Host.reduce IntOp.andi x v reducesTo_S600000x16_S_d0_1 h_S_) main_v6 main_c_1
  let main_v8 : IVec S_ 1 := andi main_v3 main_v7
  let main_v9 : FVec F S16x128 .f32 := Host.absf main_arg4
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S50000x128 : Shape := ⟨2, ![50000, 128]⟩
abbrev S2x600000 : Shape := ⟨2, ![2, 600000]⟩
abbrev S600000x16 : Shape := ⟨2, ![600000, 16]⟩
abbrev S50000 : Shape := ⟨1, ![50000]⟩
abbrev S16x128 : Shape := ⟨2, ![16, 128]⟩
abbrev S128 : Shape := ⟨1, ![128]⟩
abbrev S128x128 : Shape := ⟨2, ![128, 128]⟩
abbrev S_ : Shape := ⟨0, ![]⟩
abbrev S1x600000 : Shape := ⟨2, ![1, 600000]⟩
abbrev S600000 : Shape := ⟨1, ![600000]⟩
abbrev S1x128 : Shape := ⟨2, ![1, 128]⟩
abbrev S600000x128 : Shape := ⟨2, ![600000, 128]⟩
abbrev S6000x16 : Shape := ⟨2, ![6000, 16]⟩
abbrev S6000x128 : Shape := ⟨2, ![6000, 128]⟩
abbrev S600000x1 : Shape := ⟨2, ![600000, 1]⟩
abbrev S5000x128 : Shape := ⟨2, ![5000, 128]⟩
abbrev S1024x128 : Shape := ⟨2, ![1024, 128]⟩
abbrev S50000x1 : Shape := ⟨2, ![50000, 1]⟩

abbrev nBuf : Space → Nat
  | .hbm => 104
  | .vmem => 45
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x16, .f32⟩
  | .hbm, ⟨3, _⟩ => ⟨S50000, .i32⟩
  | .hbm, ⟨4, _⟩ => ⟨S16x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S_, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S_, .f32⟩
  | .hbm, ⟨20, _⟩ => ⟨S128x128, .f32⟩
  | .hbm, ⟨21, _⟩ => ⟨S128, .f32⟩
  | .hbm, ⟨22, _⟩ => ⟨S128x128, .f32⟩
  | .hbm, ⟨23, _⟩ => ⟨S128, .f32⟩
  | .hbm, ⟨24, _⟩ => ⟨S_, .f32⟩
  | .hbm, ⟨25, _⟩ => ⟨S1x600000, .i32⟩
  | .hbm, ⟨26, _⟩ => ⟨S600000, .i32⟩
  | .hbm, ⟨27, _⟩ => ⟨S1x600000, .i32⟩
  | .hbm, ⟨28, _⟩ => ⟨S600000, .i32⟩
  | .hbm, ⟨29, _⟩ => ⟨S1x128, .f32⟩
  | .hbm, ⟨30, _⟩ => ⟨S1x128, .f32⟩
  | .hbm, ⟨31, _⟩ => ⟨S600000x128, .bf16⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000x128, .f32⟩
  | .hbm, ⟨41, _⟩ => ⟨S600000x128, .f32⟩
  | .hbm, ⟨42, _⟩ => ⟨S600000x128, .f32⟩
  | .hbm, ⟨43, _⟩ => ⟨S_, .f32⟩
  | .hbm, ⟨44, _⟩ => ⟨S600000x128, .f32⟩
  | .hbm, ⟨45, _⟩ => ⟨S600000x128, .f32⟩
  | .hbm, ⟨46, _⟩ => ⟨S_, .f32⟩
  | .hbm, ⟨47, _⟩ => ⟨S50000x128, .f32⟩
  | .hbm, ⟨48, _⟩ => ⟨S600000x1, .i32⟩
  | .hbm, ⟨49, _⟩ => ⟨S50000x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S50000x128, .f32⟩
  | .hbm, ⟨54, _⟩ => ⟨S_, .i32⟩
  | .hbm, ⟨55, _⟩ => ⟨S600000, .i32⟩
  | .hbm, ⟨56, _⟩ => ⟨S600000, .i1⟩
  | .hbm, ⟨57, _⟩ => ⟨S_, .i32⟩
  | .hbm, ⟨58, _⟩ => ⟨S600000, .i32⟩
  | .hbm, ⟨59, _⟩ => ⟨S600000, .i32⟩
  | .hbm, ⟨60, _⟩ => ⟨S600000, .i32⟩
  | .hbm, ⟨61, _⟩ => ⟨S600000x1, .i32⟩
  | .hbm, ⟨62, _⟩ => ⟨S600000x128, .f32⟩
  | .hbm, ⟨63, _⟩ => ⟨S600000x128, .f32⟩
  | .hbm, ⟨64, _⟩ => ⟨S600000x128, .f32⟩
  | .hbm, ⟨65, _⟩ => ⟨S_, .f32⟩
  | .hbm, ⟨66, _⟩ => ⟨S600000x128, .f32⟩
  | .hbm, ⟨67, _⟩ => ⟨S600000x128, .f32⟩
  | .hbm, ⟨68, _⟩ => ⟨S_, .f32⟩
  | .hbm, ⟨69, _⟩ => ⟨S50000x128, .f32⟩
  | .hbm, ⟨70, _⟩ => ⟨S600000x1, .i32⟩
  | .hbm, ⟨71, _⟩ => ⟨S50000x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S50000x128, .f32⟩
  | .hbm, ⟨76, _⟩ => ⟨S_, .i32⟩
  | .hbm, ⟨77, _⟩ => ⟨S600000, .i32⟩
  | .hbm, ⟨78, _⟩ => ⟨S600000, .i1⟩
  | .hbm, ⟨79, _⟩ => ⟨S_, .i32⟩
  | .hbm, ⟨80, _⟩ => ⟨S600000, .i32⟩
  | .hbm, ⟨81, _⟩ => ⟨S600000, .i32⟩
  | .hbm, ⟨82, _⟩ => ⟨S600000, .i32⟩
  | .hbm, ⟨83, _⟩ => ⟨S600000x1, .i32⟩
  | .hbm, ⟨84, _⟩ => ⟨S600000x128, .f32⟩
  | .hbm, ⟨85, _⟩ => ⟨S600000x128, .f32⟩
  | .hbm, ⟨86, _⟩ => ⟨S600000x128, .f32⟩
  | .hbm, ⟨87, _⟩ => ⟨S_, .f32⟩
  | .hbm, ⟨88, _⟩ => ⟨S600000x128, .f32⟩
  | .hbm, ⟨89, _⟩ => ⟨S600000x128, .f32⟩
  | .hbm, ⟨90, _⟩ => ⟨S_, .f32⟩
  | .hbm, ⟨91, _⟩ => ⟨S50000x128, .f32⟩
  | .hbm, ⟨92, _⟩ => ⟨S600000x1, .i32⟩
  | .hbm, ⟨93, _⟩ => ⟨S50000x128, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S50000x128, .f32⟩
  | .hbm, ⟨98, _⟩ => ⟨S_, .f32⟩
  | .hbm, ⟨99, _⟩ => ⟨S1024x128, .f32⟩
  | .hbm, ⟨100, _⟩ => ⟨S50000x1, .i32⟩
  | .hbm, ⟨101, _⟩ => ⟨S1024x128, .f32⟩
  | .hbm, ⟨102, _⟩ => ⟨S1x128, .f32⟩
  | .hbm, ⟨103, _⟩ => ⟨S1024x128, .f32⟩
  | .local _ .vmem, ⟨0, _⟩ => ⟨S6000x16, .f32⟩
  | .local _ .vmem, ⟨1, _⟩ => ⟨S6000x16, .f32⟩
  | .local _ .vmem, ⟨2, _⟩ => ⟨S16x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S6000x128, .bf16⟩
  | .local _ .vmem, ⟨7, _⟩ => ⟨S6000x128, .bf16⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S128x128, .f32⟩
  | .local _ .vmem, ⟨36, _⟩ => ⟨S1x128, .f32⟩
  | .local _ .vmem, ⟨37, _⟩ => ⟨S128x128, .f32⟩
  | .local _ .vmem, ⟨38, _⟩ => ⟨S1x128, .f32⟩
  | .local _ .vmem, ⟨39, _⟩ => ⟨S5000x128, .f32⟩
  | .local _ .vmem, ⟨40, _⟩ => ⟨S5000x128, .f32⟩
  | .local _ .vmem, ⟨41, _⟩ => ⟨S1024x128, .f32⟩
  | .local _ .vmem, ⟨42, _⟩ => ⟨S128x128, .f32⟩
  | .local _ .vmem, ⟨43, _⟩ => ⟨S1x128, .f32⟩
  | .local _ .vmem, ⟨44, _⟩ => ⟨S1024x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_c : Ref sig .tc := ⟨.hbm, 32, rfl⟩
abbrev main_v7 : Ref sig .tc := ⟨.hbm, 33, rfl⟩
abbrev main_v8 : Ref sig .tc := ⟨.hbm, 34, rfl⟩
abbrev main_c_0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_call0_cst : Ref sig .tc := ⟨.hbm, 43, rfl⟩
abbrev main_call0_v0 : Ref sig .tc := ⟨.hbm, 44, rfl⟩
abbrev main_v16 : Ref sig .tc := ⟨.hbm, 45, rfl⟩
abbrev main_cst : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c_1 : Ref sig .tc := ⟨.hbm, 54, rfl⟩
abbrev main_v24 : Ref sig .tc := ⟨.hbm, 55, rfl⟩
abbrev main_v25 : Ref sig .tc := ⟨.hbm, 56, rfl⟩
abbrev main_c_2 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_call1_cst : Ref sig .tc := ⟨.hbm, 65, rfl⟩
abbrev main_call1_v0 : Ref sig .tc := ⟨.hbm, 66, rfl⟩
abbrev main_v33 : Ref sig .tc := ⟨.hbm, 67, rfl⟩
abbrev main_cst_3 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_c_4 : Ref sig .tc := ⟨.hbm, 76, rfl⟩
abbrev main_v41 : Ref sig .tc := ⟨.hbm, 77, rfl⟩
abbrev main_v42 : Ref sig .tc := ⟨.hbm, 78, rfl⟩
abbrev main_c_5 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_call2_cst : Ref sig .tc := ⟨.hbm, 87, rfl⟩
abbrev main_call2_v0 : Ref sig .tc := ⟨.hbm, 88, rfl⟩
abbrev main_v50 : Ref sig .tc := ⟨.hbm, 89, rfl⟩
abbrev main_cst_6 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_7 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc3_stg7_1 : Ref sig .tc := ⟨.vmem, 40, rfl⟩
abbrev cc4_stg0_0 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem7_0 : DmaSem sig := 39
abbrev cc3_sem7_1 : DmaSem sig := 40
abbrev cc4_sem0_0 : DmaSem sig := 41
abbrev cc4_sem1_0 : DmaSem sig := 42
abbrev cc4_sem2_0 : DmaSem sig := 43
abbrev cc4_sem3_0 : DmaSem sig := 44

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1024x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1024x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S128_S1x128 : S128.ShapeCasts S1x128
  inb_S6000x16_S6000x16_0_0 : ∀ a, (![0, 0] : Fin 2 → Nat) a + S6000x16.size a ≤ S6000x16.size a
  h_S6000x16 : 0 < S6000x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6000x128 : S1x128.Broadcasts S6000x128
  inb_S128x128_S128x128_0_0 : ∀ a, (![0, 0] : Fin 2 → Nat) a + S128x128.size a ≤ S128x128.size a
  h_S128x128 : 0 < S128x128.numel
  inb_S6000x128_S6000x128_0_0 : ∀ a, (![0, 0] : Fin 2 → Nat) a + S6000x128.size a ≤ S6000x128.size a
  h_S6000x128 : 0 < S6000x128.numel
  packedbf16_S6000x128_S6000x128_0_0 : (Rect.unit (s := S6000x128) ![0, 0] S6000x128.size inb_S6000x128_S6000x128_0_0).PackedRows (EltTy.packing .bf16)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S50000x128 : S_.BroadcastsInDim S50000x128 (![] : Fin 0 → Fin S50000x128.rank)
  bcast_S_S1x128 : S_.BroadcastsInDim S1x128 (![] : Fin 0 → Fin S1x128.rank)
  inb_S5000x128_S5000x128_0_0 : ∀ a, (![0, 0] : Fin 2 → Nat) a + S5000x128.size a ≤ S5000x128.size a
  h_S5000x128 : 0 < S5000x128.numel
  broadcasts_S1x128_S5000x128 : S1x128.Broadcasts S5000x128
  shapeCasts_S5000x128_S5000x128 : S5000x128.ShapeCasts S5000x128
  bcast_S_S1024x128 : S_.BroadcastsInDim S1024x128 (![] : Fin 0 → Fin S1024x128.rank)
  bcast_S50000_S50000x1_0 : S50000.BroadcastsInDim S50000x1 (![0] : Fin 1 → Fin S50000x1.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S1x128_S1024x128 : S1x128.Broadcasts S1024x128
  dot_S6000x16_S16x128_S6000x128_1_0_0_1_n_n_wf : DotDims.WF S6000x16 S16x128 S6000x128 [1] [0] [0] [1] [] []
  dot_S6000x128_S128x128_S6000x128_1_0_0_1_n_n_wf : DotDims.WF S6000x128 S128x128 S6000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  scatter_S1024x128_S50000x1_S50000x128_1_0_0_1_wf : ScatterDims.WF S1024x128 S50000x1 S50000x128 [1] [0] [0] 1
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x16.size a ≤ S600000x16.size a
  hwx0_0 : ∀ i : grid0.Coords, EltTy.bits .f32 = 32 ∨ (Rect.block (s := S600000x16) S6000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6000x128.size a ≤ S600000x128.size a
  hwx0_5 : ∀ i : grid0.Coords, EltTy.bits .bf16 = 32 ∨ (Rect.block (s := S600000x128) S6000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S50000x128.size a
  hwx3_7 : ∀ i : grid3.Coords, EltTy.bits .f32 = 32 ∨ (Rect.block (s := S50000x128) S5000x128.size (cc3_transform_7 i) (hinb3_7 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1024x128.size a ≤ S1024x128.size a
  hwx4_0 : ∀ i : grid4.Coords, EltTy.bits .f32 = 32 ∨ (Rect.block (s := S1024x128) S1024x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1024x128.size a ≤ S1024x128.size a
  hwx4_3 : ∀ i : grid4.Coords, EltTy.bits .f32 = 32 ∨ (Rect.block (s := S1024x128) S1024x128.size (cc4_transform_3 i) (hinb4_3 i)).WholeWords (EltTy.packing .f32)

variable [Facts₀]

def dot_S6000x16_S16x128_S6000x128_1_0_0_1_n_n : DotDims S6000x16 S16x128 S6000x128 where
  lhsContracting := [1]
  rhsContracting := [0]
  lhsNonContracting := [0]
  rhsNonContracting := [1]
  lhsBatch := []
  rhsBatch := []
  wf := dot_S6000x16_S16x128_S6000x128_1_0_0_1_n_n_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S1024x128_S50000x1_S50000x128_1_0_0_1 : ScatterDims S1024x128 S50000x1 S50000x128 where
  updateWindowDims := [1]
  insertedWindowDims := [0]
  scatterDimsToOperandDims := [0]
  indexVectorDim := 1
  wf := scatter_S1024x128_S50000x1_S50000x128_1_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg2) S6000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S6000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v23) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg15) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg17) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v38) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v40) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v40) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg20) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg22) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v55) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v57) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v60) S1024x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v62) S1024x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x16 : Shape := ⟨2, ![600000, 16]⟩
abbrev S50000 : Shape := ⟨1, ![50000]⟩
abbrev S16x128 : Shape := ⟨2, ![16, 128]⟩
abbrev S128 : Shape := ⟨1, ![128]⟩
abbrev S128x128 : Shape := ⟨2, ![128, 128]⟩
abbrev S_ : Shape := ⟨0, ![]⟩
abbrev S1x600000 : Shape := ⟨2, ![1, 600000]⟩
abbrev S600000 : Shape := ⟨1, ![600000]⟩
abbrev S600000x128 : Shape := ⟨2, ![600000, 128]⟩
abbrev S1x128 : Shape := ⟨2, ![1, 128]⟩
abbrev S600000x1 : Shape := ⟨2, ![600000, 1]⟩
abbrev S1024x128 : Shape := ⟨2, ![1024, 128]⟩
abbrev S50000x1 : Shape := ⟨2, ![50000, 1]⟩

abbrev nBuf : Space → Nat
  | .hbm => 162
  | .vmem => 0
  | .smem => 0
  | _ => 0

abbrev hbmTy0_0 (i : Nat) : BufTy := match i % 128 with
  | 0 => ⟨S50000x128, .f32⟩
  | 1 => ⟨S2x600000, .i32⟩
  | 2 => ⟨S600000x16, .f32⟩
  | 3 => ⟨S50000, .i32⟩
  | 4 => ⟨S16x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S_, .f32⟩
  | 15 => ⟨S128x128, .f32⟩
  | 16 => ⟨S128, .f32⟩
  | 17 => ⟨S128x128, .f32⟩
  | 18 => ⟨S128, .f32⟩
  | 19 => ⟨S_, .f32⟩
  | 20 => ⟨S128x128, .f32⟩
  | 21 => ⟨S128, .f32⟩
  | 22 => ⟨S128x128, .f32⟩
  | 23 => ⟨S128, .f32⟩
  | 24 => ⟨S_, .f32⟩
  | 25 => ⟨S1x600000, .i32⟩
  | 26 => ⟨S600000, .i32⟩
  | 27 => ⟨S1x600000, .i32⟩
  | 28 => ⟨S600000, .i32⟩
  | 29 => ⟨S600000x128, .f32⟩
  | 30 => ⟨S1x128, .f32⟩
  | 31 => ⟨S600000x128, .f32⟩
  | 32 => ⟨S600000x128, .f32⟩
  | 33 => ⟨S_, .f32⟩
  | 34 => ⟨S600000x128, .f32⟩
  | 35 => ⟨S600000x128, .f32⟩
  | 36 => ⟨S600000x128, .f32⟩
  | 37 => ⟨S1x128, .f32⟩
  | 38 => ⟨S600000x128, .f32⟩
  | 39 => ⟨S600000x128, .f32⟩
  | 40 => ⟨S_, .f32⟩
  | 41 => ⟨S600000x128, .f32⟩
  | 42 => ⟨S600000x128, .f32⟩
  | 43 => ⟨S_, .i32⟩
  | 44 => ⟨S600000, .i32⟩
  | 45 => ⟨S600000, .i1⟩
  | 46 => ⟨S_, .i32⟩
  | 47 => ⟨S600000, .i32⟩
  | 48 => ⟨S600000, .i32⟩
  | 49 => ⟨S600000, .i32⟩
  | 50 => ⟨S600000x1, .i32⟩
  | 51 => ⟨S600000x128, .f32⟩
  | 52 => ⟨S600000x128, .f32⟩
  | 53 => ⟨S_, .f32⟩
  | 54 => ⟨S600000x128, .f32⟩
  | 55 => ⟨S600000x128, .f32⟩
  | 56 => ⟨S_, .f32⟩
  | 57 => ⟨S50000x128, .f32⟩
  | 58 => ⟨S600000x1, .i32⟩
  | 59 => ⟨S50000x128, .f32⟩
  | 60 => ⟨S_, .f32⟩
  | 61 => ⟨S_, .f32⟩
  | 62 => ⟨S50000x128, .f32⟩
  | 63 => ⟨S50000x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S_, .i32⟩
  | 80 => ⟨S600000, .i32⟩
  | 81 => ⟨S600000, .i1⟩
  | 82 => ⟨S_, .i32⟩
  | 83 => ⟨S600000, .i32⟩
  | 84 => ⟨S600000, .i32⟩
  | 85 => ⟨S600000, .i32⟩
  | 86 => ⟨S600000x1, .i32⟩
  | 87 => ⟨S600000x128, .f32⟩
  | 88 => ⟨S600000x128, .f32⟩
  | 89 => ⟨S_, .f32⟩
  | 90 => ⟨S600000x128, .f32⟩
  | 91 => ⟨S600000x128, .f32⟩
  | 92 => ⟨S_, .f32⟩
  | 93 => ⟨S50000x128, .f32⟩
  | 94 => ⟨S600000x1, .i32⟩
  | 95 => ⟨S50000x128, .f32⟩
  | 96 => ⟨S_, .f32⟩
  | 97 => ⟨S_, .f32⟩
  | 98 => ⟨S50000x128, .f32⟩
  | 99 => ⟨S50000x128, .f32⟩
  | 100 => ⟨S50000x128, .f32⟩
  | 101 => ⟨S50000x128, .f32⟩
  | 102 => ⟨S1x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S50000x128, .f32⟩
  | 109 => ⟨S1x128, .f32⟩
  | 110 => ⟨S50000x128, .f32⟩
  | 111 => ⟨S50000x128, .f32⟩
  | 112 => ⟨S_, .f32⟩
  | 113 => ⟨S50000x128, .f32⟩
  | 114 => ⟨S50000x128, .f32⟩
  | 115 => ⟨S_, .i32⟩
  | 116 => ⟨S600000, .i32⟩
  | 117 => ⟨S600000, .i1⟩
  | 118 => ⟨S_, .i32⟩
  | 119 => ⟨S600000, .i32⟩
  | 120 => ⟨S600000, .i32⟩
  | 121 => ⟨S600000, .i32⟩
  | 122 => ⟨S600000x1, .i32⟩
  | 123 => ⟨S600000x128, .f32⟩
  | 124 => ⟨S600000x128, .f32⟩
  | 125 => ⟨S_, .f32⟩
  | 126 => ⟨S600000x128, .f32⟩
  | 127 => ⟨S600000x128, .f32⟩
  | _ => ⟨S50000x128, .f32⟩

abbrev hbmTy0_1 (i : Nat) : BufTy := match i % 128 with
  | 0 => ⟨S_, .f32⟩
  | 1 => ⟨S50000x128, .f32⟩
  | 2 => ⟨S600000x1, .i32⟩
  | 3 => ⟨S50000x128, .f32⟩
  | 4 => ⟨S_, .f32⟩
  | 5 => ⟨S_, .f32⟩
  | 6 => ⟨S50000x128, .f32⟩
  | 7 => ⟨S50000x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S_, .f32⟩
  | 14 => ⟨S50000x128, .f32⟩
  | 15 => ⟨S50000x128, .f32⟩
  | 16 => ⟨S50000x128, .f32⟩
  | 17 => ⟨S1x128, .f32⟩
  | 18 => ⟨S50000x128, .f32⟩
  | 19 => ⟨S50000x128, .f32⟩
  | 20 => ⟨S_, .f32⟩
  | 21 => ⟨S50000x128, .f32⟩
  | 22 => ⟨S50000x128, .f32⟩
  | 23 => ⟨S_, .f32⟩
  | 24 => ⟨S1024x128, .f32⟩
  | 25 => ⟨S50000x1, .i32⟩
  | 26 => ⟨S1024x128, .f32⟩
  | 27 => ⟨S1024x128, .f32⟩
  | 28 => ⟨S1x128, .f32⟩
  | 29 => ⟨S1024x128, .f32⟩
  | 30 => ⟨S1024x128, .f32⟩
  | 31 => ⟨S_, .f32⟩
  | 32 => ⟨S1024x128, .f32⟩
  | 33 => ⟨S1024x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_call0_cst : Ref sig .tc := ⟨.hbm, 33, rfl⟩
abbrev main_call0_v0 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_call1_cst : Ref sig .tc := ⟨.hbm, 40, rfl⟩
abbrev main_call1_v0 : Ref sig .tc := ⟨.hbm, 41, rfl⟩
abbrev main_v13 : Ref sig .tc := ⟨.hbm, 42, rfl⟩
abbrev main_c : Ref sig .tc := ⟨.hbm, 43, rfl⟩
abbrev main_v14 : Ref sig .tc := ⟨.hbm, 44, rfl⟩
abbrev main_v15 : Ref sig .tc := ⟨.hbm, 45, rfl⟩
abbrev main_c_0 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_call2_cst : Ref sig .tc := ⟨.hbm, 53, rfl⟩
abbrev main_call2_v0 : Ref sig .tc := ⟨.hbm, 54, rfl⟩
abbrev main_v22 : Ref sig .tc := ⟨.hbm, 55, rfl⟩
abbrev main_cst : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_cst_1 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_call3_cst : Ref sig .tc := ⟨.hbm, 69, rfl⟩
abbrev main_call3_v0 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_call4_cst : Ref sig .tc := ⟨.hbm, 76, rfl⟩
abbrev main_call4_v0 : Ref sig .tc := ⟨.hbm, 77, rfl⟩
abbrev main_v39 : Ref sig .tc := ⟨.hbm, 78, rfl⟩
abbrev main_c_2 : Ref sig .tc := ⟨.hbm, 79, rfl⟩
abbrev main_v40 : Ref sig .tc := ⟨.hbm, 80, rfl⟩
abbrev main_v41 : Ref sig .tc := ⟨.hbm, 81, rfl⟩
abbrev main_c_3 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_call5_cst : Ref sig .tc := ⟨.hbm, 89, rfl⟩
abbrev main_call5_v0 : Ref sig .tc := ⟨.hbm, 90, rfl⟩
abbrev main_v48 : Ref sig .tc := ⟨.hbm, 91, rfl⟩
abbrev main_cst_4 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_cst_5 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_call6_cst : Ref sig .tc := ⟨.hbm, 105, rfl⟩
abbrev main_call6_v0 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_call7_cst : Ref sig .tc := ⟨.hbm, 112, rfl⟩
abbrev main_call7_v0 : Ref sig .tc := ⟨.hbm, 113, rfl⟩
abbrev main_v65 : Ref sig .tc := ⟨.hbm, 114, rfl⟩
abbrev main_c_6 : Ref sig .tc := ⟨.hbm, 115, rfl⟩
abbrev main_v66 : Ref sig .tc := ⟨.hbm, 116, rfl⟩
abbrev main_v67 : Ref sig .tc := ⟨.hbm, 117, rfl⟩
abbrev main_c_7 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_call8_cst : Ref sig .tc := ⟨.hbm, 125, rfl⟩
abbrev main_call8_v0 : Ref sig .tc := ⟨.hbm, 126, rfl⟩
abbrev main_v74 : Ref sig .tc := ⟨.hbm, 127, rfl⟩
abbrev main_cst_8 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_cst_9 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_call9_cst : Ref sig .tc := ⟨.hbm, 141, rfl⟩
abbrev main_call9_v0 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_call10_cst : Ref sig .tc := ⟨.hbm, 148, rfl⟩
abbrev main_call10_v0 : Ref sig .tc := ⟨.hbm, 149, rfl⟩
abbrev main_v91 : Ref sig .tc := ⟨.hbm, 150, rfl⟩
abbrev main_cst_10 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_call11_cst : Ref sig .tc := ⟨.hbm, 159, rfl⟩
abbrev main_call11_v0 : Ref sig .tc := ⟨.hbm, 160, rfl⟩
abbrev main_v99 : Ref sig .tc := ⟨.hbm, 161, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  bcast_S_S1024x128 : S_.BroadcastsInDim S1024x128 (![] : Fin 0 → Fin S1024x128.rank)
  bcast_S50000_S50000x1_0 : S50000.BroadcastsInDim S50000x1 (![0] : Fin 1 → Fin S50000x1.rank)
  bcast_S1x128_S1024x128_0_1 : S1x128.BroadcastsInDim S1024x128 (![0, 1] : Fin 2 → Fin S1024x128.rank)
  dot_S600000x16_S16x128_S600000x128_1_0_0_1_n_n_wf : DotDims.WF S600000x16 S16x128 S600000x128 [1] [0] [0] [1] [] []
  dot_S600000x128_S128x128_S600000x128_1_0_0_1_n_n_wf : DotDims.WF S600000x128 S128x128 S600000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  scatter_S1024x128_S50000x1_S50000x128_1_0_0_1_wf : ScatterDims.WF S1024x128 S50000x1 S50000x128 [1] [0] [0] 1
  dot_S1024x128_S128x128_S1024x128_1_0_0_1_n_n_wf : DotDims.WF S1024x128 S128x128 S1024x128 [1] [0] [0] [1] [] []

variable [Facts₀]

def dot_S600000x16_S16x128_S600000x128_1_0_0_1_n_n : DotDims S600000x16 S16x128 S600000x128 where
  lhsContracting := [1]
  rhsContracting := [0]
  lhsNonContracting := [0]
  rhsNonContracting := [1]
  lhsBatch := []
  rhsBatch := []
  wf := dot_S600000x16_S16x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S1024x128_S50000x1_S50000x128_1_0_0_1 : ScatterDims S1024x128 S50000x1 S50000x128 where
  updateWindowDims := [1]
  insertedWindowDims := [0]
  scatterDimsToOperandDims := [0]
  indexVectorDim := 1
  wf := scatter_S1024x128_S50000x1_S50000x128_1_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

class Facts : Prop extends Facts₀ where

variable [Facts]
-- ==== Proof.KRun.lean ====
/-
  The idealized kernel program's run with its result buffer read off the final state.

  The program is five pipelined regions among stretches of host operations.  Its generated frame certificate folds the
  buffer contents through every segment boundary (the contents after the last region are `W16`) and reads the final
  state against that fold for the argument arrays only.  Here the same run is read at one more buffer, the program's
  result: every weakly fair execution terminates, nothing faults, the result buffer holds the fold's contents at
  it, and the argument arrays are unchanged.  What those contents are, as a function of the arguments, is the
  business of the modules that open the fold.
-/
import proofs.«145339_j5291399709172_2_alg».proof.Proof.Gen.KernelIdeal.Frame

set_option maxRecDepth 16384

noncomputable section

namespace Cert.Gine.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the contents the
    fold through the segments gives it, and every argument array as launched. -/
theorem run_result : θ_run defs (onTc (τ := τ) (main (F := F))) ⟨m, fun _ => 0, ρ⟩ (fun r => ∀ c : Dev nD,
      r.2.mem ((c.tc : Thread nD τ).loc main_v62) = W16 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v62 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c),
       (h c _ (mem_uc main_arg15 (by decide))).trans (W16_main_arg15 m ρ c),
       (h c _ (mem_uc main_arg16 (by decide))).trans (W16_main_arg16 m ρ c),
       (h c _ (mem_uc main_arg17 (by decide))).trans (W16_main_arg17 m ρ c),
       (h c _ (mem_uc main_arg18 (by decide))).trans (W16_main_arg18 m ρ c),
       (h c _ (mem_uc main_arg19 (by decide))).trans (W16_main_arg19 m ρ c),
       (h c _ (mem_uc main_arg20 (by decide))).trans (W16_main_arg20 m ρ c),
       (h c _ (mem_uc main_arg21 (by decide))).trans (W16_main_arg21 m ρ c),
       (h c _ (mem_uc main_arg22 (by decide))).trans (W16_main_arg22 m ρ c),
       (h c _ (mem_uc main_arg23 (by decide))).trans (W16_main_arg23 m ρ c),
       (h c _ (mem_uc main_arg24 (by decide))).trans (W16_main_arg24 m ρ c)⟩)

end Cert.Gine.KRun

end
-- ==== Proof.LibTailWrites.lean ====
/- Host lines that write only "late" buffers.

   Every buffer a TensorCore names has a slot number.  In the programs at hand the argument arrays have the
   lowest slot numbers, the arrays a pipelined region works on come next, and every host line after the region
   writes a buffer with a still higher number.  So the statement "this line writes nothing below slot n" is
   all that is needed to know that a buffer below slot n keeps its contents across any number of such lines,
   and it is proved for a line by looking at the one buffer it writes. -/
import Idealize.ShloMosaic.Lib.Pipeline.FrameSuffix

noncomputable section

namespace Cert.TailLib

open Idealize.ShloMosaic

variable {τ : Topo} {sig : RefSig} {Val : EltTy → Type}

/-- The operation writes only TensorCore references whose slot number is at least `n`. -/
def WritesFrom (n : ℕ) (op : HloOp τ sig Val) : Prop :=
  ∀ b ∈ op.writes, ∃ y : Ref sig .tc, n ≤ y.idx.val ∧ b = Proc.devRef .tc y

/-- An operation whose only written buffer is the reference `y`, of slot number at least `n`. -/
theorem writesFrom_of_eq {n : ℕ} {op : HloOp τ sig Val} {y : Ref sig .tc}
    (e : op.writes = {Proc.devRef .tc y}) (h : n ≤ y.idx.val) : WritesFrom n op :=
  fun b hb => ⟨y, h, Finset.mem_singleton.mp (e ▸ hb)⟩

/-- Such an operation does not write a reference of a lower slot number: two references with different slot
    numbers are different, and different references are different buffers of the device. -/
theorem not_mem_writes {n : ℕ} {op : HloOp τ sig Val} (h : WritesFrom n op) {r : Ref sig .tc} (hr : r.idx.val < n) :
    Proc.devRef (τ := τ) .tc r ∉ op.writes := by
  intro hb
  obtain ⟨y, hy, e⟩ := h _ hb
  have hry : r = y := Proc.devRef_injective _ e
  subst hry
  omega

/-- Across stretches of such operations a reference of a lower slot number keeps its contents. -/
theorem after_flatten_low {n : ℕ} (opss : List (List (HloOp τ sig Val)))
    (h : ∀ ops ∈ opss, ops.Forall (WritesFrom n)) (V : Valuation τ sig Val) {r : Ref sig .tc} (hr : r.idx.val < n) :
    StableHlo.after opss.flatten V (Proc.devRef .tc r) = V (Proc.devRef .tc r) :=
  StableHlo.after_of_forall_not_mem _ _ fun op hop => by
    obtain ⟨ops, hops, hop'⟩ := List.mem_flatten.mp hop
    exact not_mem_writes ((List.forall_iff_forall_mem.mp (h ops hops)) op hop') hr

end Cert.TailLib

end
-- ==== Proof.LibStretchKeeps.lean ====
/-
  A stretch of host operations that writes only buffers of slot number at least `n` keeps every buffer below slot `n`.
-/
import proofs.«145339_j5291399709172_2_alg».proof.Proof.LibTailWrites
import Idealize.ShloMosaic.Lib.StableHlo.Run

noncomputable section

namespace Cert.TailLib

open Idealize.ShloMosaic

variable {τ : Topo} {sig : RefSig} {Val : EltTy → Type}

/-- Across one stretch of operations that write only slots from `n` on, a reference of a lower slot number keeps its
    contents. -/
theorem after_low {n : ℕ} (ops : List (HloOp τ sig Val)) (h : ops.Forall (WritesFrom n)) (V : Valuation τ sig Val)
    {r : Ref sig .tc} (hr : r.idx.val < n) :
    StableHlo.after ops V (Proc.devRef .tc r) = V (Proc.devRef .tc r) :=
  StableHlo.after_of_forall_not_mem _ _ fun op hop => not_mem_writes ((List.forall_iff_forall_mem.mp h) op hop) hr

/-- Decides `ops.Forall (WritesFrom n)` for a literal list of the builders' operations (the list unfolded first). -/
macro "writes_from" : tactic => `(tactic| (
  simp only [List.Forall]
  repeat' apply And.intro
  all_goals first
    | exact writesFrom_of_eq (StableHlo.nullary_writes ..) (by decide)
    | exact writesFrom_of_eq (StableHlo.unary_writes ..) (by decide)
    | exact writesFrom_of_eq (StableHlo.binary_writes ..) (by decide)
    | exact writesFrom_of_eq (StableHlo.ternary_writes ..) (by decide)
    | exact writesFrom_of_eq (StableHlo.reshape_writes ..) (by decide)))

end Cert.TailLib

end
-- ==== Proof.Keep.lean ====
/-
  Which buffers the host stretches of the kernel program leave alone.

  The program is in single-assignment form and its buffers are numbered in program order, so every operation of a
  stretch writes a buffer numbered at least as high as the stretch's first result.  A buffer with a lower number —
  an argument, or a result of an earlier stretch or region — therefore keeps its contents across the stretch, and
  across the three stretches between two regions.
-/
import proofs.«145339_j5291399709172_2_alg».proof.Proof.Gen.KernelIdeal.Frame
import proofs.«145339_j5291399709172_2_alg».proof.Proof.LibStretchKeeps

noncomputable section

namespace Cert.Gine.Keep

open Idealize.ShloMosaic Idealize.ShloMosaic.TcCoe Idealize.SL.Sem Cert.TailLib
open Cert.KernelIdeal Cert.KernelIdeal.Gen

variable {F : FTy → Type} [FloatOps F]

theorem hostOps0_from : (hostOps0 : List (HloOp τ sig (Elt F))).Forall (WritesFrom 25) := by
  unfold hostOps0
  writes_from
theorem hostOps1_from : (hostOps1 : List (HloOp τ sig (Elt F))).Forall (WritesFrom 32) := by
  unfold hostOps1
  writes_from
theorem hostOps1_1_from : (hostOps1_1 : List (HloOp τ sig (Elt F))).Forall (WritesFrom 43) := by
  unfold hostOps1_1
  writes_from
theorem hostOps1_2_from : (hostOps1_2 : List (HloOp τ sig (Elt F))).Forall (WritesFrom 46) := by
  unfold hostOps1_2
  writes_from
theorem hostOps2_from : (hostOps2 : List (HloOp τ sig (Elt F))).Forall (WritesFrom 54) := by
  unfold hostOps2
  writes_from
theorem hostOps2_1_from : (hostOps2_1 : List (HloOp τ sig (Elt F))).Forall (WritesFrom 65) := by
  unfold hostOps2_1
  writes_from
theorem hostOps2_2_from : (hostOps2_2 : List (HloOp τ sig (Elt F))).Forall (WritesFrom 68) := by
  unfold hostOps2_2
  writes_from
theorem hostOps3_from : (hostOps3 : List (HloOp τ sig (Elt F))).Forall (WritesFrom 76) := by
  unfold hostOps3
  writes_from
theorem hostOps3_1_from : (hostOps3_1 : List (HloOp τ sig (Elt F))).Forall (WritesFrom 87) := by
  unfold hostOps3_1
  writes_from
theorem hostOps3_2_from : (hostOps3_2 : List (HloOp τ sig (Elt F))).Forall (WritesFrom 90) := by
  unfold hostOps3_2
  writes_from
theorem hostOps4_from : (hostOps4 : List (HloOp τ sig (Elt F))).Forall (WritesFrom 98) := by
  unfold hostOps4
  writes_from

variable (m : (ℓ : Loc nD τ sig) → Buf (Elt F) ℓ) (ρ : Dev nD → PrngReg) (c : Dev nD)

/-- Before region 0 an argument is as launched. -/
theorem W1_low {r : Ref sig .tc} (hr : r.idx.val < 25) : W1 m ρ c (Proc.devRef .tc r) = m ((c : Thread nD τ).loc r) :=
  after_low hostOps0 hostOps0_from (W0 m ρ c) hr

/-- Between region 0 and region 1. -/
theorem W5_low {r : Ref sig .tc} (hr : r.idx.val < 32) : W5 m ρ c (Proc.devRef .tc r) = W2 m ρ c (Proc.devRef .tc r) :=
  (after_low hostOps1_2 hostOps1_2_from (W4 m ρ c) (by omega)).trans
    ((after_low hostOps1_1 hostOps1_1_from (W3 m ρ c) (by omega)).trans (after_low hostOps1 hostOps1_from (W2 m ρ c) hr))

/-- Between region 1 and region 2. -/
theorem W9_low {r : Ref sig .tc} (hr : r.idx.val < 54) : W9 m ρ c (Proc.devRef .tc r) = W6 m ρ c (Proc.devRef .tc r) :=
  (after_low hostOps2_2 hostOps2_2_from (W8 m ρ c) (by omega)).trans
    ((after_low hostOps2_1 hostOps2_1_from (W7 m ρ c) (by omega)).trans (after_low hostOps2 hostOps2_from (W6 m ρ c) hr))

/-- Between region 2 and region 3. -/
theorem W13_low {r : Ref sig .tc} (hr : r.idx.val < 76) : W13 m ρ c (Proc.devRef .tc r) = W10 m ρ c (Proc.devRef .tc r) :=
  (after_low hostOps3_2 hostOps3_2_from (W12 m ρ c) (by omega)).trans
    ((after_low hostOps3_1 hostOps3_1_from (W11 m ρ c) (by omega)).trans (after_low hostOps3 hostOps3_from (W10 m ρ c) hr))

/-- Between region 3 and region 4. -/
theorem W15_low {r : Ref sig .tc} (hr : r.idx.val < 98) : W15 m ρ c (Proc.devRef .tc r) = W14 m ρ c (Proc.devRef .tc r) :=
  after_low hostOps4 hostOps4_from (W14 m ρ c) hr

/-- A buffer numbered below region 0's stretch that no region works on is as launched, at every later boundary it is
    read at. -/
theorem arg_W2 {r : Ref sig .tc} (hr : r.idx.val < 25) (h0 : ∀ w, Pipeline.arrRef spec0 w ≠ r) :
    W2 m ρ c (Proc.devRef .tc r) = m ((c : Thread nD τ).loc r) :=
  (W2_of_ne m ρ c r h0).trans (W1_low m ρ c hr)

theorem arg_W6 {r : Ref sig .tc} (hr : r.idx.val < 25) (h0 : ∀ w, Pipeline.arrRef spec0 w ≠ r)
    (h1 : ∀ w, Pipeline.arrRef spec1 w ≠ r) : W6 m ρ c (Proc.devRef .tc r) = m ((c : Thread nD τ).loc r) :=
  (W6_of_ne m ρ c r h1).trans ((W5_low m ρ c (by omega)).trans (arg_W2 m ρ c hr h0))

theorem arg_W10 {r : Ref sig .tc} (hr : r.idx.val < 25) (h0 : ∀ w, Pipeline.arrRef spec0 w ≠ r)
    (h1 : ∀ w, Pipeline.arrRef spec1 w ≠ r) (h2 : ∀ w, Pipeline.arrRef spec2 w ≠ r) :
    W10 m ρ c (Proc.devRef .tc r) = m ((c : Thread nD τ).loc r) :=
  (W10_of_ne m ρ c r h2).trans ((W9_low m ρ c (by omega)).trans (arg_W6 m ρ c hr h0 h1))

theorem arg_W14 {r : Ref sig .tc} (hr : r.idx.val < 25) (h0 : ∀ w, Pipeline.arrRef spec0 w ≠ r)
    (h1 : ∀ w, Pipeline.arrRef spec1 w ≠ r) (h2 : ∀ w, Pipeline.arrRef spec2 w ≠ r) (h3 : ∀ w, Pipeline.arrRef spec3 w ≠ r) :
    W14 m ρ c (Proc.devRef .tc r) = m ((c : Thread nD τ).loc r) :=
  (W14_of_ne m ρ c r h3).trans ((W13_low m ρ c (by omega)).trans (arg_W10 m ρ c hr h0 h1 h2))

end Cert.Gine.Keep

end
-- ==== Proof.HostFns.lean ====
/-
  The host side of the kernel program as functions of whole arrays.

  Between two regions the host computes a layer's neighbourhood sum from the node features h, the edge features e and
  the edge index array: the source row of every edge (a negative source wrapped once by the number of nodes) is gathered
  from h, e is added, the sum is rectified, and the result is summed into the target rows.  The three layers spell it with
  the same operations, so it is ONE function `aggK` of (src, dst, h, e); the per-graph sum after the last layer is
  `poolK`.  Both are only ever carried, never opened.
-/
import proofs.«145339_j5291399709172_2_alg».proof.Proof.Gen.KernelIdeal
import Idealize.ShloMosaic.PureOps.Ideal

noncomputable section

namespace Cert.Gine.HostK

open Idealize.ShloMosaic Cert.KernelIdeal Cert.KernelIdeal.Gen

/-- A layer's neighbourhood sum, in the kernel program's host operations. -/
def aggK (src dst : (⟨S600000, .i32⟩ : BufTy).Contents (Elt Ideal)) (h : (⟨S50000x128, .f32⟩ : BufTy).Contents (Elt Ideal))
    (e : (⟨S600000x128, .bf16⟩ : BufTy).Contents (Elt Ideal)) : (⟨S50000x128, .f32⟩ : BufTy).Contents (Elt Ideal) :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (maximumf
      (addf
        (Host.gather gather_S50000x128_S600000x1_S600000x128_1_0_n_n_0_1_1128 h
          (broadcastInDim S600000x1 ![0] bcast_S600000_S600000x1_0
            (select (cmpi .slt src (broadcastInDim S600000 ![] bcast_S_S600000 (constantI S_ 32 0#32)))
              (addi src (broadcastInDim S600000 ![] bcast_S_S600000 (constantI S_ 32 50000#32))) src)))
        (extf (F := Ideal) .f32 e bitsLt_bf16_f32))
      (broadcastInDim S600000x128 ![] bcast_S_S600000x128 (constant (F := Ideal) S_ .f32 0x00000000#32)))

/-- The per-graph sum. -/
def poolK (batch : (⟨S50000, .i32⟩ : BufTy).Contents (Elt Ideal)) (h : (⟨S50000x128, .f32⟩ : BufTy).Contents (Elt Ideal)) :
    (⟨S1024x128, .f32⟩ : BufTy).Contents (Elt Ideal) :=
  Host.scatterAdd (F := Ideal) scatter_S1024x128_S50000x1_S50000x128_1_0_0_1
    (broadcastInDim S1024x128 ![] bcast_S_S1024x128 (constant (F := Ideal) S_ .f32 0x00000000#32))
    (broadcastInDim S50000x1 ![0] bcast_S50000_S50000x1_0 batch) h

/-- Source and target rows of the edges: the two rows of the edge index array. -/
def srcOf (x1 : (⟨S2x600000, .i32⟩ : BufTy).Contents (Elt Ideal)) : (⟨S600000, .i32⟩ : BufTy).Contents (Elt Ideal) :=
  shapeCast S600000 (extractStridedSlice S1x600000 ![0, 0] x1 slices_S2x600000_S1x600000_0_0) shapeCasts_S1x600000_S600000
def dstOf (x1 : (⟨S2x600000, .i32⟩ : BufTy).Contents (Elt Ideal)) : (⟨S600000, .i32⟩ : BufTy).Contents (Elt Ideal) :=
  shapeCast S600000 (extractStridedSlice S1x600000 ![1, 0] x1 slices_S2x600000_S1x600000_1_0) shapeCasts_S1x600000_S600000

end Cert.Gine.HostK

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.LibMatmul2.lean ====
/-
  A matrix product of a `[M, K]` array by a `[K, N]` array, contracted over the one shared axis, read at `(p, q)`:
  the sum over `k` of the left operand at `(p, k)` times the right operand at `(k, q)`.
-/
import Idealize.ShloMosaic.PureOps.Ideal
import Idealize.ShloMosaic.PureOps.Ideal.Laws
import Idealize.ShloMosaic.Lib.ValueIdx
import proofs.«145339_j5291399709172_2_alg».proof.Proof.LibDotSum

noncomputable section

open scoped BigOperators

namespace Idealize.ShloMosaic.LibMatmul2

open Idealize.ShloMosaic Idealize.ShloMosaic.ValueIdx

/-- The contraction sum of a `[M, K] × [K, N]` product at `(p, q)`, over the contracted coordinate.  The two facts
    about the free axes (`hl0`, `hr1`: the left operand's row is the result's row, the right operand's column the result's
    column) are read off a program's literal dimension numbers. -/
theorem contr_sum {M K N : Nat} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (x : (⟨2, ![M, K]⟩ : Shape).Idx → EReal) (y : (⟨2, ![K, N]⟩ : Shape).Idx → EReal) (p : Fin M) (q : Fin N) :
    ∑ c : D.contr.Idx, x (D.lhsIdx (ix2 p q) c) * y (D.rhsIdx (ix2 p q) c) = ∑ k : Fin K, x (ix2 p k) * y (ix2 k q) := by
  refine LibDotSum.sum_single D K hr hs x y (ix2 p q) (fun k => x (ix2 p k)) (fun k => y (ix2 k q)) (fun k => ?_) (fun k => ?_)
  · refine congrArg x (funext fun a => Fin.ext ?_)
    match a with
    | ⟨0, _⟩ => exact hl0 _ _
    | ⟨1, _⟩ => exact LibDotSum.lhs_contr_val D K hr hs hlc _ k
  · refine congrArg y (funext fun a => Fin.ext ?_)
    match a with
    | ⟨0, _⟩ => exact LibDotSum.rhs_contr_val D K hr hs hrc _ k
    | ⟨1, _⟩ => exact hr1 _ _

/-- A kernel's matrix product into a zero accumulator, at `(p, q)`. -/
theorem matmul_zero_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) :=
  (Ideal.matmul_constant_zero_apply D prec x y (ix2 p q)).trans (contr_sum D hr hs hlc hrc hl0 hr1 x y p q)

/-- The host's `dot_general` of the same shape, at `(p, q)`. -/
theorem dotGeneral_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  simp only [Host.dotGeneral]
  rw [Ideal.dotGeneral_apply]
  exact contr_sum D hr hs hlc hrc hl0 hr1 x y p q

end Idealize.ShloMosaic.LibMatmul2

end
-- ==== Proof.LibHostBroadcast.lean ====
/-
  Array operations of the host read at an index, for any sizes.

  A vector laid out as a one-column matrix, a column repeated over the columns of a matrix, a vector laid out as a
  one-row matrix, a row repeated over the rows of a matrix, and a scalar repeated everywhere: each result entry is one
  entry of the operand, named here.  Also: row numbers as words — when a word's signed value is a row of a table, reading
  the table at that word, with negative words counted from the end and the result clamped, reads that very row.
-/
import Idealize.ShloMosaic.PureOps.Ideal
import Idealize.ShloMosaic.Lib.ValueIdx
import Idealize.ShloMosaic.Lib.Pipeline.Value

noncomputable section

namespace Cert.HostPat

open Idealize.ShloMosaic Idealize.ShloMosaic.ValueIdx

variable {α : Type}

/-- A vector `[R]` laid out as a column `[R, 1]`, read at `(e, u)`: entry `e`. -/
theorem col_apply {R : Nat} (h : (⟨1, ![R]⟩ : Shape).BroadcastsInDim ⟨2, ![R, 1]⟩ ![0])
    (x : (⟨1, ![R]⟩ : Shape).Idx → α) (e : Fin R) (u : Fin 1) :
    broadcastInDim ⟨2, ![R, 1]⟩ ![0] h x (ix2 e u) = x (ix1 e) :=
  broadcastInDim_apply _ h x _ _ (fun a => by
    match a with
    | ⟨0, _⟩ =>
      show e.val = if R = 1 then 0 else e.val
      by_cases h1 : R = 1
      · rw [if_pos h1]; have := e.isLt; omega
      · rw [if_neg h1])

/-- A column `[R, 1]` repeated over `C` columns, read at `(e, k)`: the column's entry `(e, 0)`. -/
theorem colCols_apply {R C : Nat} (h : (⟨2, ![R, 1]⟩ : Shape).BroadcastsInDim ⟨2, ![R, C]⟩ ![0, 1])
    (x : (⟨2, ![R, 1]⟩ : Shape).Idx → α) (e : Fin R) (k : Fin C) :
    broadcastInDim ⟨2, ![R, C]⟩ ![0, 1] h x (ix2 e k) = x (ix2 e 0) :=
  broadcastInDim_apply _ h x _ _ (fun a => by
    match a with
    | ⟨0, _⟩ =>
      show e.val = if R = 1 then 0 else e.val
      by_cases h1 : R = 1
      · rw [if_pos h1]; have := e.isLt; omega
      · rw [if_neg h1]
    | ⟨1, _⟩ => rfl)

/-- A vector `[C]` laid out as a row `[1, C]`, read at `(u, k)`: entry `k`. -/
theorem row_apply {C : Nat} (h : (⟨1, ![C]⟩ : Shape).BroadcastsInDim ⟨2, ![1, C]⟩ ![1])
    (x : (⟨1, ![C]⟩ : Shape).Idx → α) (u : Fin 1) (k : Fin C) :
    broadcastInDim ⟨2, ![1, C]⟩ ![1] h x (ix2 u k) = x (ix1 k) :=
  broadcastInDim_apply _ h x _ _ (fun a => by
    match a with
    | ⟨0, _⟩ =>
      show k.val = if C = 1 then 0 else k.val
      by_cases h1 : C = 1
      · rw [if_pos h1]; have := k.isLt; omega
      · rw [if_neg h1])

/-- A row `[1, C]` repeated over `N` rows, read at `(p, k)`: the row's entry `(0, k)`. -/
theorem rowRows_apply {N C : Nat} (h : (⟨2, ![1, C]⟩ : Shape).BroadcastsInDim ⟨2, ![N, C]⟩ ![0, 1])
    (x : (⟨2, ![1, C]⟩ : Shape).Idx → α) (p : Fin N) (k : Fin C) :
    broadcastInDim ⟨2, ![N, C]⟩ ![0, 1] h x (ix2 p k) = x (ix2 0 k) :=
  broadcastInDim_apply _ h x _ _ (fun a => by
    match a with
    | ⟨0, _⟩ => rfl
    | ⟨1, _⟩ =>
      show k.val = if C = 1 then 0 else k.val
      by_cases h1 : C = 1
      · rw [if_pos h1]; have := k.isLt; omega
      · rw [if_neg h1])

/-- A scalar repeated over any shape, read anywhere: the scalar. -/
theorem splat_apply (t : Shape) (h : (⟨0, ![]⟩ : Shape).BroadcastsInDim t ![])
    (x : (⟨0, ![]⟩ : Shape).Idx → α) (j : t.Idx) (k : (⟨0, ![]⟩ : Shape).Idx) :
    broadcastInDim t ![] h x j = x k :=
  broadcastInDim_apply _ h x _ _ (fun a => a.elim0)

end Cert.HostPat

end
-- ==== Proof.LibEdgeMlp.lean ====
/-
  A two-layer perceptron applied to every row, `relu (x · W1 + b1) · W2 + b2`, on the extended reals, for any widths.

  For a row `xr` of `I` entries, weights `w1` (`I` by `H`) and `w2` (`H` by `O`) and biases `b1`, `b2`,
    hid k = max (Σ i, xr i * w1 (i, k) + b1 k) 0          (k < H)
    out q = Σ k, hid k * w2 (k, q) + b2 q                 (q < O).
  The zero of the rectifier is kept as the constant of the zero word, never evaluated.

  A block of `R` rows computed with two matrix products into zero accumulators — the hidden layer passing through a
  change of float format, which is the identity on the extended reals — and bias rows broadcast over the rows
  (`block_apply`), and the whole array computed on the host with the biases laid as rows and repeated
  (`host_apply`), are both `out` of the row: no rearrangement of sums is involved.  So any tiling of the rows
  computes the one function `rows`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«145339_j5291399709172_2_alg».proof.Proof.LibMatmul2
import proofs.«145339_j5291399709172_2_alg».proof.Proof.LibHostBroadcast

noncomputable section

open scoped BigOperators

namespace Idealize.ShloMosaic.LibEdgeMlp

open Idealize.ShloMosaic Idealize.ShloMosaic.ValueIdx

variable {I H O : ℕ}

/-- Entry `k` of a row's hidden layer. -/
def hid (xr : Fin I → EReal) (w1 : (⟨2, ![I, H]⟩ : Shape).Idx → EReal) (b1 : Fin H → EReal) (k : Fin H) : EReal :=
  max ((∑ i : Fin I, xr i * w1 (ix2 i k)) + b1 k) (Ideal.ofBits .f32 0x00000000#32)

/-- Entry `q` of a row's output. -/
def out (xr : Fin I → EReal) (w1 : (⟨2, ![I, H]⟩ : Shape).Idx → EReal) (b1 : Fin H → EReal)
    (w2 : (⟨2, ![H, O]⟩ : Shape).Idx → EReal) (b2 : Fin O → EReal) (q : Fin O) : EReal :=
  (∑ k : Fin H, hid xr w1 b1 k * w2 (ix2 k q)) + b2 q

/-- The perceptron applied to every row of an `[N, I]` array, the biases given as one-row matrices. -/
def rows {N : ℕ} (x : (⟨2, ![N, I]⟩ : Shape).Idx → EReal) (w1 : (⟨2, ![I, H]⟩ : Shape).Idx → EReal)
    (b1 : (⟨2, ![1, H]⟩ : Shape).Idx → EReal) (w2 : (⟨2, ![H, O]⟩ : Shape).Idx → EReal)
    (b2 : (⟨2, ![1, O]⟩ : Shape).Idx → EReal) : (⟨2, ![N, O]⟩ : Shape).Idx → EReal :=
  fun i => out (fun k => x (ix2 (i 0) k)) w1 (fun k => b1 (ix2 (0 : Fin 1) k)) w2 (fun q => b2 (ix2 (0 : Fin 1) q)) (i 1)

theorem rows_apply {N : ℕ} (x : (⟨2, ![N, I]⟩ : Shape).Idx → EReal) (w1 : (⟨2, ![I, H]⟩ : Shape).Idx → EReal)
    (b1 : (⟨2, ![1, H]⟩ : Shape).Idx → EReal) (w2 : (⟨2, ![H, O]⟩ : Shape).Idx → EReal)
    (b2 : (⟨2, ![1, O]⟩ : Shape).Idx → EReal) (r : Fin N) (q : Fin O) :
    rows x w1 b1 w2 b2 (ix2 r q)
      = out (fun k => x (ix2 r k)) w1 (fun k => b1 (ix2 (0 : Fin 1) k)) w2 (fun q => b2 (ix2 (0 : Fin 1) q)) q := rfl

/-- The hidden layer of a block of `R` rows at `(p, k)`. -/
theorem block_hid_apply {R : ℕ} {φ₁ φ₂ : FTy} (D1 : DotDims ⟨2, ![R, I]⟩ ⟨2, ![I, H]⟩ ⟨2, ![R, H]⟩)
    (hr : D1.contr.rank = 1) (hs : D1.contr.size ⟨0, by omega⟩ = I)
    (hlc : D1.lhsContracting = [1]) (hrc : D1.rhsContracting = [0])
    (hl0 : ∀ j q, (D1.lhsIdx j q 0).val = (j 0).val) (hr1 : ∀ j q, (D1.rhsIdx j q 1).val = (j 1).val)
    (bb1 : (⟨2, ![1, H]⟩ : Shape).Broadcasts ⟨2, ![R, H]⟩)
    (x : FVec Ideal ⟨2, ![R, I]⟩ φ₁) (w1 : FVec Ideal ⟨2, ![I, H]⟩ φ₂) (b1 : FVec Ideal ⟨2, ![1, H]⟩ .f32)
    (p : Fin R) (k : Fin H) :
    maximumf
        (addf (FloatOps.matmul D1 none x w1 (constant ⟨2, ![R, H]⟩ .f32 0x00000000#32)) (broadcastTo ⟨2, ![R, H]⟩ b1 bb1))
        (broadcast ⟨2, ![R, H]⟩ (FloatOps.ofBits (F := Ideal) .f32 0x00000000#32)) (ix2 p k)
      = hid (fun i => x (ix2 p i)) w1 (fun k => b1 (ix2 (0 : Fin 1) k)) k := by
  rw [maximumf_apply, addf_apply, broadcast_apply,
    LibMatmul2.matmul_zero_apply D1 hr hs hlc hrc hl0 hr1 none x w1 p k, broadcastTo_1b_ab_apply b1 bb1 p k]
  rfl

/-- A block of `R` rows of the output at `(p, q)` is `out` of the block's row `p`. -/
theorem block_apply {R : ℕ} {φ₁ φ₂ φ₃ : FTy} (D1 : DotDims ⟨2, ![R, I]⟩ ⟨2, ![I, H]⟩ ⟨2, ![R, H]⟩)
    (D2 : DotDims ⟨2, ![R, H]⟩ ⟨2, ![H, O]⟩ ⟨2, ![R, O]⟩)
    (hr : D1.contr.rank = 1) (hs : D1.contr.size ⟨0, by omega⟩ = I)
    (hlc : D1.lhsContracting = [1]) (hrc : D1.rhsContracting = [0])
    (hl0 : ∀ j q, (D1.lhsIdx j q 0).val = (j 0).val) (hr1 : ∀ j q, (D1.rhsIdx j q 1).val = (j 1).val)
    (hr' : D2.contr.rank = 1) (hs' : D2.contr.size ⟨0, by omega⟩ = H)
    (hlc' : D2.lhsContracting = [1]) (hrc' : D2.rhsContracting = [0])
    (hl0' : ∀ j q, (D2.lhsIdx j q 0).val = (j 0).val) (hr1' : ∀ j q, (D2.rhsIdx j q 1).val = (j 1).val)
    (bb1 : (⟨2, ![1, H]⟩ : Shape).Broadcasts ⟨2, ![R, H]⟩) (bb2 : (⟨2, ![1, O]⟩ : Shape).Broadcasts ⟨2, ![R, O]⟩)
    (hlt : FTy.bits .bf16 < FTy.bits .f32)
    (x : FVec Ideal ⟨2, ![R, I]⟩ φ₁) (w1 : FVec Ideal ⟨2, ![I, H]⟩ φ₂) (b1 : FVec Ideal ⟨2, ![1, H]⟩ .f32)
    (w2 : FVec Ideal ⟨2, ![H, O]⟩ φ₃) (b2 : FVec Ideal ⟨2, ![1, O]⟩ .f32) (p : Fin R) (q : Fin O) :
    addf
        (FloatOps.matmul D2 none
          (truncf .bf16
            (maximumf
              (addf (FloatOps.matmul D1 none x w1 (constant ⟨2, ![R, H]⟩ .f32 0x00000000#32))
                (broadcastTo ⟨2, ![R, H]⟩ b1 bb1))
              (broadcast ⟨2, ![R, H]⟩ (FloatOps.ofBits (F := Ideal) .f32 0x00000000#32))) hlt)
          w2 (constant ⟨2, ![R, O]⟩ .f32 0x00000000#32))
        (broadcastTo ⟨2, ![R, O]⟩ b2 bb2) (ix2 p q)
      = out (fun i => x (ix2 p i)) w1 (fun k => b1 (ix2 (0 : Fin 1) k)) w2 (fun q => b2 (ix2 (0 : Fin 1) q)) q := by
  rw [addf_apply, LibMatmul2.matmul_zero_apply D2 hr' hs' hlc' hrc' hl0' hr1' none _ w2 p q,
    broadcastTo_1b_ab_apply b2 bb2 p q]
  unfold out
  refine congrArg (· + b2 (ix2 (0 : Fin 1) q)) (Finset.sum_congr rfl fun k _ => ?_)
  rw [truncf_apply, block_hid_apply D1 hr hs hlc hrc hl0 hr1 bb1 x w1 b1 p k]

/-- The whole array computed on the host, read at `(r, q)`: `out` of row `r`. -/
theorem host_apply {N : ℕ} (D1 : DotDims ⟨2, ![N, I]⟩ ⟨2, ![I, H]⟩ ⟨2, ![N, H]⟩)
    (D2 : DotDims ⟨2, ![N, H]⟩ ⟨2, ![H, O]⟩ ⟨2, ![N, O]⟩)
    (hr : D1.contr.rank = 1) (hs : D1.contr.size ⟨0, by omega⟩ = I)
    (hlc : D1.lhsContracting = [1]) (hrc : D1.rhsContracting = [0])
    (hl0 : ∀ j q, (D1.lhsIdx j q 0).val = (j 0).val) (hr1 : ∀ j q, (D1.rhsIdx j q 1).val = (j 1).val)
    (hr' : D2.contr.rank = 1) (hs' : D2.contr.size ⟨0, by omega⟩ = H)
    (hlc' : D2.lhsContracting = [1]) (hrc' : D2.rhsContracting = [0])
    (hl0' : ∀ j q, (D2.lhsIdx j q 0).val = (j 0).val) (hr1' : ∀ j q, (D2.rhsIdx j q 1).val = (j 1).val)
    (hb1 : (⟨1, ![H]⟩ : Shape).BroadcastsInDim ⟨2, ![1, H]⟩ ![1])
    (hb1' : (⟨2, ![1, H]⟩ : Shape).BroadcastsInDim ⟨2, ![N, H]⟩ ![0, 1])
    (hz : (⟨0, ![]⟩ : Shape).BroadcastsInDim ⟨2, ![N, H]⟩ ![])
    (hb2 : (⟨1, ![O]⟩ : Shape).BroadcastsInDim ⟨2, ![1, O]⟩ ![1])
    (hb2' : (⟨2, ![1, O]⟩ : Shape).BroadcastsInDim ⟨2, ![N, O]⟩ ![0, 1])
    (x : FVec Ideal ⟨2, ![N, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32) (r : Fin N) (q : Fin O) :
    addf
        (Host.dotGeneral D2 none
          (maximumf
            (addf (Host.dotGeneral D1 none x w1)
              (broadcastInDim ⟨2, ![N, H]⟩ ![0, 1] hb1' (broadcastInDim ⟨2, ![1, H]⟩ ![1] hb1 b1)))
            (broadcastInDim ⟨2, ![N, H]⟩ ![] hz (constant (F := Ideal) ⟨0, ![]⟩ .f32 0x00000000#32)))
          w2)
        (broadcastInDim ⟨2, ![N, O]⟩ ![0, 1] hb2' (broadcastInDim ⟨2, ![1, O]⟩ ![1] hb2 b2)) (ix2 r q)
      = out (fun i => x (ix2 r i)) w1 (fun k => b1 (ix1 k)) w2 (fun q => b2 (ix1 q)) q := by
  rw [addf_apply, LibMatmul2.dotGeneral_apply D2 hr' hs' hlc' hrc' hl0' hr1' none _ w2 r q,
    Cert.HostPat.rowRows_apply hb2' _ r q, Cert.HostPat.row_apply hb2 b2 0 q]
  unfold out
  refine congrArg (· + b2 (ix1 q)) (Finset.sum_congr rfl fun k _ => ?_)
  rw [maximumf_apply, addf_apply, LibMatmul2.dotGeneral_apply D1 hr hs hlc hrc hl0 hr1 none x w1 r k,
    Cert.HostPat.rowRows_apply hb1' _ r k, Cert.HostPat.row_apply hb1 b1 0 k,
    Cert.HostPat.splat_apply _ hz _ (ix2 r k) ix0, constant_apply]
  rfl

/-- The host's whole array IS `rows`, each bias vector laid as a one-row matrix by a change of shape. -/
theorem host_eq_rows {N : ℕ} (D1 : DotDims ⟨2, ![N, I]⟩ ⟨2, ![I, H]⟩ ⟨2, ![N, H]⟩)
    (D2 : DotDims ⟨2, ![N, H]⟩ ⟨2, ![H, O]⟩ ⟨2, ![N, O]⟩)
    (hr : D1.contr.rank = 1) (hs : D1.contr.size ⟨0, by omega⟩ = I)
    (hlc : D1.lhsContracting = [1]) (hrc : D1.rhsContracting = [0])
    (hl0 : ∀ j q, (D1.lhsIdx j q 0).val = (j 0).val) (hr1 : ∀ j q, (D1.rhsIdx j q 1).val = (j 1).val)
    (hr' : D2.contr.rank = 1) (hs' : D2.contr.size ⟨0, by omega⟩ = H)
    (hlc' : D2.lhsContracting = [1]) (hrc' : D2.rhsContracting = [0])
    (hl0' : ∀ j q, (D2.lhsIdx j q 0).val = (j 0).val) (hr1' : ∀ j q, (D2.rhsIdx j q 1).val = (j 1).val)
    (hb1 : (⟨1, ![H]⟩ : Shape).BroadcastsInDim ⟨2, ![1, H]⟩ ![1])
    (hb1' : (⟨2, ![1, H]⟩ : Shape).BroadcastsInDim ⟨2, ![N, H]⟩ ![0, 1])
    (hz : (⟨0, ![]⟩ : Shape).BroadcastsInDim ⟨2, ![N, H]⟩ ![])
    (hb2 : (⟨1, ![O]⟩ : Shape).BroadcastsInDim ⟨2, ![1, O]⟩ ![1])
    (hb2' : (⟨2, ![1, O]⟩ : Shape).BroadcastsInDim ⟨2, ![N, O]⟩ ![0, 1])
    (hc1 : (⟨1, ![H]⟩ : Shape).ShapeCasts ⟨2, ![1, H]⟩) (hc2 : (⟨1, ![O]⟩ : Shape).ShapeCasts ⟨2, ![1, O]⟩)
    (x : FVec Ideal ⟨2, ![N, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32) :
    addf
        (Host.dotGeneral D2 none
          (maximumf
            (addf (Host.dotGeneral D1 none x w1)
              (broadcastInDim ⟨2, ![N, H]⟩ ![0, 1] hb1' (broadcastInDim ⟨2, ![1, H]⟩ ![1] hb1 b1)))
            (broadcastInDim ⟨2, ![N, H]⟩ ![] hz (constant (F := Ideal) ⟨0, ![]⟩ .f32 0x00000000#32)))
          w2)
        (broadcastInDim ⟨2, ![N, O]⟩ ![0, 1] hb2' (broadcastInDim ⟨2, ![1, O]⟩ ![1] hb2 b2))
      = rows x w1 (shapeCast ⟨2, ![1, H]⟩ b1 hc1) w2 (shapeCast ⟨2, ![1, O]⟩ b2 hc2) := by
  funext i
  obtain ⟨r, q, rfl⟩ : ∃ (r : Fin N) (q : Fin O), i = ix2 r q := ⟨i 0, i 1, eq_ix2 i⟩
  rw [host_apply D1 D2 hr hs hlc hrc hl0 hr1 hr' hs' hlc' hrc' hl0' hr1' hb1 hb1' hz hb2 hb2' x w1 b1 w2 b2 r q,
    rows_apply]
  have e1 : (fun k => b1 (ix1 k)) = fun k : Fin H => shapeCast ⟨2, ![1, H]⟩ b1 hc1 (ix2 (0 : Fin 1) k) :=
    funext fun k => (shapeCast_a_1a_apply b1 hc1 (0 : Fin 1) k).symm
  have e2 : (fun q => b2 (ix1 q)) = fun q : Fin O => shapeCast ⟨2, ![1, O]⟩ b2 hc2 (ix2 (0 : Fin 1) q) :=
    funext fun q => (shapeCast_a_1a_apply b2 hc2 (0 : Fin 1) q).symm
  rw [e1, e2]

end Idealize.ShloMosaic.LibEdgeMlp

end
-- ==== Proof.Spec.lean ====
/-
  The network both programs compute, on the extended reals, as functions of whole arrays.

  Edge features:  e = relu (relu (a · W1 + b1) · W2 + b2)                       ([E, 16] → [E, 128])
  One layer:      h' = relu (relu (z · Wa + ba) · Wb + bb),  z = (1 + eps) · h + aggr,
                  where aggr = agg h e is the neighbourhood sum (a gather of rows of h, plus e, rectified,
                  summed into the target rows) — carried here as ONE function `agg`, never opened
  Read-out:       out = relu (pool h3 · Wp + bp), `pool` the per-graph sum, again one function.

  Every matrix product is a plain sum over the contracted index in its natural order, the biases are given as one-row
  matrices, and the rectifier's zero and the literal one are kept as the constants of their words.
-/
import Idealize.ShloMosaic.PureOps.Ideal
import Idealize.ShloMosaic.Lib.ValueIdx
import proofs.«145339_j5291399709172_2_alg».proof.Proof.LibEdgeMlp

noncomputable section

open scoped BigOperators

namespace Cert.Gine

open Idealize.ShloMosaic Idealize.ShloMosaic.ValueIdx

/-- An `[n, k]` array of extended reals. -/
abbrev Arr (n k : ℕ) := (⟨2, ![n, k]⟩ : Shape).Idx → EReal

/-- The rectifier's zero: the constant of the zero word. -/
def zero : EReal := Ideal.ofBits .f32 0x00000000#32
/-- The literal one of `1 + eps`: the constant of its word. -/
def one : EReal := Ideal.ofBits .f32 0x3F800000#32

/-- A bias vector laid as a one-row matrix. -/
def row {k : ℕ} (b : (⟨1, ![k]⟩ : Shape).Idx → EReal) : Arr 1 k := fun i => b (ix1 (i 1))

theorem row_apply {k : ℕ} (b : (⟨1, ![k]⟩ : Shape).Idx → EReal) (u : Fin 1) (j : Fin k) : row b (ix2 u j) = b (ix1 j) := rfl

/-- The rectifier, entry by entry. -/
def relu {n k : ℕ} (x : Arr n k) : Arr n k := fun i => max (x i) zero

/-- The edge features: a two-layer perceptron on every row, rectified. -/
def edge {N : ℕ} (a : Arr N 16) (w1 : Arr 16 128) (b1 : Arr 1 128) (w2 : Arr 128 128) (b2 : Arr 1 128) : Arr N 128 :=
  relu (LibEdgeMlp.rows a w1 b1 w2 b2)

/-- What a layer's perceptron is applied to: `(1 + eps) · h + aggr`. -/
def mix {N : ℕ} (h aggr : Arr N 128) (eps : EReal) : Arr N 128 := fun i => (one + eps) * h i + aggr i

/-- One layer's node update. -/
def node {N : ℕ} (h aggr : Arr N 128) (eps : EReal) (wa : Arr 128 128) (ba : Arr 1 128) (wb : Arr 128 128) (bb : Arr 1 128) :
    Arr N 128 :=
  relu (LibEdgeMlp.rows (mix h aggr eps) wa ba wb bb)

/-- The read-out: one rectified linear layer on every row. -/
def proj {N : ℕ} (hg : Arr N 128) (wp : Arr 128 128) (bp : Arr 1 128) : Arr N 128 :=
  fun i => LibEdgeMlp.hid (fun k => hg (ix2 (i 0) k)) wp (fun k => bp (ix2 (0 : Fin 1) k)) (i 1)

theorem relu_apply {n k : ℕ} (x : Arr n k) (i) : relu x i = max (x i) zero := rfl
theorem mix_apply {N : ℕ} (h aggr : Arr N 128) (eps : EReal) (i) : mix h aggr eps i = (one + eps) * h i + aggr i := rfl
theorem proj_apply {N : ℕ} (hg : Arr N 128) (wp : Arr 128 128) (bp : Arr 1 128) (r : Fin N) (q : Fin 128) :
    proj hg wp bp (ix2 r q) = LibEdgeMlp.hid (fun k => hg (ix2 r k)) wp (fun k => bp (ix2 (0 : Fin 1) k)) q := rfl

/-- The whole network: the edge features once, three layers, the read-out. `agg h e` is a layer's neighbourhood sum and
    `pool h` the per-graph sum; both are parameters. -/
def net {N E G : ℕ} (agg : Arr N 128 → Arr E 128 → Arr N 128) (pool : Arr N 128 → Arr G 128)
    (x : Arr N 128) (a : Arr E 16) (w1 : Arr 16 128) (b1 : Arr 1 128) (w2 : Arr 128 128) (b2 : Arr 1 128)
    (wp : Arr 128 128) (bp : Arr 1 128)
    (wa0 : Arr 128 128) (ba0 : Arr 1 128) (wb0 : Arr 128 128) (bb0 : Arr 1 128) (eps0 : EReal)
    (wa1 : Arr 128 128) (ba1 : Arr 1 128) (wb1 : Arr 128 128) (bb1 : Arr 1 128) (eps1 : EReal)
    (wa2 : Arr 128 128) (ba2 : Arr 1 128) (wb2 : Arr 128 128) (bb2 : Arr 1 128) (eps2 : EReal) : Arr G 128 :=
  let e := edge a w1 b1 w2 b2
  let h1 := node x (agg x e) eps0 wa0 ba0 wb0 bb0
  let h2 := node h1 (agg h1 e) eps1 wa1 ba1 wb1 bb1
  let h3 := node h2 (agg h2 e) eps2 wa2 ba2 wb2 bb2
  proj (pool h3) wp bp

end Cert.Gine

end
-- ==== Proof.Blocks.lean ====
/-
  The three kernel bodies, each read at one entry of the block it stores.

  A block of rows of the edge perceptron at (p, q) is the rectified two-layer row function of the block's row p; a block of
  a node update at (p, q) is the same row function applied to the row (1 + eps) · h + aggr of the block; the read-out
  block is one rectified linear layer of the row.  The changes of float format inside the bodies are the identity on
  the extended reals, and each matrix product into a zero accumulator is the plain sum over the contracted index.
-/
import proofs.«145339_j5291399709172_2_alg».proof.Proof.Gen.KernelIdeal.Skeleton
import proofs.«145339_j5291399709172_2_alg».proof.Proof.Spec
import Idealize.ShloMosaic.Lib.ValueLayout
import Idealize.ShloMosaic.Lib.Pipeline.Value

noncomputable section

open scoped BigOperators

namespace Cert.Gine.Blocks

open Idealize.ShloMosaic Idealize.ShloMosaic.ValueIdx Cert.KernelIdeal Cert.KernelIdeal.Gen

/-! ## The free axes of the four matrix products: row of the left operand, column of the right -/

theorem dA_l (j) (q : dot_S6000x16_S16x128_S6000x128_1_0_0_1_n_n.contr.Idx) : (dot_S6000x16_S16x128_S6000x128_1_0_0_1_n_n.lhsIdx j q 0).val = (j 0).val := by
  unfold DotDims.lhsIdx
  rw [dif_neg (show ¬(0 : Fin S6000x16.rank) ∈ dot_S6000x16_S16x128_S6000x128_1_0_0_1_n_n.lhsBatch by decide), dif_pos (show (0 : Fin S6000x16.rank) ∈ dot_S6000x16_S16x128_S6000x128_1_0_0_1_n_n.lhsNonContracting by decide)]
  rfl
theorem dA_r (j) (q : dot_S6000x16_S16x128_S6000x128_1_0_0_1_n_n.contr.Idx) : (dot_S6000x16_S16x128_S6000x128_1_0_0_1_n_n.rhsIdx j q 1).val = (j 1).val := by
  unfold DotDims.rhsIdx
  rw [dif_neg (show ¬(1 : Fin S16x128.rank) ∈ dot_S6000x16_S16x128_S6000x128_1_0_0_1_n_n.rhsBatch by decide), dif_pos (show (1 : Fin S16x128.rank) ∈ dot_S6000x16_S16x128_S6000x128_1_0_0_1_n_n.rhsNonContracting by decide)]
  rfl

theorem dB_l (j) (q : dot_S6000x128_S128x128_S6000x128_1_0_0_1_n_n.contr.Idx) : (dot_S6000x128_S128x128_S6000x128_1_0_0_1_n_n.lhsIdx j q 0).val = (j 0).val := by
  unfold DotDims.lhsIdx
  rw [dif_neg (show ¬(0 : Fin S6000x128.rank) ∈ dot_S6000x128_S128x128_S6000x128_1_0_0_1_n_n.lhsBatch by decide), dif_pos (show (0 : Fin S6000x128.rank) ∈ dot_S6000x128_S128x128_S6000x128_1_0_0_1_n_n.lhsNonContracting by decide)]
  rfl
theorem dB_r (j) (q : dot_S6000x128_S128x128_S6000x128_1_0_0_1_n_n.contr.Idx) : (dot_S6000x128_S128x128_S6000x128_1_0_0_1_n_n.rhsIdx j q 1).val = (j 1).val := by
  unfold DotDims.rhsIdx
  rw [dif_neg (show ¬(1 : Fin S128x128.rank) ∈ dot_S6000x128_S128x128_S6000x128_1_0_0_1_n_n.rhsBatch by decide), dif_pos (show (1 : Fin S128x128.rank) ∈ dot_S6000x128_S128x128_S6000x128_1_0_0_1_n_n.rhsNonContracting by decide)]
  rfl

theorem dN_l (j) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dN_r (j) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem dP_l (j) (q : dot_S1024x128_S128x128_S1024x128_1_0_0_1_n_n.contr.Idx) : (dot_S1024x128_S128x128_S1024x128_1_0_0_1_n_n.lhsIdx j q 0).val = (j 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem dP_r (j) (q : dot_S1024x128_S128x128_S1024x128_1_0_0_1_n_n.contr.Idx) : (dot_S1024x128_S128x128_S1024x128_1_0_0_1_n_n.rhsIdx j q 1).val = (j 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-! ## The bodies at an entry -/

/-- The edge perceptron's block at (p, q): the rectified row function of row p of the block. -/
theorem edge_block (a : Vec Ideal S6000x16 .f32) (w1 : Vec Ideal S16x128 .f32) (b1 : Vec Ideal S1x128 .f32)
    (w2 : Vec Ideal S128x128 .f32) (b2 : Vec Ideal S1x128 .f32) (p : Fin 6000) (q : Fin 128) :
    k0_pay1 (F := Ideal) a w1 b1 w2 b2 (ix2 p q)
      = max (LibEdgeMlp.out (fun i => a (ix2 p i)) w1 (fun k => b1 (ix2 (0 : Fin 1) k)) w2
          (fun k => b2 (ix2 (0 : Fin 1) k)) q) Cert.Gine.zero := by
  unfold k0_pay1
  rw [truncf_apply, maximumf_apply, broadcast_apply]
  simp only [shapeCast_self]
  rw [LibEdgeMlp.block_apply dot_S6000x16_S16x128_S6000x128_1_0_0_1_n_n dot_S6000x128_S128x128_S6000x128_1_0_0_1_n_n
    rfl rfl rfl rfl dA_l dA_r rfl rfl rfl rfl dB_l dB_r _ _ _ _ _ b1 _ b2 p q]
  rfl

/-- A node update's block at (p, q): the rectified row function of row p of (1 + eps) · h + aggr. -/
theorem node_block1 (er : Vec Ideal S1x128 .f32) (h aggr : Vec Ideal S5000x128 .f32) (wa : Vec Ideal S128x128 .f32)
    (ba : Vec Ideal S1x128 .f32) (wb : Vec Ideal S128x128 .f32) (bb : Vec Ideal S1x128 .f32) (p : Fin 5000) (q : Fin 128) :
    k1_pay1 (F := Ideal) er h aggr wa ba wb bb (ix2 p q)
      = max (LibEdgeMlp.out (fun i => (Cert.Gine.one + er (ix2 (0 : Fin 1) i)) * h (ix2 p i) + aggr (ix2 p i)) wa
          (fun k => ba (ix2 (0 : Fin 1) k)) wb (fun k => bb (ix2 (0 : Fin 1) k)) q) Cert.Gine.zero := by
  unfold k1_pay1
  rw [maximumf_apply, broadcast_apply]
  simp only [shapeCast_self]
  rw [LibEdgeMlp.block_apply dot_S5000x128_S128x128_S5000x128_1_0_0_1_n_n dot_S5000x128_S128x128_S5000x128_1_0_0_1_n_n
    rfl rfl rfl rfl dN_l dN_r rfl rfl rfl rfl dN_l dN_r _ _ _ _ _ ba _ bb p q]
  have e : (fun i : Fin 128 => (truncf .bf16 (addf (mulf (broadcastTo S5000x128 (addf (broadcast S1x128 (Scalar.ofBits (F := Ideal) .f32 0x3F800000#32)) er)
        Facts₀.broadcasts_S1x128_S5000x128) h) aggr) Facts₀.bitsLt_bf16_f32 : FVec Ideal S5000x128 .bf16) (ix2 p i))
      = fun i => (Cert.Gine.one + er (ix2 (0 : Fin 1) i)) * h (ix2 p i) + aggr (ix2 p i) := by
    funext i
    rw [truncf_apply, addf_apply, mulf_apply, broadcastTo_1b_ab_apply, addf_apply, broadcast_apply]
    rfl
  rw [e]
  rfl

/-- A node update's block at (p, q): the rectified row function of row p of (1 + eps) · h + aggr. -/
theorem node_block2 (er : Vec Ideal S1x128 .f32) (h aggr : Vec Ideal S5000x128 .f32) (wa : Vec Ideal S128x128 .f32)
    (ba : Vec Ideal S1x128 .f32) (wb : Vec Ideal S128x128 .f32) (bb : Vec Ideal S1x128 .f32) (p : Fin 5000) (q : Fin 128) :
    k2_pay1 (F := Ideal) er h aggr wa ba wb bb (ix2 p q)
      = max (LibEdgeMlp.out (fun i => (Cert.Gine.one + er (ix2 (0 : Fin 1) i)) * h (ix2 p i) + aggr (ix2 p i)) wa
          (fun k => ba (ix2 (0 : Fin 1) k)) wb (fun k => bb (ix2 (0 : Fin 1) k)) q) Cert.Gine.zero := by
  unfold k2_pay1
  rw [maximumf_apply, broadcast_apply]
  simp only [shapeCast_self]
  rw [LibEdgeMlp.block_apply dot_S5000x128_S128x128_S5000x128_1_0_0_1_n_n dot_S5000x128_S128x128_S5000x128_1_0_0_1_n_n
    rfl rfl rfl rfl dN_l dN_r rfl rfl rfl rfl dN_l dN_r _ _ _ _ _ ba _ bb p q]
  have e : (fun i : Fin 128 => (truncf .bf16 (addf (mulf (broadcastTo S5000x128 (addf (broadcast S1x128 (Scalar.ofBits (F := Ideal) .f32 0x3F800000#32)) er)
        Facts₀.broadcasts_S1x128_S5000x128) h) aggr) Facts₀.bitsLt_bf16_f32 : FVec Ideal S5000x128 .bf16) (ix2 p i))
      = fun i => (Cert.Gine.one + er (ix2 (0 : Fin 1) i)) * h (ix2 p i) + aggr (ix2 p i) := by
    funext i
    rw [truncf_apply, addf_apply, mulf_apply, broadcastTo_1b_ab_apply, addf_apply, broadcast_apply]
    rfl
  rw [e]
  rfl

/-- A node update's block at (p, q): the rectified row function of row p of (1 + eps) · h + aggr. -/
theorem node_block3 (er : Vec Ideal S1x128 .f32) (h aggr : Vec Ideal S5000x128 .f32) (wa : Vec Ideal S128x128 .f32)
    (ba : Vec Ideal S1x128 .f32) (wb : Vec Ideal S128x128 .f32) (bb : Vec Ideal S1x128 .f32) (p : Fin 5000) (q : Fin 128) :
    k3_pay1 (F := Ideal) er h aggr wa ba wb bb (ix2 p q)
      = max (LibEdgeMlp.out (fun i => (Cert.Gine.one + er (ix2 (0 : Fin 1) i)) * h (ix2 p i) + aggr (ix2 p i)) wa
          (fun k => ba (ix2 (0 : Fin 1) k)) wb (fun k => bb (ix2 (0 : Fin 1) k)) q) Cert.Gine.zero := by
  unfold k3_pay1
  rw [maximumf_apply, broadcast_apply]
  simp only [shapeCast_self]
  rw [LibEdgeMlp.block_apply dot_S5000x128_S128x128_S5000x128_1_0_0_1_n_n dot_S5000x128_S128x128_S5000x128_1_0_0_1_n_n
    rfl rfl rfl rfl dN_l dN_r rfl rfl rfl rfl dN_l dN_r _ _ _ _ _ ba _ bb p q]
  have e : (fun i : Fin 128 => (truncf .bf16 (addf (mulf (broadcastTo S5000x128 (addf (broadcast S1x128 (Scalar.ofBits (F := Ideal) .f32 0x3F800000#32)) er)
        Facts₀.broadcasts_S1x128_S5000x128) h) aggr) Facts₀.bitsLt_bf16_f32 : FVec Ideal S5000x128 .bf16) (ix2 p i))
      = fun i => (Cert.Gine.one + er (ix2 (0 : Fin 1) i)) * h (ix2 p i) + aggr (ix2 p i) := by
    funext i
    rw [truncf_apply, addf_apply, mulf_apply, broadcastTo_1b_ab_apply, addf_apply, broadcast_apply]
    rfl
  rw [e]
  rfl

/-- The read-out's block at (p, q): one rectified linear layer of row p. -/
theorem proj_block (hg : Vec Ideal S1024x128 .f32) (wp : Vec Ideal S128x128 .f32) (bp : Vec Ideal S1x128 .f32)
    (p : Fin 1024) (q : Fin 128) :
    k4_pay1 (F := Ideal) hg wp bp (ix2 p q)
      = LibEdgeMlp.hid (fun i => hg (ix2 p i)) wp (fun k => bp (ix2 (0 : Fin 1) k)) q := by
  unfold k4_pay1
  simp only [shapeCast_self]
  exact LibEdgeMlp.block_hid_apply dot_S1024x128_S128x128_S1024x128_1_0_0_1_n_n rfl rfl rfl rfl dP_l dP_r _ _ _ bp p q

end Cert.Gine.Blocks

end
-- ==== Proof.Reg0.lean ====
/-
  Region 0, the edge perceptron, as a whole-array function.

  The grid has 100 points; point t works on rows 6000·t … 6000·t + 5999 of the edge attributes and writes the same rows of
  the result, with both weight matrices and both bias rows whole at every point.  Each written entry is the rectified
  two-layer row function of its own row (Blocks.edge_block), so block t of the result is block t of `edge` of the arrays
  the region finds, and the 100 blocks tile the result: after the region the array IS `edge` of those arrays.
-/
import proofs.«145339_j5291399709172_2_alg».proof.Proof.Gen.KernelIdeal.Frame
import proofs.«145339_j5291399709172_2_alg».proof.Proof.Blocks
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Gine.Reg0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the edge rows and the result move with the point, everything else stays at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The block of edge attributes at point t: rows 6000·t … of the array. -/
theorem blk_a (c : Dev nD) (t : Fin cfg0.N) (x : S6000x16.Idx) (k : S600000x16.Idx)
    (hk0 : (k 0).val = 6000 * t.val + (x 0).val) (hk1 : (k 1).val = (x 1).val) :
    (iblk0 V c 0 t : Vec Ideal S6000x16 .f32) x = (V c main_arg2 : S600000x16.Idx → EReal) k := by
  obtain ⟨e0, e1, -⟩ := idx_facts t
  unfold iblk0
  rw [View.read_apply]
  show V c main_arg2 _ = V c main_arg2 _
  congr 1
  funext a
  apply Fin.ext
  match a with
  | ⟨0, _⟩ => show win0_0.index t 0 * 6000 + 1 * (x 0).val = (k 0).val; rw [e0, hk0]; omega
  | ⟨1, _⟩ => show win0_0.index t 1 * 16 + 1 * (x 1).val = (k 1).val; rw [e1, hk1]; omega

/-- The four whole-array windows hold their arrays at every point. -/
theorem blk_w1 (c : Dev nD) (t : Fin cfg0.N) : (iblk0 V c 1 t : Vec Ideal S16x128 .f32) = V c main_arg4 := by
  obtain ⟨-, -, e0, e1, -⟩ := idx_facts t
  funext x
  unfold iblk0
  rw [View.read_apply]
  show V c main_arg4 _ = V c main_arg4 _
  congr 1
  funext a
  apply Fin.ext
  match a with
  | ⟨0, _⟩ => show win0_1.index t 0 * 16 + 1 * (x 0).val = (x 0).val; rw [e0]; omega
  | ⟨1, _⟩ => show win0_1.index t 1 * 128 + 1 * (x 1).val = (x 1).val; rw [e1]; omega
theorem blk_b1 (c : Dev nD) (t : Fin cfg0.N) : (iblk0 V c 2 t : Vec Ideal S1x128 .f32) = V c main_v4 := by
  obtain ⟨-, -, -, -, e0, e1, -⟩ := idx_facts t
  funext x
  unfold iblk0
  rw [View.read_apply]
  show V c main_v4 _ = V c main_v4 _
  congr 1
  funext a
  apply Fin.ext
  match a with
  | ⟨0, _⟩ => show win0_2.index t 0 * 1 + 1 * (x 0).val = (x 0).val; rw [e0]; omega
  | ⟨1, _⟩ => show win0_2.index t 1 * 128 + 1 * (x 1).val = (x 1).val; rw [e1]; omega
theorem blk_w2 (c : Dev nD) (t : Fin cfg0.N) : (iblk0 V c 3 t : Vec Ideal S128x128 .f32) = V c main_arg6 := by
  obtain ⟨-, -, -, -, -, -, e0, e1, -⟩ := idx_facts t
  funext x
  unfold iblk0
  rw [View.read_apply]
  show V c main_arg6 _ = V c main_arg6 _
  congr 1
  funext a
  apply Fin.ext
  match a with
  | ⟨0, _⟩ => show win0_3.index t 0 * 128 + 1 * (x 0).val = (x 0).val; rw [e0]; omega
  | ⟨1, _⟩ => show win0_3.index t 1 * 128 + 1 * (x 1).val = (x 1).val; rw [e1]; omega
theorem blk_b2 (c : Dev nD) (t : Fin cfg0.N) : (iblk0 V c 4 t : Vec Ideal S1x128 .f32) = V c main_v5 := by
  obtain ⟨-, -, -, -, -, -, -, -, e0, e1, -⟩ := idx_facts t
  funext x
  unfold iblk0
  rw [View.read_apply]
  show V c main_v5 _ = V c main_v5 _
  congr 1
  funext a
  apply Fin.ext
  match a with
  | ⟨0, _⟩ => show win0_4.index t 0 * 1 + 1 * (x 0).val = (x 0).val; rw [e0]; omega
  | ⟨1, _⟩ => show win0_4.index t 1 * 128 + 1 * (x 1).val = (x 1).val; rw [e1]; omega

/-- One point's stored block, entry by entry, against the whole-array function: over plain vectors, the block of
    attributes given by its rows. -/
theorem point (a : Vec Ideal S6000x16 .f32) (w1 : Vec Ideal S16x128 .f32) (b1 : Vec Ideal S1x128 .f32)
    (w2 : Vec Ideal S128x128 .f32) (b2 : Vec Ideal S1x128 .f32) (A : S600000x16.Idx → EReal) (t : ℕ)
    (ha : ∀ (x : S6000x16.Idx) (k : S600000x16.Idx), (k 0).val = 6000 * t + (x 0).val → (k 1).val = (x 1).val → a x = A k)
    (j : S6000x128.Idx) (i : S600000x128.Idx) (hi0 : (i 0).val = 6000 * t + (j 0).val) (hi1 : (i 1).val = (j 1).val) :
    k0_pay1 (F := Ideal) a w1 b1 w2 b2 j = Cert.Gine.edge A w1 b1 w2 b2 i := by
  obtain ⟨p, q, rfl⟩ : ∃ (p : Fin 6000) (q : Fin 128), j = ix2 p q := ⟨j 0, j 1, eq_ix2 j⟩
  obtain ⟨r, s, rfl⟩ : ∃ (r : Fin 600000) (s : Fin 128), i = ix2 r s := ⟨i 0, i 1, eq_ix2 i⟩
  have hs : s = q := Fin.ext hi1
  subst hs
  rw [Blocks.edge_block, Cert.Gine.edge, Cert.Gine.relu_apply, LibEdgeMlp.rows_apply]
  have e : (fun i : Fin 16 => a (ix2 p i)) = fun i => A (ix2 r i) :=
    funext fun i => ha (ix2 p i) (ix2 r i) hi0 rfl
  rw [e]

/-- What point t writes back is block t of `edge` of the arrays the region finds. -/
theorem flushed_eq (c : Dev nD) (t : Fin cfg0.N) :
    (dat0 V c).flushed 5 t = ((cfg0.win 5).blk t).view.read (Elt Ideal)
      (Cert.Gine.edge (V c main_arg2) (V c main_arg4) (V c main_v4) (V c main_arg6) (V c main_v5)) := by
  show (cfg0.win 5).cut (grid0.coords t) ((dat0 V c).after 5 t) = _
  rw [after0_5]
  unfold out0_5
  rw [View.canon_unit_zero hz]
  simp only [View.ld_unit_zero (S := S6000x16) hz, View.ld_unit_zero (S := S16x128) hz, View.ld_unit_zero (S := S1x128) hz,
    View.ld_unit_zero (S := S128x128) hz]
  rw [blk_w1, blk_b1, blk_w2, blk_b2]
  obtain ⟨-, -, -, -, -, -, -, -, -, -, e0, e1⟩ := idx_facts t
  funext j
  refine point (iblk0 V c 0 t) (V c main_arg4) (V c main_v4) (V c main_arg6) (V c main_v5) (V c main_arg2) t.val
    (fun x k h0 h1 => blk_a V c t x k h0 h1) j _ ?_ ?_
  · show win0_5.index t 0 * 6000 + 1 * (j 0).val = 6000 * t.val + (j 0).val; rw [e0]; omega
  · show win0_5.index t 1 * 128 + 1 * (j 1).val = (j 1).val; rw [e1]; omega

/-- An index of the result is in point t's block iff each coordinate is in the block's range. -/
theorem mem_blk (t : Fin cfg0.N) (i : S600000x128.Idx) :
    i ∈ ((cfg0.win 5).blk t).view.set ↔ ∀ a : Fin 2, win0_5.index t a * S6000x128.size a ≤ (i a).val ∧ (i a).val < win0_5.index t a * S6000x128.size a + S6000x128.size a := by
  show i ∈ ((View.whole main_v6).slice (win0_5.rect t)).set ↔ _
  rw [View.set_slice_whole, Rect.mem_set_unit]
  exact Iff.rfl

/-- The 100 blocks tile the result: row r is in the block of point r / 6000. -/
theorem cover (i : S600000x128.Idx) : ∃ t : Fin cfg0.N, (cfg0.win 5).flush t = true ∧ i ∈ ((cfg0.win 5).blk t).view.set := by
  have hi0 : (i 0).val < 600000 := (i 0).isLt
  have hi1 : (i 1).val < 128 := (i 1).isLt
  have hN : cfg0.N = 100 := N_0
  let t : Fin cfg0.N := ⟨(i 0).val / 6000, by rw [hN]; omega⟩
  obtain ⟨-, -, -, -, -, -, -, -, -, -, e0, e1⟩ := idx_facts t
  refine ⟨t, flush0_5 t, ?_⟩
  rw [mem_blk]
  intro a
  have ht : t.val = (i 0).val / 6000 := rfl
  match a with
  | ⟨0, _⟩ => show win0_5.index t 0 * 6000 ≤ (i 0).val ∧ (i 0).val < win0_5.index t 0 * 6000 + 6000; rw [e0, ht]; omega
  | ⟨1, _⟩ => show win0_5.index t 1 * 128 ≤ (i 1).val ∧ (i 1).val < win0_5.index t 1 * 128 + 128; rw [e1]; omega

/-- After the region the result array is `edge` of the arrays the region found. -/
theorem final (c : Dev nD) :
    (dat0 V c).arrAt 5 cfg0.N
      = Cert.Gine.edge (V c main_arg2) (V c main_arg4) (V c main_v4) (V c main_arg6) (V c main_v5) :=
  (dat0 V c).arrAt_eq_of_cover 5 _ (fun t _ => flushed_eq V c t) cover

end Cert.Gine.Reg0

end
-- ==== Proof.NodePoint.lean ====
/-
  One grid point of a node update, and of the read-out, against the whole-array functions.

  A point of a node update holds 5000 consecutive rows of h and of aggr; the entry it stores at row p of its block is the
  layer's function at row 5000·t + p of the arrays, because that function of a row reads the row only.  The read-out has one
  point, holding everything.
-/
import proofs.«145339_j5291399709172_2_alg».proof.Proof.Blocks

noncomputable section

namespace Cert.Gine.Points

open Idealize.ShloMosaic Idealize.ShloMosaic.ValueIdx Cert.KernelIdeal Cert.KernelIdeal.Gen

/-- A node update's stored entry is the layer at the array's row, given the two row blocks by their rows and the
    repeated scalar by its value. -/
theorem node_point1 (er : Vec Ideal S1x128 .f32) (h aggr : Vec Ideal S5000x128 .f32) (wa : Vec Ideal S128x128 .f32)
    (ba : Vec Ideal S1x128 .f32) (wb : Vec Ideal S128x128 .f32) (bb : Vec Ideal S1x128 .f32)
    (H A : S50000x128.Idx → EReal) (eps : EReal) (t : ℕ)
    (hh : ∀ (x : S5000x128.Idx) (k : S50000x128.Idx), (k 0).val = 5000 * t + (x 0).val → (k 1).val = (x 1).val → h x = H k)
    (ha : ∀ (x : S5000x128.Idx) (k : S50000x128.Idx), (k 0).val = 5000 * t + (x 0).val → (k 1).val = (x 1).val → aggr x = A k)
    (he : ∀ j : Fin 128, er (ix2 (0 : Fin 1) j) = eps)
    (j : S5000x128.Idx) (i : S50000x128.Idx) (hi0 : (i 0).val = 5000 * t + (j 0).val) (hi1 : (i 1).val = (j 1).val) :
    k1_pay1 (F := Ideal) er h aggr wa ba wb bb j = Cert.Gine.node H A eps wa ba wb bb i := by
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  have hs : s = q := Fin.ext hi1
  subst hs
  rw [Blocks.node_block1, Cert.Gine.node, Cert.Gine.relu_apply, LibEdgeMlp.rows_apply]
  have e : (fun i : Fin 128 => (Cert.Gine.one + er (ix2 (0 : Fin 1) i)) * h (ix2 p i) + aggr (ix2 p i))
      = fun i => Cert.Gine.mix H A eps (ix2 r i) :=
    funext fun i => by rw [Cert.Gine.mix_apply, he, hh (ix2 p i) (ix2 r i) hi0 rfl, ha (ix2 p i) (ix2 r i) hi0 rfl]
  rw [e]

/-- A node update's stored entry is the layer at the array's row, given the two row blocks by their rows and the
    repeated scalar by its value. -/
theorem node_point2 (er : Vec Ideal S1x128 .f32) (h aggr : Vec Ideal S5000x128 .f32) (wa : Vec Ideal S128x128 .f32)
    (ba : Vec Ideal S1x128 .f32) (wb : Vec Ideal S128x128 .f32) (bb : Vec Ideal S1x128 .f32)
    (H A : S50000x128.Idx → EReal) (eps : EReal) (t : ℕ)
    (hh : ∀ (x : S5000x128.Idx) (k : S50000x128.Idx), (k 0).val = 5000 * t + (x 0).val → (k 1).val = (x 1).val → h x = H k)
    (ha : ∀ (x : S5000x128.Idx) (k : S50000x128.Idx), (k 0).val = 5000 * t + (x 0).val → (k 1).val = (x 1).val → aggr x = A k)
    (he : ∀ j : Fin 128, er (ix2 (0 : Fin 1) j) = eps)
    (j : S5000x128.Idx) (i : S50000x128.Idx) (hi0 : (i 0).val = 5000 * t + (j 0).val) (hi1 : (i 1).val = (j 1).val) :
    k2_pay1 (F := Ideal) er h aggr wa ba wb bb j = Cert.Gine.node H A eps wa ba wb bb i := by
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  have hs : s = q := Fin.ext hi1
  subst hs
  rw [Blocks.node_block2, Cert.Gine.node, Cert.Gine.relu_apply, LibEdgeMlp.rows_apply]
  have e : (fun i : Fin 128 => (Cert.Gine.one + er (ix2 (0 : Fin 1) i)) * h (ix2 p i) + aggr (ix2 p i))
      = fun i => Cert.Gine.mix H A eps (ix2 r i) :=
    funext fun i => by rw [Cert.Gine.mix_apply, he, hh (ix2 p i) (ix2 r i) hi0 rfl, ha (ix2 p i) (ix2 r i) hi0 rfl]
  rw [e]

/-- A node update's stored entry is the layer at the array's row, given the two row blocks by their rows and the
    repeated scalar by its value. -/
theorem node_point3 (er : Vec Ideal S1x128 .f32) (h aggr : Vec Ideal S5000x128 .f32) (wa : Vec Ideal S128x128 .f32)
    (ba : Vec Ideal S1x128 .f32) (wb : Vec Ideal S128x128 .f32) (bb : Vec Ideal S1x128 .f32)
    (H A : S50000x128.Idx → EReal) (eps : EReal) (t : ℕ)
    (hh : ∀ (x : S5000x128.Idx) (k : S50000x128.Idx), (k 0).val = 5000 * t + (x 0).val → (k 1).val = (x 1).val → h x = H k)
    (ha : ∀ (x : S5000x128.Idx) (k : S50000x128.Idx), (k 0).val = 5000 * t + (x 0).val → (k 1).val = (x 1).val → aggr x = A k)
    (he : ∀ j : Fin 128, er (ix2 (0 : Fin 1) j) = eps)
    (j : S5000x128.Idx) (i : S50000x128.Idx) (hi0 : (i 0).val = 5000 * t + (j 0).val) (hi1 : (i 1).val = (j 1).val) :
    k3_pay1 (F := Ideal) er h aggr wa ba wb bb j = Cert.Gine.node H A eps wa ba wb bb i := by
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  have hs : s = q := Fin.ext hi1
  subst hs
  rw [Blocks.node_block3, Cert.Gine.node, Cert.Gine.relu_apply, LibEdgeMlp.rows_apply]
  have e : (fun i : Fin 128 => (Cert.Gine.one + er (ix2 (0 : Fin 1) i)) * h (ix2 p i) + aggr (ix2 p i))
      = fun i => Cert.Gine.mix H A eps (ix2 r i) :=
    funext fun i => by rw [Cert.Gine.mix_apply, he, hh (ix2 p i) (ix2 r i) hi0 rfl, ha (ix2 p i) (ix2 r i) hi0 rfl]
  rw [e]

/-- The read-out's stored entry is the read-out layer at the same index. -/
theorem proj_point (hg : Vec Ideal S1024x128 .f32) (wp : Vec Ideal S128x128 .f32) (bp : Vec Ideal S1x128 .f32)
    (j i : S1024x128.Idx) (hi0 : (i 0).val = (j 0).val) (hi1 : (i 1).val = (j 1).val) :
    k4_pay1 (F := Ideal) hg wp bp j = Cert.Gine.proj hg wp bp i := by
  obtain ⟨p, q, rfl⟩ : ∃ (p : Fin 1024) (q : Fin 128), j = ix2 p q := ⟨j 0, j 1, eq_ix2 j⟩
  obtain ⟨r, s, rfl⟩ : ∃ (r : Fin 1024) (s : Fin 128), i = ix2 r s := ⟨i 0, i 1, eq_ix2 i⟩
  have hs : s = q := Fin.ext hi1
  have hr : r = p := Fin.ext hi0
  subst hs hr
  rw [Blocks.proj_block, Cert.Gine.proj_apply]

end Cert.Gine.Points

end
-- ==== Proof.Reg1.lean ====
/-
  Region 1, a node update, as a whole-array function.

  The grid has 10 points; point t works on rows 5000·t … 5000·t + 4999 of h and of aggr and writes the same rows of the
  result, with the repeated scalar row, both weight matrices and both bias rows whole at every point.  Each written
  entry is the layer's function of its own row, so block t of the result is block t of `node` of the arrays the region
  finds, and the 10 blocks tile the result.
-/
import proofs.«145339_j5291399709172_2_alg».proof.Proof.Gen.KernelIdeal.Frame
import proofs.«145339_j5291399709172_2_alg».proof.Proof.NodePoint
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Gine.Reg1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: h, aggr and the result move with the point, everything else stays at block 0. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

/-- The block of h at point t: rows 5000·t … of the array. -/
theorem blk_h (c : Dev nD) (t : Fin cfg1.N) (x : S5000x128.Idx) (k : S50000x128.Idx)
    (hk0 : (k 0).val = 5000 * t.val + (x 0).val) (hk1 : (k 1).val = (x 1).val) :
    (iblk1 V c 0 t : Vec Ideal S5000x128 .f32) x = (V c main_arg0 : S50000x128.Idx → EReal) k := by
  obtain ⟨⟨e0, e1⟩, -⟩ := idx_facts t
  unfold iblk1
  rw [View.read_apply]
  show V c main_arg0 _ = V c main_arg0 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The block of aggr at point t: the same rows. -/
theorem blk_a (c : Dev nD) (t : Fin cfg1.N) (x : S5000x128.Idx) (k : S50000x128.Idx)
    (hk0 : (k 0).val = 5000 * t.val + (x 0).val) (hk1 : (k 1).val = (x 1).val) :
    (iblk1 V c 1 t : Vec Ideal S5000x128 .f32) x = (V c main_v19 : S50000x128.Idx → EReal) k := by
  obtain ⟨-, ⟨e0, e1⟩, -⟩ := idx_facts t
  unfold iblk1
  rw [View.read_apply]
  show V c main_v19 _ = V c main_v19 _
  congr 1
  funext a
  apply Fin.ext
  match a with
  | ⟨0, _⟩ => show win1_1.index t 0 * 5000 + 1 * (x 0).val = (k 0).val; rw [e0, hk0]; omega
  | ⟨1, _⟩ => show win1_1.index t 1 * 128 + 1 * (x 1).val = (k 1).val; rw [e1, hk1]; omega

/-- The five whole-array windows hold their arrays at every point. -/
theorem blk_e (c : Dev nD) (t : Fin cfg1.N) : (iblk1 V c 2 t : Vec Ideal S1x128 .f32) = V c main_v22 := by
  obtain ⟨-, -, ⟨e0, e1⟩, -⟩ := idx_facts t
  funext x
  unfold iblk1
  rw [View.read_apply]
  show V c main_v22 _ = V c main_v22 _
  congr 1
  funext a
  apply Fin.ext
  match a with
  | ⟨0, _⟩ => show win1_2.index t 0 * 1 + 1 * (x 0).val = (x 0).val; rw [e0]; omega
  | ⟨1, _⟩ => show win1_2.index t 1 * 128 + 1 * (x 1).val = (x 1).val; rw [e1]; omega
theorem blk_wa (c : Dev nD) (t : Fin cfg1.N) : (iblk1 V c 3 t : Vec Ideal S128x128 .f32) = V c main_arg10 := by
  obtain ⟨-, -, -, ⟨e0, e1⟩, -⟩ := idx_facts t
  funext x
  unfold iblk1
  rw [View.read_apply]
  show V c main_arg10 _ = V c main_arg10 _
  congr 1
  funext a
  apply Fin.ext
  match a with
  | ⟨0, _⟩ => show win1_3.index t 0 * 128 + 1 * (x 0).val = (x 0).val; rw [e0]; omega
  | ⟨1, _⟩ => show win1_3.index t 1 * 128 + 1 * (x 1).val = (x 1).val; rw [e1]; omega
theorem blk_ba (c : Dev nD) (t : Fin cfg1.N) : (iblk1 V c 4 t : Vec Ideal S1x128 .f32) = V c main_v20 := by
  obtain ⟨-, -, -, -, ⟨e0, e1⟩, -⟩ := idx_facts t
  funext x
  unfold iblk1
  rw [View.read_apply]
  show V c main_v20 _ = V c main_v20 _
  congr 1
  funext a
  apply Fin.ext
  match a with
  | ⟨0, _⟩ => show win1_4.index t 0 * 1 + 1 * (x 0).val = (x 0).val; rw [e0]; omega
  | ⟨1, _⟩ => show win1_4.index t 1 * 128 + 1 * (x 1).val = (x 1).val; rw [e1]; omega
theorem blk_wb (c : Dev nD) (t : Fin cfg1.N) : (iblk1 V c 5 t : Vec Ideal S128x128 .f32) = V c main_arg12 := by
  obtain ⟨-, -, -, -, -, ⟨e0, e1⟩, -⟩ := idx_facts t
  funext x
  unfold iblk1
  rw [View.read_apply]
  show V c main_arg12 _ = V c main_arg12 _
  congr 1
  funext a
  apply Fin.ext
  match a with
  | ⟨0, _⟩ => show win1_5.index t 0 * 128 + 1 * (x 0).val = (x 0).val; rw [e0]; omega
  | ⟨1, _⟩ => show win1_5.index t 1 * 128 + 1 * (x 1).val = (x 1).val; rw [e1]; omega
theorem blk_bb (c : Dev nD) (t : Fin cfg1.N) : (iblk1 V c 6 t : Vec Ideal S1x128 .f32) = V c main_v21 := by
  obtain ⟨-, -, -, -, -, -, ⟨e0, e1⟩, -⟩ := idx_facts t
  funext x
  unfold iblk1
  rw [View.read_apply]
  show V c main_v21 _ = V c main_v21 _
  congr 1
  funext a
  apply Fin.ext
  match a with
  | ⟨0, _⟩ => show win1_6.index t 0 * 1 + 1 * (x 0).val = (x 0).val; rw [e0]; omega
  | ⟨1, _⟩ => show win1_6.index t 1 * 128 + 1 * (x 1).val = (x 1).val; rw [e1]; omega

/-- What point t writes back is block t of `node` of the arrays the region finds, `eps` the value the scalar row repeats. -/
theorem flushed_eq (c : Dev nD) (eps : EReal)
    (heps : ∀ j : Fin 128, (V c main_v22 : S1x128.Idx → EReal) (ix2 (0 : Fin 1) j) = eps) (t : Fin cfg1.N) :
    (dat1 V c).flushed 7 t = ((cfg1.win 7).blk t).view.read (Elt Ideal)
      (Cert.Gine.node (V c main_arg0) (V c main_v19) eps (V c main_arg10)
        (V c main_v20) (V c main_arg12) (V c main_v21)) := by
  show (cfg1.win 7).cut (grid1.coords t) ((dat1 V c).after 7 t) = _
  rw [after1_7]
  unfold out1_7
  rw [View.canon_unit_zero hz]
  simp only [View.ld_unit_zero (S := S5000x128) hz, View.ld_unit_zero (S := S1x128) hz, View.ld_unit_zero (S := S128x128) hz]
  rw [blk_e, blk_wa, blk_ba, blk_wb, blk_bb]
  obtain ⟨-, -, -, -, -, -, -, e0, e1⟩ := idx_facts t
  funext j
  refine Points.node_point1 (V c main_v22) (iblk1 V c 0 t) (iblk1 V c 1 t) (V c main_arg10)
    (V c main_v20) (V c main_arg12) (V c main_v21)
    (V c main_arg0) (V c main_v19) eps t.val
    (fun x k h0 h1 => blk_h V c t x k h0 h1) (fun x k h0 h1 => blk_a V c t x k h0 h1) heps j _ ?_ ?_
  · show win1_7.index t 0 * 5000 + 1 * (j 0).val = 5000 * t.val + (j 0).val; rw [e0]; omega
  · show win1_7.index t 1 * 128 + 1 * (j 1).val = (j 1).val; rw [e1]; omega

/-- An index of the result is in point t's block iff each coordinate is in the block's range. -/
theorem mem_blk (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v23).slice (win1_7.rect t)).set ↔ _
  rw [View.set_slice_whole, Rect.mem_set_unit]
  exact Iff.rfl

/-- The 10 blocks tile the result: row r is in the block of point r / 5000. -/
theorem cover (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, -, e0, e1⟩ := idx_facts t
  refine ⟨t, flush1_7 t, ?_⟩
  rw [mem_blk]
  intro a
  have ht : t.val = (i 0).val / 5000 := rfl
  match a with
  | ⟨0, _⟩ => show win1_7.index t 0 * 5000 ≤ (i 0).val ∧ (i 0).val < win1_7.index t 0 * 5000 + 5000; rw [e0, ht]; omega
  | ⟨1, _⟩ => show win1_7.index t 1 * 128 ≤ (i 1).val ∧ (i 1).val < win1_7.index t 1 * 128 + 128; rw [e1]; omega

/-- After the region the result array is `node` of the arrays the region found. -/
theorem final (c : Dev nD) (eps : EReal)
    (heps : ∀ j : Fin 128, (V c main_v22 : S1x128.Idx → EReal) (ix2 (0 : Fin 1) j) = eps) :
    (dat1 V c).arrAt 7 cfg1.N
      = Cert.Gine.node (V c main_arg0) (V c main_v19) eps (V c main_arg10)
          (V c main_v20) (V c main_arg12) (V c main_v21) :=
  (dat1 V c).arrAt_eq_of_cover 7 _ (fun t _ => flushed_eq V c eps heps t) cover

end Cert.Gine.Reg1

end
-- ==== Proof.Reg2.lean ====
/-
  Region 2, a node update, as a whole-array function.

  The grid has 10 points; point t works on rows 5000·t … 5000·t + 4999 of h and of aggr and writes the same rows of the
  result, with the repeated scalar row, both weight matrices and both bias rows whole at every point.  Each written
  entry is the layer's function of its own row, so block t of the result is block t of `node` of the arrays the region
  finds, and the 10 blocks tile the result.
-/
import proofs.«145339_j5291399709172_2_alg».proof.Proof.Gen.KernelIdeal.Frame
import proofs.«145339_j5291399709172_2_alg».proof.Proof.NodePoint
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Gine.Reg2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: h, aggr and the result move with the point, everything else stays at block 0. -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0) :=
  (by decide +kernel : ∀ t : Fin grid2.N, _)

/-- The block of h at point t: rows 5000·t … of the array. -/
theorem blk_h (c : Dev nD) (t : Fin cfg2.N) (x : S5000x128.Idx) (k : S50000x128.Idx)
    (hk0 : (k 0).val = 5000 * t.val + (x 0).val) (hk1 : (k 1).val = (x 1).val) :
    (iblk2 V c 0 t : Vec Ideal S5000x128 .f32) x = (V c main_v23 : S50000x128.Idx → EReal) k := by
  obtain ⟨⟨e0, e1⟩, -⟩ := idx_facts t
  unfold iblk2
  rw [View.read_apply]
  show V c main_v23 _ = V c main_v23 _
  congr 1
  funext a
  apply Fin.ext
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- The block of aggr at point t: the same rows. -/
theorem blk_a (c : Dev nD) (t : Fin cfg2.N) (x : S5000x128.Idx) (k : S50000x128.Idx)
    (hk0 : (k 0).val = 5000 * t.val + (x 0).val) (hk1 : (k 1).val = (x 1).val) :
    (iblk2 V c 1 t : Vec Ideal S5000x128 .f32) x = (V c main_v36 : S50000x128.Idx → EReal) k := by
  obtain ⟨-, ⟨e0, e1⟩, -⟩ := idx_facts t
  unfold iblk2
  rw [View.read_apply]
  show V c main_v36 _ = V c main_v36 _
  congr 1
  funext a
  apply Fin.ext
  match a with
  | ⟨0, _⟩ => show win2_1.index t 0 * 5000 + 1 * (x 0).val = (k 0).val; rw [e0, hk0]; omega
  | ⟨1, _⟩ => show win2_1.index t 1 * 128 + 1 * (x 1).val = (k 1).val; rw [e1, hk1]; omega

/-- The five whole-array windows hold their arrays at every point. -/
theorem blk_e (c : Dev nD) (t : Fin cfg2.N) : (iblk2 V c 2 t : Vec Ideal S1x128 .f32) = V c main_v39 := by
  obtain ⟨-, -, ⟨e0, e1⟩, -⟩ := idx_facts t
  funext x
  unfold iblk2
  rw [View.read_apply]
  show V c main_v39 _ = V c main_v39 _
  congr 1
  funext a
  apply Fin.ext
  match a with
  | ⟨0, _⟩ => show win2_2.index t 0 * 1 + 1 * (x 0).val = (x 0).val; rw [e0]; omega
  | ⟨1, _⟩ => show win2_2.index t 1 * 128 + 1 * (x 1).val = (x 1).val; rw [e1]; omega
theorem blk_wa (c : Dev nD) (t : Fin cfg2.N) : (iblk2 V c 3 t : Vec Ideal S128x128 .f32) = V c main_arg15 := by
  obtain ⟨-, -, -, ⟨e0, e1⟩, -⟩ := idx_facts t
  funext x
  unfold iblk2
  rw [View.read_apply]
  show V c main_arg15 _ = V c main_arg15 _
  congr 1
  funext a
  apply Fin.ext
  match a with
  | ⟨0, _⟩ => show win2_3.index t 0 * 128 + 1 * (x 0).val = (x 0).val; rw [e0]; omega
  | ⟨1, _⟩ => show win2_3.index t 1 * 128 + 1 * (x 1).val = (x 1).val; rw [e1]; omega
theorem blk_ba (c : Dev nD) (t : Fin cfg2.N) : (iblk2 V c 4 t : Vec Ideal S1x128 .f32) = V c main_v37 := by
  obtain ⟨-, -, -, -, ⟨e0, e1⟩, -⟩ := idx_facts t
  funext x
  unfold iblk2
  rw [View.read_apply]
  show V c main_v37 _ = V c main_v37 _
  congr 1
  funext a
  apply Fin.ext
  match a with
  | ⟨0, _⟩ => show win2_4.index t 0 * 1 + 1 * (x 0).val = (x 0).val; rw [e0]; omega
  | ⟨1, _⟩ => show win2_4.index t 1 * 128 + 1 * (x 1).val = (x 1).val; rw [e1]; omega
theorem blk_wb (c : Dev nD) (t : Fin cfg2.N) : (iblk2 V c 5 t : Vec Ideal S128x128 .f32) = V c main_arg17 := by
  obtain ⟨-, -, -, -, -, ⟨e0, e1⟩, -⟩ := idx_facts t
  funext x
  unfold iblk2
  rw [View.read_apply]
  show V c main_arg17 _ = V c main_arg17 _
  congr 1
  funext a
  apply Fin.ext
  match a with
  | ⟨0, _⟩ => show win2_5.index t 0 * 128 + 1 * (x 0).val = (x 0).val; rw [e0]; omega
  | ⟨1, _⟩ => show win2_5.index t 1 * 128 + 1 * (x 1).val = (x 1).val; rw [e1]; omega
theorem blk_bb (c : Dev nD) (t : Fin cfg2.N) : (iblk2 V c 6 t : Vec Ideal S1x128 .f32) = V c main_v38 := by
  obtain ⟨-, -, -, -, -, -, ⟨e0, e1⟩, -⟩ := idx_facts t
  funext x
  unfold iblk2
  rw [View.read_apply]
  show V c main_v38 _ = V c main_v38 _
  congr 1
  funext a
  apply Fin.ext
  match a with
  | ⟨0, _⟩ => show win2_6.index t 0 * 1 + 1 * (x 0).val = (x 0).val; rw [e0]; omega
  | ⟨1, _⟩ => show win2_6.index t 1 * 128 + 1 * (x 1).val = (x 1).val; rw [e1]; omega

/-- What point t writes back is block t of `node` of the arrays the region finds, `eps` the value the scalar row repeats. -/
theorem flushed_eq (c : Dev nD) (eps : EReal)
    (heps : ∀ j : Fin 128, (V c main_v39 : S1x128.Idx → EReal) (ix2 (0 : Fin 1) j) = eps) (t : Fin cfg2.N) :
    (dat2 V c).flushed 7 t = ((cfg2.win 7).blk t).view.read (Elt Ideal)
      (Cert.Gine.node (V c main_v23) (V c main_v36) eps (V c main_arg15)
        (V c main_v37) (V c main_arg17) (V c main_v38)) := by
  show (cfg2.win 7).cut (grid2.coords t) ((dat2 V c).after 7 t) = _
  rw [after2_7]
  unfold out2_7
  rw [View.canon_unit_zero hz]
  simp only [View.ld_unit_zero (S := S5000x128) hz, View.ld_unit_zero (S := S1x128) hz, View.ld_unit_zero (S := S128x128) hz]
  rw [blk_e, blk_wa, blk_ba, blk_wb, blk_bb]
  obtain ⟨-, -, -, -, -, -, -, e0, e1⟩ := idx_facts t
  funext j
  refine Points.node_point2 (V c main_v39) (iblk2 V c 0 t) (iblk2 V c 1 t) (V c main_arg15)
    (V c main_v37) (V c main_arg17) (V c main_v38)
    (V c main_v23) (V c main_v36) eps t.val
    (fun x k h0 h1 => blk_h V c t x k h0 h1) (fun x k h0 h1 => blk_a V c t x k h0 h1) heps j _ ?_ ?_
  · show win2_7.index t 0 * 5000 + 1 * (j 0).val = 5000 * t.val + (j 0).val; rw [e0]; omega
  · show win2_7.index t 1 * 128 + 1 * (j 1).val = (j 1).val; rw [e1]; omega

/-- An index of the result is in point t's block iff each coordinate is in the block's range. -/
theorem mem_blk (t : Fin cfg2.N) (i : S50000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v40).slice (win2_7.rect t)).set ↔ _
  rw [View.set_slice_whole, Rect.mem_set_unit]
  exact Iff.rfl

/-- The 10 blocks tile the result: row r is in the block of point r / 5000. -/
theorem cover (i : S50000x128.Idx) : ∃ t : Fin cfg2.N, (cfg2.win 7).flush t = true ∧ i ∈ ((cfg2.win 7).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨-, -, -, -, -, -, -, e0, e1⟩ := idx_facts t
  refine ⟨t, flush2_7 t, ?_⟩
  rw [mem_blk]
  intro a
  have ht : t.val = (i 0).val / 5000 := rfl
  match a with
  | ⟨0, _⟩ => show win2_7.index t 0 * 5000 ≤ (i 0).val ∧ (i 0).val < win2_7.index t 0 * 5000 + 5000; rw [e0, ht]; omega
  | ⟨1, _⟩ => show win2_7.index t 1 * 128 ≤ (i 1).val ∧ (i 1).val < win2_7.index t 1 * 128 + 128; rw [e1]; omega

/-- After the region the result array is `node` of the arrays the region found. -/
theorem final (c : Dev nD) (eps : EReal)
    (heps : ∀ j : Fin 128, (V c main_v39 : S1x128.Idx → EReal) (ix2 (0 : Fin 1) j) = eps) :
    (dat2 V c).arrAt 7 cfg2.N
      = Cert.Gine.node (V c main_v23) (V c main_v36) eps (V c main_arg15)
          (V c main_v37) (V c main_arg17) (V c main_v38) :=
  (dat2 V c).arrAt_eq_of_cover 7 _ (fun t _ => flushed_eq V c eps heps t) cover

end Cert.Gine.Reg2

end
-- ==== Proof.Reg3.lean ====
/-
  Region 3, a node update, as a whole-array function.

  The grid has 10 points; point t works on rows 5000·t … 5000·t + 4999 of h and of aggr and writes the same rows of the
  result, with the repeated scalar row, both weight matrices and both bias rows whole at every point.  Each written
  entry is the layer's function of its own row, so block t of the result is block t of `node` of the arrays the region
  finds, and the 10 blocks tile the result.
-/
import proofs.«145339_j5291399709172_2_alg».proof.Proof.Gen.KernelIdeal.Frame
import proofs.«145339_j5291399709172_2_alg».proof.Proof.NodePoint
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Gine.Reg3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: h, aggr and the result move with the point, everything else stays at block 0. -/
theorem idx_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = t.val ∧ win3_7.index t (1 : Fin 2) = 0) :=
  (by decide +kernel : ∀ t : Fin grid3.N, _)

/-- The block of h at point t: rows 5000·t … of the array. -/
theorem blk_h (c : Dev nD) (t : Fin cfg3.N) (x : S5000x128.Idx) (k : S50000x128.Idx)
    (hk0 : (k 0).val = 5000 * t.val + (x 0).val) (hk1 : (k 1).val = (x 1).val) :
    (iblk3 V c 0 t : Vec Ideal S5000x128 .f32) x = (V c main_v40 : S50000x128.Idx → EReal) k := by
  obtain ⟨⟨e0, e1⟩, -⟩ := idx_facts t
  unfold iblk3
  rw [View.read_apply]
  show V c main_v40 _ = V c main_v40 _
  congr 1
  funext a
  apply Fin.ext
  match a with
  | ⟨0, _⟩ => show win3_0.index t 0 * 5000 + 1 * (x 0).val = (k 0).val; rw [e0, hk0]; omega
  | ⟨1, _⟩ => show win3_0.index t 1 * 128 + 1 * (x 1).val = (k 1).val; rw [e1, hk1]; omega

/-- The block of aggr at point t: the same rows. -/
theorem blk_a (c : Dev nD) (t : Fin cfg3.N) (x : S5000x128.Idx) (k : S50000x128.Idx)
    (hk0 : (k 0).val = 5000 * t.val + (x 0).val) (hk1 : (k 1).val = (x 1).val) :
    (iblk3 V c 1 t : Vec Ideal S5000x128 .f32) x = (V c main_v53 : S50000x128.Idx → EReal) k := by
  obtain ⟨-, ⟨e0, e1⟩, -⟩ := idx_facts t
  unfold iblk3
  rw [View.read_apply]
  show V c main_v53 _ = V c main_v53 _
  congr 1
  funext a
  apply Fin.ext
  match a with
  | ⟨0, _⟩ => show win3_1.index t 0 * 5000 + 1 * (x 0).val = (k 0).val; rw [e0, hk0]; omega
  | ⟨1, _⟩ => show win3_1.index t 1 * 128 + 1 * (x 1).val = (k 1).val; rw [e1, hk1]; omega

/-- The five whole-array windows hold their arrays at every point. -/
theorem blk_e (c : Dev nD) (t : Fin cfg3.N) : (iblk3 V c 2 t : Vec Ideal S1x128 .f32) = V c main_v56 := by
  obtain ⟨-, -, ⟨e0, e1⟩, -⟩ := idx_facts t
  funext x
  unfold iblk3
  rw [View.read_apply]
  show V c main_v56 _ = V c main_v56 _
  congr 1
  funext a
  apply Fin.ext
  match a with
  | ⟨0, _⟩ => show win3_2.index t 0 * 1 + 1 * (x 0).val = (x 0).val; rw [e0]; omega
  | ⟨1, _⟩ => show win3_2.index t 1 * 128 + 1 * (x 1).val = (x 1).val; rw [e1]; omega
theorem blk_wa (c : Dev nD) (t : Fin cfg3.N) : (iblk3 V c 3 t : Vec Ideal S128x128 .f32) = V c main_arg20 := by
  obtain ⟨-, -, -, ⟨e0, e1⟩, -⟩ := idx_facts t
  funext x
  unfold iblk3
  rw [View.read_apply]
  show V c main_arg20 _ = V c main_arg20 _
  congr 1
  funext a
  apply Fin.ext
  match a with
  | ⟨0, _⟩ => show win3_3.index t 0 * 128 + 1 * (x 0).val = (x 0).val; rw [e0]; omega
  | ⟨1, _⟩ => show win3_3.index t 1 * 128 + 1 * (x 1).val = (x 1).val; rw [e1]; omega
theorem blk_ba (c : Dev nD) (t : Fin cfg3.N) : (iblk3 V c 4 t : Vec Ideal S1x128 .f32) = V c main_v54 := by
  obtain ⟨-, -, -, -, ⟨e0, e1⟩, -⟩ := idx_facts t
  funext x
  unfold iblk3
  rw [View.read_apply]
  show V c main_v54 _ = V c main_v54 _
  congr 1
  funext a
  apply Fin.ext
  match a with
  | ⟨0, _⟩ => show win3_4.index t 0 * 1 + 1 * (x 0).val = (x 0).val; rw [e0]; omega
  | ⟨1, _⟩ => show win3_4.index t 1 * 128 + 1 * (x 1).val = (x 1).val; rw [e1]; omega
theorem blk_wb (c : Dev nD) (t : Fin cfg3.N) : (iblk3 V c 5 t : Vec Ideal S128x128 .f32) = V c main_arg22 := by
  obtain ⟨-, -, -, -, -, ⟨e0, e1⟩, -⟩ := idx_facts t
  funext x
  unfold iblk3
  rw [View.read_apply]
  show V c main_arg22 _ = V c main_arg22 _
  congr 1
  funext a
  apply Fin.ext
  match a with
  | ⟨0, _⟩ => show win3_5.index t 0 * 128 + 1 * (x 0).val = (x 0).val; rw [e0]; omega
  | ⟨1, _⟩ => show win3_5.index t 1 * 128 + 1 * (x 1).val = (x 1).val; rw [e1]; omega
theorem blk_bb (c : Dev nD) (t : Fin cfg3.N) : (iblk3 V c 6 t : Vec Ideal S1x128 .f32) = V c main_v55 := by
  obtain ⟨-, -, -, -, -, -, ⟨e0, e1⟩, -⟩ := idx_facts t
  funext x
  unfold iblk3
  rw [View.read_apply]
  show V c main_v55 _ = V c main_v55 _
  congr 1
  funext a
  apply Fin.ext
  match a with
  | ⟨0, _⟩ => show win3_6.index t 0 * 1 + 1 * (x 0).val = (x 0).val; rw [e0]; omega
  | ⟨1, _⟩ => show win3_6.index t 1 * 128 + 1 * (x 1).val = (x 1).val; rw [e1]; omega

/-- What point t writes back is block t of `node` of the arrays the region finds, `eps` the value the scalar row repeats. -/
theorem flushed_eq (c : Dev nD) (eps : EReal)
    (heps : ∀ j : Fin 128, (V c main_v56 : S1x128.Idx → EReal) (ix2 (0 : Fin 1) j) = eps) (t : Fin cfg3.N) :
    (dat3 V c).flushed 7 t = ((cfg3.win 7).blk t).view.read (Elt Ideal)
      (Cert.Gine.node (V c main_v40) (V c main_v53) eps (V c main_arg20)
        (V c main_v54) (V c main_arg22) (V c main_v55)) := by
  show (cfg3.win 7).cut (grid3.coords t) ((dat3 V c).after 7 t) = _
  rw [after3_7]
  unfold out3_7
  rw [View.canon_unit_zero hz]
  simp only [View.ld_unit_zero (S := S5000x128) hz, View.ld_unit_zero (S := S1x128) hz, View.ld_unit_zero (S := S128x128) hz]
  rw [blk_e, blk_wa, blk_ba, blk_wb, blk_bb]
  obtain ⟨-, -, -, -, -, -, -, e0, e1⟩ := idx_facts t
  funext j
  refine Points.node_point3 (V c main_v56) (iblk3 V c 0 t) (iblk3 V c 1 t) (V c main_arg20)
    (V c main_v54) (V c main_arg22) (V c main_v55)
    (V c main_v40) (V c main_v53) eps t.val
    (fun x k h0 h1 => blk_h V c t x k h0 h1) (fun x k h0 h1 => blk_a V c t x k h0 h1) heps j _ ?_ ?_
  · show win3_7.index t 0 * 5000 + 1 * (j 0).val = 5000 * t.val + (j 0).val; rw [e0]; omega
  · show win3_7.index t 1 * 128 + 1 * (j 1).val = (j 1).val; rw [e1]; omega

/-- An index of the result is in point t's block iff each coordinate is in the block's range. -/
theorem mem_blk (t : Fin cfg3.N) (i : S50000x128.Idx) :
    i ∈ ((cfg3.win 7).blk t).view.set ↔ ∀ a : Fin 2, win3_7.index t a * S5000x128.size a ≤ (i a).val ∧ (i a).val < win3_7.index t a * S5000x128.size a + S5000x128.size a := by
  show i ∈ ((View.whole main_v57).slice (win3_7.rect t)).set ↔ _
  rw [View.set_slice_whole, Rect.mem_set_unit]
  exact Iff.rfl

/-- The 10 blocks tile the result: row r is in the block of point r / 5000. -/
theorem cover (i : S50000x128.Idx) : ∃ t : Fin cfg3.N, (cfg3.win 7).flush t = true ∧ i ∈ ((cfg3.win 7).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨-, -, -, -, -, -, -, e0, e1⟩ := idx_facts t
  refine ⟨t, flush3_7 t, ?_⟩
  rw [mem_blk]
  intro a
  have ht : t.val = (i 0).val / 5000 := rfl
  match a with
  | ⟨0, _⟩ => show win3_7.index t 0 * 5000 ≤ (i 0).val ∧ (i 0).val < win3_7.index t 0 * 5000 + 5000; rw [e0, ht]; omega
  | ⟨1, _⟩ => show win3_7.index t 1 * 128 ≤ (i 1).val ∧ (i 1).val < win3_7.index t 1 * 128 + 128; rw [e1]; omega

/-- After the region the result array is `node` of the arrays the region found. -/
theorem final (c : Dev nD) (eps : EReal)
    (heps : ∀ j : Fin 128, (V c main_v56 : S1x128.Idx → EReal) (ix2 (0 : Fin 1) j) = eps) :
    (dat3 V c).arrAt 7 cfg3.N
      = Cert.Gine.node (V c main_v40) (V c main_v53) eps (V c main_arg20)
          (V c main_v54) (V c main_arg22) (V c main_v55) :=
  (dat3 V c).arrAt_eq_of_cover 7 _ (fun t _ => flushed_eq V c eps heps t) cover

end Cert.Gine.Reg3

end
-- ==== Proof.Reg4.lean ====
/-
  Region 4, the read-out, as a whole-array function.

  One grid point holds the pooled features, the weight matrix and the bias row whole, and writes the whole result: each
  written entry is the rectified linear layer of its own row, so after the region the result array is `proj` of the
  arrays the region finds.
-/
import proofs.«145339_j5291399709172_2_alg».proof.Proof.Gen.KernelIdeal.Frame
import proofs.«145339_j5291399709172_2_alg».proof.Proof.NodePoint
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Gine.Reg4

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Every window stays at block 0 at the one point. -/
theorem idx_facts : ∀ t : Fin cfg4.N,
    (win4_0.index t (0 : Fin 2) = 0 ∧ win4_0.index t (1 : Fin 2) = 0)
    ∧ (win4_1.index t (0 : Fin 2) = 0 ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0) :=
  (by decide +kernel : ∀ t : Fin grid4.N, _)

/-- The three input windows hold their arrays. -/
theorem blk_hg (c : Dev nD) (t : Fin cfg4.N) : (iblk4 V c 0 t : Vec Ideal S1024x128 .f32) = V c (Pipeline.arrRef spec4 0) := by
  obtain ⟨⟨e0, e1⟩, -⟩ := idx_facts t
  funext x
  unfold iblk4
  rw [View.read_apply]
  show V c main_v60 _ = V c main_v60 _
  congr 1
  funext a
  apply Fin.ext
  match a with
  | ⟨0, _⟩ => show win4_0.index t 0 * 1024 + 1 * (x 0).val = (x 0).val; rw [e0]; omega
  | ⟨1, _⟩ => show win4_0.index t 1 * 128 + 1 * (x 1).val = (x 1).val; rw [e1]; omega
theorem blk_wp (c : Dev nD) (t : Fin cfg4.N) : (iblk4 V c 1 t : Vec Ideal S128x128 .f32) = V c (Pipeline.arrRef spec4 1) := by
  obtain ⟨-, ⟨e0, e1⟩, -⟩ := idx_facts t
  funext x
  unfold iblk4
  rw [View.read_apply]
  show V c main_arg8 _ = V c main_arg8 _
  congr 1
  funext a
  apply Fin.ext
  match a with
  | ⟨0, _⟩ => show win4_1.index t 0 * 128 + 1 * (x 0).val = (x 0).val; rw [e0]; omega
  | ⟨1, _⟩ => show win4_1.index t 1 * 128 + 1 * (x 1).val = (x 1).val; rw [e1]; omega
theorem blk_bp (c : Dev nD) (t : Fin cfg4.N) : (iblk4 V c 2 t : Vec Ideal S1x128 .f32) = V c (Pipeline.arrRef spec4 2) := by
  obtain ⟨-, -, ⟨e0, e1⟩, -⟩ := idx_facts t
  funext x
  unfold iblk4
  rw [View.read_apply]
  show V c main_v61 _ = V c main_v61 _
  congr 1
  funext a
  apply Fin.ext
  match a with
  | ⟨0, _⟩ => show win4_2.index t 0 * 1 + 1 * (x 0).val = (x 0).val; rw [e0]; omega
  | ⟨1, _⟩ => show win4_2.index t 1 * 128 + 1 * (x 1).val = (x 1).val; rw [e1]; omega

/-- What the point writes back is the whole of `proj` of the arrays the region finds. -/
theorem flushed_eq (c : Dev nD) (t : Fin cfg4.N) :
    (dat4 V c).flushed 3 t = ((cfg4.win 3).blk t).view.read (Elt Ideal)
      (Cert.Gine.proj (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero hz]
  simp only [View.ld_unit_zero (S := S1024x128) hz, View.ld_unit_zero (S := S1x128) hz, View.ld_unit_zero (S := S128x128) hz]
  rw [blk_hg, blk_wp, blk_bp]
  obtain ⟨-, -, -, e0, e1⟩ := idx_facts t
  funext j
  refine Points.proj_point (V c (Pipeline.arrRef spec4 0)) (V c (Pipeline.arrRef spec4 1)) (V c (Pipeline.arrRef spec4 2)) j _ ?_ ?_
  · show win4_3.index t 0 * 1024 + 1 * (j 0).val = (j 0).val; rw [e0]; omega
  · show win4_3.index t 1 * 128 + 1 * (j 1).val = (j 1).val; rw [e1]; omega

/-- An index of the result is in the point's block iff each coordinate is in the block's range. -/
theorem mem_blk (t : Fin cfg4.N) (i : S1024x128.Idx) :
    i ∈ ((cfg4.win 3).blk t).view.set ↔ ∀ a : Fin 2, win4_3.index t a * S1024x128.size a ≤ (i a).val ∧ (i a).val < win4_3.index t a * S1024x128.size a + S1024x128.size a := by
  show i ∈ ((View.whole main_v62).slice (win4_3.rect t)).set ↔ _
  rw [View.set_slice_whole, Rect.mem_set_unit]
  exact Iff.rfl

/-- The one block is the whole result. -/
theorem cover (i : S1024x128.Idx) : ∃ t : Fin cfg4.N, (cfg4.win 3).flush t = true ∧ i ∈ ((cfg4.win 3).blk t).view.set := by
  have hi0 : (i 0).val < 1024 := (i 0).isLt
  have hi1 : (i 1).val < 128 := (i 1).isLt
  obtain ⟨-, -, -, e0, e1⟩ := idx_facts t4_0
  refine ⟨t4_0, flush4_3 t4_0, ?_⟩
  rw [mem_blk]
  intro a
  match a with
  | ⟨0, _⟩ => show win4_3.index t4_0 0 * 1024 ≤ (i 0).val ∧ (i 0).val < win4_3.index t4_0 0 * 1024 + 1024; rw [e0]; omega
  | ⟨1, _⟩ => show win4_3.index t4_0 1 * 128 ≤ (i 1).val ∧ (i 1).val < win4_3.index t4_0 1 * 128 + 128; rw [e1]; omega

/-- After the region the result array is `proj` of the arrays the region found. -/
theorem final (c : Dev nD) :
    (dat4 V c).arrAt 3 cfg4.N
      = Cert.Gine.proj (V c (Pipeline.arrRef spec4 0)) (V c (Pipeline.arrRef spec4 1)) (V c (Pipeline.arrRef spec4 2)) :=
  (dat4 V c).arrAt_eq_of_cover 3 _ (fun t _ => flushed_eq V c t) cover

end Cert.Gine.Reg4

end
-- ==== Proof.Vals.lean ====
/-
  The kernel program's buffer contents, boundary by boundary, as functions of the arguments.

  Between two regions the host computes a layer's neighbourhood sum from the node features h, the edge features e and
  the edge index array: the source row of every edge (a negative source wrapped once by the number of nodes) is gathered
  from h, e is added, the sum is rectified, and the result is summed into the target rows.  The three layers spell it with
  the same operations, so it is ONE function `aggK` of (src, dst, h, e); the per-graph sum after the last layer is
  `poolK`.  Neither is opened here.

  Walking the boundaries: region 0 finds the edge attributes, the weights and the two bias rows, and leaves `edge` of
  them; each node update finds the previous features, their neighbourhood sum, the repeated scalar, its weights and bias
  rows, and leaves `node` of them; the read-out finds the pooled features.  Composed, the result buffer holds `net`.
-/
import proofs.«145339_j5291399709172_2_alg».proof.Proof.Keep
import proofs.«145339_j5291399709172_2_alg».proof.Proof.HostFns
import proofs.«145339_j5291399709172_2_alg».proof.Proof.Reg0
import proofs.«145339_j5291399709172_2_alg».proof.Proof.Reg1
import proofs.«145339_j5291399709172_2_alg».proof.Proof.Reg2
import proofs.«145339_j5291399709172_2_alg».proof.Proof.Reg3
import proofs.«145339_j5291399709172_2_alg».proof.Proof.Reg4
import proofs.«145339_j5291399709172_2_alg».proof.Proof.LibHostBroadcast
import Idealize.ShloMosaic.Lib.ValueLayout
import Idealize.ShloMosaic.Lib.StableHlo.Run

set_option maxRecDepth 16384

noncomputable section

namespace Cert.Gine.Vals

open Idealize.ShloMosaic Idealize.ShloMosaic.TcCoe Idealize.SL.Sem Idealize.ShloMosaic.ValueIdx Idealize.ShloMosaic.StableHlo
open Cert.KernelIdeal Cert.KernelIdeal.Gen Cert.Gine.Keep Cert.Gine.HostK

variable (m : (ℓ : Loc nD τ sig) → Buf (Elt Ideal) ℓ) (ρ : Dev nD → PrngReg) (c : Dev nD)

/-! ## Before and after region 0 -/

theorem W1_v1 : W1 m ρ c (Proc.devRef .tc main_v1) = srcOf (m ((c : Thread nD τ).loc main_arg1)) := by
  show StableHlo.after hostOps0 (W0 m ρ c) (Proc.devRef .tc main_v1) = _
  after_results
  rfl
theorem W1_v3 : W1 m ρ c (Proc.devRef .tc main_v3) = dstOf (m ((c : Thread nD τ).loc main_arg1)) := by
  show StableHlo.after hostOps0 (W0 m ρ c) (Proc.devRef .tc main_v3) = _
  after_results
  rfl

/-- A bias vector reshaped to one row is `row` of it. -/
theorem cast_row (b : (⟨S128, .f32⟩ : BufTy).Contents (Elt Ideal)) (h : S128.ShapeCasts S1x128) :
    (shapeCast S1x128 b h : S1x128.Idx → EReal) = Cert.Gine.row b := by
  funext i
  obtain ⟨u, j, rfl⟩ : ∃ (u : Fin 1) (j : Fin 128), i = ix2 u j := ⟨i 0, i 1, eq_ix2 i⟩
  exact shapeCast_a_1a_apply b h u j

theorem W1_v4 : (W1 m ρ c (Proc.devRef .tc main_v4) : S1x128.Idx → EReal) = Cert.Gine.row (m ((c : Thread nD τ).loc main_arg5)) := by
  rw [← cast_row (m ((c : Thread nD τ).loc main_arg5)) shapeCasts_S128_S1x128]
  show StableHlo.after hostOps0 (W0 m ρ c) (Proc.devRef .tc main_v4) = _
  after_results
  rfl
theorem W1_v5 : (W1 m ρ c (Proc.devRef .tc main_v5) : S1x128.Idx → EReal) = Cert.Gine.row (m ((c : Thread nD τ).loc main_arg7)) := by
  rw [← cast_row (m ((c : Thread nD τ).loc main_arg7)) shapeCasts_S128_S1x128]
  show StableHlo.after hostOps0 (W0 m ρ c) (Proc.devRef .tc main_v5) = _
  after_results
  rfl

/-- The edge features, of the arguments. -/
def E : (⟨S600000x128, .bf16⟩ : BufTy).Contents (Elt Ideal) :=
  Cert.Gine.edge (m ((c : Thread nD τ).loc main_arg2)) (m ((c : Thread nD τ).loc main_arg4)) (Cert.Gine.row (m ((c : Thread nD τ).loc main_arg5))) (m ((c : Thread nD τ).loc main_arg6)) (Cert.Gine.row (m ((c : Thread nD τ).loc main_arg7)))

theorem W2_v6 : W2 m ρ c (Proc.devRef .tc main_v6) = E m c := by
  refine (W2_arr m ρ c 5).trans ((Reg0.final (V1 m ρ) c).trans ?_)
  unfold E
  rw [show V1 m ρ c main_arg2 = (m ((c : Thread nD τ).loc main_arg2)) from W1_low m ρ c (by decide),
    show V1 m ρ c main_arg4 = (m ((c : Thread nD τ).loc main_arg4)) from W1_low m ρ c (by decide),
    show V1 m ρ c main_arg6 = (m ((c : Thread nD τ).loc main_arg6)) from W1_low m ρ c (by decide),
    show (V1 m ρ c main_v4 : S1x128.Idx → EReal) = _ from W1_v4 m ρ c,
    show (V1 m ρ c main_v5 : S1x128.Idx → EReal) = _ from W1_v5 m ρ c]

/-! ## Layer 1: between region 0 and region 1, and region 1 -/

/-- The features layer 1 starts from, the edge rows and the edge features, as region 0 left them. -/
theorem W2_v1 : W2 m ρ c (Proc.devRef .tc main_v1) = srcOf (m ((c : Thread nD τ).loc main_arg1)) :=
  (W2_of_ne m ρ c main_v1 (by decide)).trans (W1_v1 m ρ c)
theorem W2_v3 : W2 m ρ c (Proc.devRef .tc main_v3) = dstOf (m ((c : Thread nD τ).loc main_arg1)) :=
  (W2_of_ne m ρ c main_v3 (by decide)).trans (W1_v3 m ρ c)
theorem W2_h : W2 m ρ c (Proc.devRef .tc main_arg0) = (m ((c : Thread nD τ).loc main_arg0)) := arg_W2 m ρ c (r := main_arg0) (by decide) (by decide)

set_option maxHeartbeats 2000000 in
/-- The neighbourhood sum region 1 finds: the host stretches' composed term, read off the previous boundary. -/
theorem W5_agg : W5 m ρ c (Proc.devRef .tc main_v19)
    = aggK (W2 m ρ c (Proc.devRef .tc main_v1)) (W2 m ρ c (Proc.devRef .tc main_v3))
        (W2 m ρ c (Proc.devRef .tc main_arg0)) (W2 m ρ c (Proc.devRef .tc main_v6)) := by
  show StableHlo.after hostOps1_2 (StableHlo.after hostOps1_1 (StableHlo.after hostOps1 (W2 m ρ c))) (Proc.devRef .tc main_v19) = _
  after_results_simp <;> rfl
theorem W5_eps : W5 m ρ c (Proc.devRef .tc main_v22)
    = broadcastInDim S1x128 ![] bcast_S_S1x128 (W2 m ρ c (Proc.devRef .tc main_arg14)) := by
  show StableHlo.after hostOps1_2 (StableHlo.after hostOps1_1 (StableHlo.after hostOps1 (W2 m ρ c))) (Proc.devRef .tc main_v22) = _
  after_results
theorem W5_ba : W5 m ρ c (Proc.devRef .tc main_v20)
    = shapeCast S1x128 (W2 m ρ c (Proc.devRef .tc main_arg11)) shapeCasts_S128_S1x128 := by
  show StableHlo.after hostOps1_2 (StableHlo.after hostOps1_1 (StableHlo.after hostOps1 (W2 m ρ c))) (Proc.devRef .tc main_v20) = _
  after_results
  rfl
theorem W5_bb : W5 m ρ c (Proc.devRef .tc main_v21)
    = shapeCast S1x128 (W2 m ρ c (Proc.devRef .tc main_arg13)) shapeCasts_S128_S1x128 := by
  show StableHlo.after hostOps1_2 (StableHlo.after hostOps1_1 (StableHlo.after hostOps1 (W2 m ρ c))) (Proc.devRef .tc main_v21) = _
  after_results
  rfl

/-- The features after layer 1. -/
def H1 : (⟨S50000x128, .f32⟩ : BufTy).Contents (Elt Ideal) :=
  Cert.Gine.node ((m ((c : Thread nD τ).loc main_arg0))) (aggK (srcOf (m ((c : Thread nD τ).loc main_arg1))) (dstOf (m ((c : Thread nD τ).loc main_arg1))) ((m ((c : Thread nD τ).loc main_arg0))) (E m c)) ((m ((c : Thread nD τ).loc main_arg14)) ix0)
    (m ((c : Thread nD τ).loc main_arg10)) (Cert.Gine.row (m ((c : Thread nD τ).loc main_arg11))) (m ((c : Thread nD τ).loc main_arg12)) (Cert.Gine.row (m ((c : Thread nD τ).loc main_arg13)))

theorem V5_0 : V5 m ρ c main_arg0 = (m ((c : Thread nD τ).loc main_arg0)) :=
  (W5_low m ρ c (r := main_arg0) (by decide)).trans (W2_h m ρ c)
theorem V5_1 : V5 m ρ c main_v19 = aggK (srcOf (m ((c : Thread nD τ).loc main_arg1))) (dstOf (m ((c : Thread nD τ).loc main_arg1))) ((m ((c : Thread nD τ).loc main_arg0))) (E m c) := by
  refine (W5_agg m ρ c).trans ?_
  rw [W2_v1, W2_v3, W2_h, W2_v6]
theorem V5_2 (j : Fin 128) : (V5 m ρ c main_v22 : S1x128.Idx → EReal) (ix2 (0 : Fin 1) j) = (m ((c : Thread nD τ).loc main_arg14)) ix0 := by
  show (W5 m ρ c (Proc.devRef .tc main_v22) : S1x128.Idx → EReal) (ix2 (0 : Fin 1) j) = _
  rw [W5_eps, Cert.HostPat.splat_apply _ _ _ (ix2 (0 : Fin 1) j) ix0, arg_W2 m ρ c (r := main_arg14) (by decide) (by decide)]
theorem V5_3 : V5 m ρ c main_arg10 = (m ((c : Thread nD τ).loc main_arg10)) :=
  (W5_low m ρ c (r := main_arg10) (by decide)).trans (arg_W2 m ρ c (r := main_arg10) (by decide) (by decide))
theorem V5_4 : (V5 m ρ c main_v20 : S1x128.Idx → EReal) = Cert.Gine.row (m ((c : Thread nD τ).loc main_arg11)) := by
  show (W5 m ρ c (Proc.devRef .tc main_v20) : S1x128.Idx → EReal) = _
  rw [W5_ba, arg_W2 m ρ c (r := main_arg11) (by decide) (by decide), cast_row]
theorem V5_5 : V5 m ρ c main_arg12 = (m ((c : Thread nD τ).loc main_arg12)) :=
  (W5_low m ρ c (r := main_arg12) (by decide)).trans (arg_W2 m ρ c (r := main_arg12) (by decide) (by decide))
theorem V5_6 : (V5 m ρ c main_v21 : S1x128.Idx → EReal) = Cert.Gine.row (m ((c : Thread nD τ).loc main_arg13)) := by
  show (W5 m ρ c (Proc.devRef .tc main_v21) : S1x128.Idx → EReal) = _
  rw [W5_bb, arg_W2 m ρ c (r := main_arg13) (by decide) (by decide), cast_row]

theorem W6_h : W6 m ρ c (Proc.devRef .tc main_v23) = H1 m c := by
  refine (W6_arr m ρ c 7).trans ((Reg1.final (V5 m ρ) c ((m ((c : Thread nD τ).loc main_arg14)) ix0) (V5_2 m ρ c)).trans ?_)
  unfold H1
  rw [V5_0, V5_1, V5_3, V5_4, V5_5, V5_6]

/-! ## Layer 2: between region 1 and region 2, and region 2 -/

/-- The features layer 2 starts from, the edge rows and the edge features, as region 1 left them. -/
theorem W6_v1 : W6 m ρ c (Proc.devRef .tc main_v1) = srcOf (m ((c : Thread nD τ).loc main_arg1)) :=
  (W6_of_ne m ρ c main_v1 (by decide)).trans ((W5_low m ρ c (by decide)).trans (W2_v1 m ρ c))
theorem W6_v3 : W6 m ρ c (Proc.devRef .tc main_v3) = dstOf (m ((c : Thread nD τ).loc main_arg1)) :=
  (W6_of_ne m ρ c main_v3 (by decide)).trans ((W5_low m ρ c (by decide)).trans (W2_v3 m ρ c))
theorem W6_v6 : W6 m ρ c (Proc.devRef .tc main_v6) = E m c :=
  (W6_of_ne m ρ c main_v6 (by decide)).trans ((W5_low m ρ c (by decide)).trans (W2_v6 m ρ c))

set_option maxHeartbeats 2000000 in
/-- The neighbourhood sum region 2 finds: the host stretches' composed term, read off the previous boundary. -/
theorem W9_agg : W9 m ρ c (Proc.devRef .tc main_v36)
    = aggK (W6 m ρ c (Proc.devRef .tc main_v1)) (W6 m ρ c (Proc.devRef .tc main_v3))
        (W6 m ρ c (Proc.devRef .tc main_v23)) (W6 m ρ c (Proc.devRef .tc main_v6)) := by
  show StableHlo.after hostOps2_2 (StableHlo.after hostOps2_1 (StableHlo.after hostOps2 (W6 m ρ c))) (Proc.devRef .tc main_v36) = _
  after_results_simp <;> rfl
theorem W9_eps : W9 m ρ c (Proc.devRef .tc main_v39)
    = broadcastInDim S1x128 ![] bcast_S_S1x128 (W6 m ρ c (Proc.devRef .tc main_arg19)) := by
  show StableHlo.after hostOps2_2 (StableHlo.after hostOps2_1 (StableHlo.after hostOps2 (W6 m ρ c))) (Proc.devRef .tc main_v39) = _
  after_results
theorem W9_ba : W9 m ρ c (Proc.devRef .tc main_v37)
    = shapeCast S1x128 (W6 m ρ c (Proc.devRef .tc main_arg16)) shapeCasts_S128_S1x128 := by
  show StableHlo.after hostOps2_2 (StableHlo.after hostOps2_1 (StableHlo.after hostOps2 (W6 m ρ c))) (Proc.devRef .tc main_v37) = _
  after_results
  rfl
theorem W9_bb : W9 m ρ c (Proc.devRef .tc main_v38)
    = shapeCast S1x128 (W6 m ρ c (Proc.devRef .tc main_arg18)) shapeCasts_S128_S1x128 := by
  show StableHlo.after hostOps2_2 (StableHlo.after hostOps2_1 (StableHlo.after hostOps2 (W6 m ρ c))) (Proc.devRef .tc main_v38) = _
  after_results
  rfl

/-- The features after layer 2. -/
def H2 : (⟨S50000x128, .f32⟩ : BufTy).Contents (Elt Ideal) :=
  Cert.Gine.node (H1 m c) (aggK (srcOf (m ((c : Thread nD τ).loc main_arg1))) (dstOf (m ((c : Thread nD τ).loc main_arg1))) (H1 m c) (E m c)) ((m ((c : Thread nD τ).loc main_arg19)) ix0)
    (m ((c : Thread nD τ).loc main_arg15)) (Cert.Gine.row (m ((c : Thread nD τ).loc main_arg16))) (m ((c : Thread nD τ).loc main_arg17)) (Cert.Gine.row (m ((c : Thread nD τ).loc main_arg18)))

theorem V9_0 : V9 m ρ c main_v23 = H1 m c :=
  (W9_low m ρ c (r := main_v23) (by decide)).trans (W6_h m ρ c)
theorem V9_1 : V9 m ρ c main_v36 = aggK (srcOf (m ((c : Thread nD τ).loc main_arg1))) (dstOf (m ((c : Thread nD τ).loc main_arg1))) (H1 m c) (E m c) := by
  refine (W9_agg m ρ c).trans ?_
  rw [W6_v1, W6_v3, W6_h, W6_v6]
theorem V9_2 (j : Fin 128) : (V9 m ρ c main_v39 : S1x128.Idx → EReal) (ix2 (0 : Fin 1) j) = (m ((c : Thread nD τ).loc main_arg19)) ix0 := by
  show (W9 m ρ c (Proc.devRef .tc main_v39) : S1x128.Idx → EReal) (ix2 (0 : Fin 1) j) = _
  rw [W9_eps, Cert.HostPat.splat_apply _ _ _ (ix2 (0 : Fin 1) j) ix0, arg_W6 m ρ c (r := main_arg19) (by decide) (by decide) (by decide)]
theorem V9_3 : V9 m ρ c main_arg15 = (m ((c : Thread nD τ).loc main_arg15)) :=
  (W9_low m ρ c (r := main_arg15) (by decide)).trans (arg_W6 m ρ c (r := main_arg15) (by decide) (by decide) (by decide))
theorem V9_4 : (V9 m ρ c main_v37 : S1x128.Idx → EReal) = Cert.Gine.row (m ((c : Thread nD τ).loc main_arg16)) := by
  show (W9 m ρ c (Proc.devRef .tc main_v37) : S1x128.Idx → EReal) = _
  rw [W9_ba, arg_W6 m ρ c (r := main_arg16) (by decide) (by decide) (by decide), cast_row]
theorem V9_5 : V9 m ρ c main_arg17 = (m ((c : Thread nD τ).loc main_arg17)) :=
  (W9_low m ρ c (r := main_arg17) (by decide)).trans (arg_W6 m ρ c (r := main_arg17) (by decide) (by decide) (by decide))
theorem V9_6 : (V9 m ρ c main_v38 : S1x128.Idx → EReal) = Cert.Gine.row (m ((c : Thread nD τ).loc main_arg18)) := by
  show (W9 m ρ c (Proc.devRef .tc main_v38) : S1x128.Idx → EReal) = _
  rw [W9_bb, arg_W6 m ρ c (r := main_arg18) (by decide) (by decide) (by decide), cast_row]

theorem W10_h : W10 m ρ c (Proc.devRef .tc main_v40) = H2 m c := by
  refine (W10_arr m ρ c 7).trans ((Reg2.final (V9 m ρ) c ((m ((c : Thread nD τ).loc main_arg19)) ix0) (V9_2 m ρ c)).trans ?_)
  unfold H2
  rw [V9_0, V9_1, V9_3, V9_4, V9_5, V9_6]

/-! ## Layer 3: between region 2 and region 3, and region 3 -/

/-- The features layer 3 starts from, the edge rows and the edge features, as region 2 left them. -/
theorem W10_v1 : W10 m ρ c (Proc.devRef .tc main_v1) = srcOf (m ((c : Thread nD τ).loc main_arg1)) :=
  (W10_of_ne m ρ c main_v1 (by decide)).trans ((W9_low m ρ c (by decide)).trans (W6_v1 m ρ c))
theorem W10_v3 : W10 m ρ c (Proc.devRef .tc main_v3) = dstOf (m ((c : Thread nD τ).loc main_arg1)) :=
  (W10_of_ne m ρ c main_v3 (by decide)).trans ((W9_low m ρ c (by decide)).trans (W6_v3 m ρ c))
theorem W10_v6 : W10 m ρ c (Proc.devRef .tc main_v6) = E m c :=
  (W10_of_ne m ρ c main_v6 (by decide)).trans ((W9_low m ρ c (by decide)).trans (W6_v6 m ρ c))

set_option maxHeartbeats 2000000 in
/-- The neighbourhood sum region 3 finds: the host stretches' composed term, read off the previous boundary. -/
theorem W13_agg : W13 m ρ c (Proc.devRef .tc main_v53)
    = aggK (W10 m ρ c (Proc.devRef .tc main_v1)) (W10 m ρ c (Proc.devRef .tc main_v3))
        (W10 m ρ c (Proc.devRef .tc main_v40)) (W10 m ρ c (Proc.devRef .tc main_v6)) := by
  show StableHlo.after hostOps3_2 (StableHlo.after hostOps3_1 (StableHlo.after hostOps3 (W10 m ρ c))) (Proc.devRef .tc main_v53) = _
  after_results_simp <;> rfl
theorem W13_eps : W13 m ρ c (Proc.devRef .tc main_v56)
    = broadcastInDim S1x128 ![] bcast_S_S1x128 (W10 m ρ c (Proc.devRef .tc main_arg24)) := by
  show StableHlo.after hostOps3_2 (StableHlo.after hostOps3_1 (StableHlo.after hostOps3 (W10 m ρ c))) (Proc.devRef .tc main_v56) = _
  after_results
theorem W13_ba : W13 m ρ c (Proc.devRef .tc main_v54)
    = shapeCast S1x128 (W10 m ρ c (Proc.devRef .tc main_arg21)) shapeCasts_S128_S1x128 := by
  show StableHlo.after hostOps3_2 (StableHlo.after hostOps3_1 (StableHlo.after hostOps3 (W10 m ρ c))) (Proc.devRef .tc main_v54) = _
  after_results
  rfl
theorem W13_bb : W13 m ρ c (Proc.devRef .tc main_v55)
    = shapeCast S1x128 (W10 m ρ c (Proc.devRef .tc main_arg23)) shapeCasts_S128_S1x128 := by
  show StableHlo.after hostOps3_2 (StableHlo.after hostOps3_1 (StableHlo.after hostOps3 (W10 m ρ c))) (Proc.devRef .tc main_v55) = _
  after_results
  rfl

/-- The features after layer 3. -/
def H3 : (⟨S50000x128, .f32⟩ : BufTy).Contents (Elt Ideal) :=
  Cert.Gine.node (H2 m c) (aggK (srcOf (m ((c : Thread nD τ).loc main_arg1))) (dstOf (m ((c : Thread nD τ).loc main_arg1))) (H2 m c) (E m c)) ((m ((c : Thread nD τ).loc main_arg24)) ix0)
    (m ((c : Thread nD τ).loc main_arg20)) (Cert.Gine.row (m ((c : Thread nD τ).loc main_arg21))) (m ((c : Thread nD τ).loc main_arg22)) (Cert.Gine.row (m ((c : Thread nD τ).loc main_arg23)))

theorem V13_0 : V13 m ρ c main_v40 = H2 m c :=
  (W13_low m ρ c (r := main_v40) (by decide)).trans (W10_h m ρ c)
theorem V13_1 : V13 m ρ c main_v53 = aggK (srcOf (m ((c : Thread nD τ).loc main_arg1))) (dstOf (m ((c : Thread nD τ).loc main_arg1))) (H2 m c) (E m c) := by
  refine (W13_agg m ρ c).trans ?_
  rw [W10_v1, W10_v3, W10_h, W10_v6]
theorem V13_2 (j : Fin 128) : (V13 m ρ c main_v56 : S1x128.Idx → EReal) (ix2 (0 : Fin 1) j) = (m ((c : Thread nD τ).loc main_arg24)) ix0 := by
  show (W13 m ρ c (Proc.devRef .tc main_v56) : S1x128.Idx → EReal) (ix2 (0 : Fin 1) j) = _
  rw [W13_eps, Cert.HostPat.splat_apply _ _ _ (ix2 (0 : Fin 1) j) ix0, arg_W10 m ρ c (r := main_arg24) (by decide) (by decide) (by decide) (by decide)]
theorem V13_3 : V13 m ρ c main_arg20 = (m ((c : Thread nD τ).loc main_arg20)) :=
  (W13_low m ρ c (r := main_arg20) (by decide)).trans (arg_W10 m ρ c (r := main_arg20) (by decide) (by decide) (by decide) (by decide))
theorem V13_4 : (V13 m ρ c main_v54 : S1x128.Idx → EReal) = Cert.Gine.row (m ((c : Thread nD τ).loc main_arg21)) := by
  show (W13 m ρ c (Proc.devRef .tc main_v54) : S1x128.Idx → EReal) = _
  rw [W13_ba, arg_W10 m ρ c (r := main_arg21) (by decide) (by decide) (by decide) (by decide), cast_row]
theorem V13_5 : V13 m ρ c main_arg22 = (m ((c : Thread nD τ).loc main_arg22)) :=
  (W13_low m ρ c (r := main_arg22) (by decide)).trans (arg_W10 m ρ c (r := main_arg22) (by decide) (by decide) (by decide) (by decide))
theorem V13_6 : (V13 m ρ c main_v55 : S1x128.Idx → EReal) = Cert.Gine.row (m ((c : Thread nD τ).loc main_arg23)) := by
  show (W13 m ρ c (Proc.devRef .tc main_v55) : S1x128.Idx → EReal) = _
  rw [W13_bb, arg_W10 m ρ c (r := main_arg23) (by decide) (by decide) (by decide) (by decide), cast_row]

theorem W14_h : W14 m ρ c (Proc.devRef .tc main_v57) = H3 m c := by
  refine (W14_arr m ρ c 7).trans ((Reg3.final (V13 m ρ) c ((m ((c : Thread nD τ).loc main_arg24)) ix0) (V13_2 m ρ c)).trans ?_)
  unfold H3
  rw [V13_0, V13_1, V13_3, V13_4, V13_5, V13_6]

/-! ## The read-out: the per-graph sum, and region 4 -/

theorem W15_hg : W15 m ρ c (Proc.devRef .tc main_v60)
    = poolK (W14 m ρ c (Proc.devRef .tc main_arg3)) (W14 m ρ c (Proc.devRef .tc main_v57)) := by
  show StableHlo.after hostOps4 (W14 m ρ c) (Proc.devRef .tc main_v60) = _
  after_results
  rfl
theorem W15_bp : W15 m ρ c (Proc.devRef .tc main_v61)
    = shapeCast S1x128 (W14 m ρ c (Proc.devRef .tc main_arg9)) shapeCasts_S128_S1x128 := by
  show StableHlo.after hostOps4 (W14 m ρ c) (Proc.devRef .tc main_v61) = _
  after_results
  rfl

theorem V15_0 : V15 m ρ c (Pipeline.arrRef spec4 0) = poolK (m ((c : Thread nD τ).loc main_arg3)) (H3 m c) := by
  refine (W15_hg m ρ c).trans ?_
  rw [arg_W14 m ρ c (r := main_arg3) (by decide) (by decide) (by decide) (by decide) (by decide), W14_h]
theorem V15_1 : V15 m ρ c (Pipeline.arrRef spec4 1) = (m ((c : Thread nD τ).loc main_arg8)) :=
  (W15_low m ρ c (r := main_arg8) (by decide)).trans
    (arg_W14 m ρ c (r := main_arg8) (by decide) (by decide) (by decide) (by decide) (by decide))
theorem V15_2 : (V15 m ρ c (Pipeline.arrRef spec4 2) : S1x128.Idx → EReal) = Cert.Gine.row (m ((c : Thread nD τ).loc main_arg9)) := by
  show (W15 m ρ c (Proc.devRef .tc main_v61) : S1x128.Idx → EReal) = _
  rw [W15_bp, arg_W14 m ρ c (r := main_arg9) (by decide) (by decide) (by decide) (by decide) (by decide), cast_row]

/-- THE RESULT: after the last region the program's result buffer holds the network of the arguments. -/
theorem result : W16 m ρ c (Proc.devRef .tc main_v62)
    = Cert.Gine.net (aggK (srcOf (m ((c : Thread nD τ).loc main_arg1))) (dstOf (m ((c : Thread nD τ).loc main_arg1)))) (poolK (m ((c : Thread nD τ).loc main_arg3)))
        (m ((c : Thread nD τ).loc main_arg0)) (m ((c : Thread nD τ).loc main_arg2)) (m ((c : Thread nD τ).loc main_arg4)) (Cert.Gine.row (m ((c : Thread nD τ).loc main_arg5))) (m ((c : Thread nD τ).loc main_arg6)) (Cert.Gine.row (m ((c : Thread nD τ).loc main_arg7)))
        (m ((c : Thread nD τ).loc main_arg8)) (Cert.Gine.row (m ((c : Thread nD τ).loc main_arg9)))
        (m ((c : Thread nD τ).loc main_arg10)) (Cert.Gine.row (m ((c : Thread nD τ).loc main_arg11))) (m ((c : Thread nD τ).loc main_arg12)) (Cert.Gine.row (m ((c : Thread nD τ).loc main_arg13))) ((m ((c : Thread nD τ).loc main_arg14)) ix0)
        (m ((c : Thread nD τ).loc main_arg15)) (Cert.Gine.row (m ((c : Thread nD τ).loc main_arg16))) (m ((c : Thread nD τ).loc main_arg17)) (Cert.Gine.row (m ((c : Thread nD τ).loc main_arg18))) ((m ((c : Thread nD τ).loc main_arg19)) ix0)
        (m ((c : Thread nD τ).loc main_arg20)) (Cert.Gine.row (m ((c : Thread nD τ).loc main_arg21))) (m ((c : Thread nD τ).loc main_arg22)) (Cert.Gine.row (m ((c : Thread nD τ).loc main_arg23))) ((m ((c : Thread nD τ).loc main_arg24)) ix0) := by
  refine (W16_arr m ρ c 3).trans ((Reg4.final (V15 m ρ) c).trans ?_)
  rw [V15_0, V15_1, V15_2]
  unfold Cert.Gine.net H3 H2 H1 E
  rfl

end Cert.Gine.Vals

end
-- ==== Proof.RefNet.lean ====
/-
  The reference program computes the network of the specification.

  Its result is read stage by stage: the edge features are a rectified two-layer perceptron on every row; each of the
  three layers forms (1 + eps) · h + aggr, where aggr is the neighbourhood sum of h and the edge features, and applies
  a rectified two-layer perceptron on every row; the read-out is one rectified linear layer on the per-graph sums.
  The neighbourhood sum and the per-graph sum are carried as whole functions of the arrays they take and are never
  opened: the three layers use the same one.
-/
import proofs.«145339_j5291399709172_2_alg».proof.Proof.Gen.ReferenceIdeal.Read
import proofs.«145339_j5291399709172_2_alg».proof.Proof.Spec
import Idealize.ShloMosaic.Lib.ValueLayout
import Idealize.ShloMosaic.Lib.Pipeline.Value
import Idealize.ShloMosaic.PureOps.Ideal.Laws

noncomputable section

open scoped BigOperators

namespace Cert.Gine.Ref

open Cert.ReferenceIdeal Cert.ReferenceIdeal.Gen Cert.ReferenceIdeal.Read Idealize.ShloMosaic Idealize.ShloMosaic.ValueIdx

/-! ## The sub-networks, for any sizes -/

/-- A rectified two-layer perceptron computed on the whole array, the biases laid as rows and repeated, is the
    rectifier of `rows` with the biases as one-row matrices. -/
theorem mlp_eq {N I H O : ℕ} (D1 : DotDims ⟨2, ![N, I]⟩ ⟨2, ![I, H]⟩ ⟨2, ![N, H]⟩)
    (D2 : DotDims ⟨2, ![N, H]⟩ ⟨2, ![H, O]⟩ ⟨2, ![N, O]⟩)
    (hr : D1.contr.rank = 1) (hs : D1.contr.size ⟨0, by omega⟩ = I)
    (hlc : D1.lhsContracting = [1]) (hrc : D1.rhsContracting = [0])
    (hl0 : ∀ j q, (D1.lhsIdx j q 0).val = (j 0).val) (hr1 : ∀ j q, (D1.rhsIdx j q 1).val = (j 1).val)
    (hr' : D2.contr.rank = 1) (hs' : D2.contr.size ⟨0, by omega⟩ = H)
    (hlc' : D2.lhsContracting = [1]) (hrc' : D2.rhsContracting = [0])
    (hl0' : ∀ j q, (D2.lhsIdx j q 0).val = (j 0).val) (hr1' : ∀ j q, (D2.rhsIdx j q 1).val = (j 1).val)
    (hb1 : (⟨1, ![H]⟩ : Shape).BroadcastsInDim ⟨2, ![1, H]⟩ ![1])
    (hb1' : (⟨2, ![1, H]⟩ : Shape).BroadcastsInDim ⟨2, ![N, H]⟩ ![0, 1])
    (hz : (⟨0, ![]⟩ : Shape).BroadcastsInDim ⟨2, ![N, H]⟩ ![])
    (hb2 : (⟨1, ![O]⟩ : Shape).BroadcastsInDim ⟨2, ![1, O]⟩ ![1])
    (hb2' : (⟨2, ![1, O]⟩ : Shape).BroadcastsInDim ⟨2, ![N, O]⟩ ![0, 1])
    (hz' : (⟨0, ![]⟩ : Shape).BroadcastsInDim ⟨2, ![N, O]⟩ ![])
    (x : FVec Ideal ⟨2, ![N, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32) :
    maximumf
        (addf
          (Host.dotGeneral D2 none
            (maximumf
              (addf (Host.dotGeneral D1 none x w1)
                (broadcastInDim ⟨2, ![N, H]⟩ ![0, 1] hb1' (broadcastInDim ⟨2, ![1, H]⟩ ![1] hb1 b1)))
              (broadcastInDim ⟨2, ![N, H]⟩ ![] hz (constant (F := Ideal) ⟨0, ![]⟩ .f32 0x00000000#32)))
            w2)
          (broadcastInDim ⟨2, ![N, O]⟩ ![0, 1] hb2' (broadcastInDim ⟨2, ![1, O]⟩ ![1] hb2 b2)))
        (broadcastInDim ⟨2, ![N, O]⟩ ![] hz' (constant (F := Ideal) ⟨0, ![]⟩ .f32 0x00000000#32))
      = Cert.Gine.relu (LibEdgeMlp.rows x w1 (Cert.Gine.row b1) w2 (Cert.Gine.row b2)) := by
  funext i
  obtain ⟨r, q, rfl⟩ : ∃ (r : Fin N) (q : Fin O), i = ix2 r q := ⟨i 0, i 1, eq_ix2 i⟩
  rw [maximumf_apply,
    LibEdgeMlp.host_apply D1 D2 hr hs hlc hrc hl0 hr1 hr' hs' hlc' hrc' hl0' hr1' hb1 hb1' hz hb2 hb2' x w1 b1 w2 b2 r q,
    Cert.HostPat.splat_apply _ hz' _ (ix2 r q) ix0, constant_apply]
  rfl

/-- One layer computed on the whole array: (1 + eps) · h + aggr through a rectified two-layer perceptron. -/
theorem node_eq {N : ℕ} (D : DotDims ⟨2, ![N, 128]⟩ ⟨2, ![128, 128]⟩ ⟨2, ![N, 128]⟩)
    (hr : D.contr.rank = 1) (hs : D.contr.size ⟨0, by omega⟩ = 128)
    (hlc : D.lhsContracting = [1]) (hrc : D.rhsContracting = [0])
    (hl0 : ∀ j q, (D.lhsIdx j q 0).val = (j 0).val) (hr1 : ∀ j q, (D.rhsIdx j q 1).val = (j 1).val)
    (hb : (⟨1, ![128]⟩ : Shape).BroadcastsInDim ⟨2, ![1, 128]⟩ ![1])
    (hb' : (⟨2, ![1, 128]⟩ : Shape).BroadcastsInDim ⟨2, ![N, 128]⟩ ![0, 1])
    (hz : (⟨0, ![]⟩ : Shape).BroadcastsInDim ⟨2, ![N, 128]⟩ ![])
    (h aggr : FVec Ideal ⟨2, ![N, 128]⟩ .f32) (eps : FVec Ideal ⟨0, ![]⟩ .f32)
    (wa : FVec Ideal ⟨2, ![128, 128]⟩ .f32) (ba : FVec Ideal ⟨1, ![128]⟩ .f32)
    (wb : FVec Ideal ⟨2, ![128, 128]⟩ .f32) (bb : FVec Ideal ⟨1, ![128]⟩ .f32) :
    maximumf
        (addf
          (Host.dotGeneral D none
            (maximumf
              (addf
                (Host.dotGeneral D none
                  (addf
                    (mulf
                      (broadcastInDim ⟨2, ![N, 128]⟩ ![] hz
                        (addf (constant (F := Ideal) ⟨0, ![]⟩ .f32 0x3F800000#32) eps))
                      h)
                    aggr)
                  wa)
                (broadcastInDim ⟨2, ![N, 128]⟩ ![0, 1] hb' (broadcastInDim ⟨2, ![1, 128]⟩ ![1] hb ba)))
              (broadcastInDim ⟨2, ![N, 128]⟩ ![] hz (constant (F := Ideal) ⟨0, ![]⟩ .f32 0x00000000#32)))
            wb)
          (broadcastInDim ⟨2, ![N, 128]⟩ ![0, 1] hb' (broadcastInDim ⟨2, ![1, 128]⟩ ![1] hb bb)))
        (broadcastInDim ⟨2, ![N, 128]⟩ ![] hz (constant (F := Ideal) ⟨0, ![]⟩ .f32 0x00000000#32))
      = Cert.Gine.node h aggr (eps ix0) wa (Cert.Gine.row ba) wb (Cert.Gine.row bb) := by
  have hm : addf
        (mulf
          (broadcastInDim ⟨2, ![N, 128]⟩ ![] hz (addf (constant (F := Ideal) ⟨0, ![]⟩ .f32 0x3F800000#32) eps))
          h)
        aggr
      = Cert.Gine.mix h aggr (eps ix0) := by
    funext i
    rw [addf_apply, mulf_apply, Cert.HostPat.splat_apply _ hz _ i ix0, addf_apply, constant_apply]
    rfl
  rw [hm]
  exact mlp_eq D D hr hs hlc hrc hl0 hr1 hr hs hlc hrc hl0 hr1 hb hb' hz hb hb' hz
    (Cert.Gine.mix h aggr (eps ix0)) wa ba wb bb

/-- The read-out computed on the whole array: one rectified linear layer on every row. -/
theorem proj_eq {N : ℕ} (D : DotDims ⟨2, ![N, 128]⟩ ⟨2, ![128, 128]⟩ ⟨2, ![N, 128]⟩)
    (hr : D.contr.rank = 1) (hs : D.contr.size ⟨0, by omega⟩ = 128)
    (hlc : D.lhsContracting = [1]) (hrc : D.rhsContracting = [0])
    (hl0 : ∀ j q, (D.lhsIdx j q 0).val = (j 0).val) (hr1 : ∀ j q, (D.rhsIdx j q 1).val = (j 1).val)
    (hb : (⟨1, ![128]⟩ : Shape).BroadcastsInDim ⟨2, ![1, 128]⟩ ![1])
    (hb' : (⟨2, ![1, 128]⟩ : Shape).BroadcastsInDim ⟨2, ![N, 128]⟩ ![0, 1])
    (hz : (⟨0, ![]⟩ : Shape).BroadcastsInDim ⟨2, ![N, 128]⟩ ![])
    (hg : FVec Ideal ⟨2, ![N, 128]⟩ .f32) (wp : FVec Ideal ⟨2, ![128, 128]⟩ .f32) (bp : FVec Ideal ⟨1, ![128]⟩ .f32) :
    maximumf
        (addf (Host.dotGeneral D none hg wp)
          (broadcastInDim ⟨2, ![N, 128]⟩ ![0, 1] hb' (broadcastInDim ⟨2, ![1, 128]⟩ ![1] hb bp)))
        (broadcastInDim ⟨2, ![N, 128]⟩ ![] hz (constant (F := Ideal) ⟨0, ![]⟩ .f32 0x00000000#32))
      = Cert.Gine.proj hg wp (Cert.Gine.row bp) := by
  funext i
  obtain ⟨r, q, rfl⟩ : ∃ (r : Fin N) (q : Fin 128), i = ix2 r q := ⟨i 0, i 1, eq_ix2 i⟩
  rw [maximumf_apply, addf_apply, LibMatmul2.dotGeneral_apply D hr hs hlc hrc hl0 hr1 none hg wp r q,
    Cert.HostPat.rowRows_apply hb' _ r q, Cert.HostPat.row_apply hb bp 0 q,
    Cert.HostPat.splat_apply _ hz _ (ix2 r q) ix0, constant_apply]
  rfl

/-! ## The two sums, as whole functions -/

/-- A layer's neighbourhood sum: rows of `h` taken along the edges' sources, plus the edge features, rectified, summed
    into the edges' targets.  One function of `h`, `e` and the edge array. -/
def aggR (x1 : (⟨S2x600000, .i32⟩ : BufTy).Contents (Elt Ideal)) (h : Cert.Gine.Arr 50000 128) (e : Cert.Gine.Arr 600000 128) :
    Cert.Gine.Arr 50000 128 :=
  Host.scatterAdd (F := Ideal) (φ := .f32) scatter_S50000x128_S600000x1_S600000x128_1_0_0_1 (val_main_v23 (F := Ideal))
    (val_main_v24 (F := Ideal) x1)
    (maximumf (F := Ideal) (φ := .f32)
      (addf (F := Ideal) (φ := .f32)
        (Host.gather gather_S50000x128_S600000x1_S600000x128_1_0_n_n_0_1_1128 h (val_main_v19 (F := Ideal) x1)) e)
      (val_main_call2_v0 (F := Ideal)))

/-- The per-graph sum: rows of `h` summed into their graphs' rows. -/
def poolR (x3 : (⟨S50000, .i32⟩ : BufTy).Contents (Elt Ideal)) (h : Cert.Gine.Arr 50000 128) : Cert.Gine.Arr 1024 128 :=
  Host.scatterAdd (F := Ideal) (φ := .f32) scatter_S1024x128_S50000x1_S50000x128_1_0_0_1 (val_main_v92 (F := Ideal))
    (val_main_v93 (F := Ideal) x3) h

/-! ## The stages of the reference program -/

/-- The edge features. -/
theorem edge_eq (x2 : (⟨S600000x16, .f32⟩ : BufTy).Contents (Elt Ideal)) (x4 : (⟨S16x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v13 (F := Ideal) x2 x4 x5 x6 x7 = Cert.Gine.edge x2 x4 (Cert.Gine.row x5) x6 (Cert.Gine.row x7) := by
  unfold val_main_v13 val_main_v12 val_main_v11 val_main_v10 val_main_v9 val_main_v8 val_main_v7 val_main_v6 val_main_v5
    val_main_v4 val_main_call0_v0 val_main_call0_cst val_main_call1_v0 val_main_call1_cst
  exact mlp_eq dot_S600000x16_S16x128_S600000x128_1_0_0_1_n_n dot_S600000x128_S128x128_S600000x128_1_0_0_1_n_n
    rfl rfl rfl rfl lhs_main_v4_0 rhs_main_v4_1 rfl rfl rfl rfl lhs_main_v9_0 rhs_main_v9_1
    bcast_S128_S1x128_1 bcast_S1x128_S600000x128_0_1 bcast_S_S600000x128 bcast_S128_S1x128_1 bcast_S1x128_S600000x128_0_1
    bcast_S_S600000x128 x2 x4 x5 x6 x7

/-- Layer 1's neighbourhood sum. -/
theorem agg1_eq (x0 : (⟨S50000x128, .f32⟩ : BufTy).Contents (Elt Ideal)) (x1 : (⟨S2x600000, .i32⟩ : BufTy).Contents (Elt Ideal)) (x2 : (⟨S600000x16, .f32⟩ : BufTy).Contents (Elt Ideal)) (x4 : (⟨S16x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v25 (F := Ideal) x0 x1 x2 x4 x5 x6 x7 = aggR x1 x0 (val_main_v13 (F := Ideal) x2 x4 x5 x6 x7) := by
  unfold val_main_v25 val_main_v22 val_main_v21 val_main_v20 aggR
  rfl

/-- Layer 1. -/
theorem layer1_eq (x0 : (⟨S50000x128, .f32⟩ : BufTy).Contents (Elt Ideal)) (x1 : (⟨S2x600000, .i32⟩ : BufTy).Contents (Elt Ideal)) (x2 : (⟨S600000x16, .f32⟩ : BufTy).Contents (Elt Ideal)) (x4 : (⟨S16x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S_, .f32⟩ : BufTy).Contents (Elt Ideal)) :
    val_main_v39 (F := Ideal) x0 x1 x2 x4 x5 x6 x7 x10 x11 x12 x13 x14
      = Cert.Gine.node x0 (aggR x1 x0 (val_main_v13 (F := Ideal) x2 x4 x5 x6 x7)) (x14 ix0) x10 (Cert.Gine.row x11) x12 (Cert.Gine.row x13) := by
  unfold val_main_v39 val_main_v38 val_main_v37 val_main_v36 val_main_v35 val_main_v34 val_main_v33 val_main_v32 val_main_v31
    val_main_v30 val_main_v29 val_main_v28 val_main_v27 val_main_v26 val_main_cst_1 val_main_call3_v0 val_main_call3_cst
    val_main_call4_v0 val_main_call4_cst
  rw [agg1_eq]
  exact node_eq dot_S50000x128_S128x128_S50000x128_1_0_0_1_n_n rfl rfl rfl rfl lhs_main_v30_0 rhs_main_v30_1
    bcast_S128_S1x128_1 bcast_S1x128_S50000x128_0_1 bcast_S_S50000x128 x0 _ x14 x10 x11 x12 x13

/-- Layer 2's neighbourhood sum: the same function as layer 1's, of layer 1's result. -/
theorem agg2_eq (x0 : (⟨S50000x128, .f32⟩ : BufTy).Contents (Elt Ideal)) (x1 : (⟨S2x600000, .i32⟩ : BufTy).Contents (Elt Ideal)) (x2 : (⟨S600000x16, .f32⟩ : BufTy).Contents (Elt Ideal)) (x4 : (⟨S16x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S_, .f32⟩ : BufTy).Contents (Elt Ideal)) :
    val_main_v51 (F := Ideal) x0 x1 x2 x4 x5 x6 x7 x10 x11 x12 x13 x14 = aggR x1 (val_main_v39 (F := Ideal) x0 x1 x2 x4 x5 x6 x7 x10 x11 x12 x13 x14) (val_main_v13 (F := Ideal) x2 x4 x5 x6 x7) := by
  unfold val_main_v51 val_main_v48 val_main_v47 val_main_v46 aggR
  rfl

/-- Layer 2. -/
theorem layer2_eq (x0 : (⟨S50000x128, .f32⟩ : BufTy).Contents (Elt Ideal)) (x1 : (⟨S2x600000, .i32⟩ : BufTy).Contents (Elt Ideal)) (x2 : (⟨S600000x16, .f32⟩ : BufTy).Contents (Elt Ideal)) (x4 : (⟨S16x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S_, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S_, .f32⟩ : BufTy).Contents (Elt Ideal)) :
    val_main_v65 (F := Ideal) x0 x1 x2 x4 x5 x6 x7 x10 x11 x12 x13 x14 x15 x16 x17 x18 x19
      = Cert.Gine.node (val_main_v39 (F := Ideal) x0 x1 x2 x4 x5 x6 x7 x10 x11 x12 x13 x14) (aggR x1 (val_main_v39 (F := Ideal) x0 x1 x2 x4 x5 x6 x7 x10 x11 x12 x13 x14) (val_main_v13 (F := Ideal) x2 x4 x5 x6 x7)) (x19 ix0) x15 (Cert.Gine.row x16) x17 (Cert.Gine.row x18) := by
  unfold val_main_v65 val_main_v64 val_main_v63 val_main_v62 val_main_v61 val_main_v60 val_main_v59 val_main_v58 val_main_v57
    val_main_v56 val_main_v55 val_main_v54 val_main_v53 val_main_v52 val_main_cst_5 val_main_call6_v0 val_main_call6_cst
    val_main_call7_v0 val_main_call7_cst
  rw [agg2_eq]
  exact node_eq dot_S50000x128_S128x128_S50000x128_1_0_0_1_n_n rfl rfl rfl rfl lhs_main_v30_0 rhs_main_v30_1
    bcast_S128_S1x128_1 bcast_S1x128_S50000x128_0_1 bcast_S_S50000x128 _ _ x19 x15 x16 x17 x18

/-- Layer 3's neighbourhood sum: the same function again, of layer 2's result. -/
theorem agg3_eq (x0 : (⟨S50000x128, .f32⟩ : BufTy).Contents (Elt Ideal)) (x1 : (⟨S2x600000, .i32⟩ : BufTy).Contents (Elt Ideal)) (x2 : (⟨S600000x16, .f32⟩ : BufTy).Contents (Elt Ideal)) (x4 : (⟨S16x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S_, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S_, .f32⟩ : BufTy).Contents (Elt Ideal)) :
    val_main_v77 (F := Ideal) x0 x1 x2 x4 x5 x6 x7 x10 x11 x12 x13 x14 x15 x16 x17 x18 x19 = aggR x1 (val_main_v65 (F := Ideal) x0 x1 x2 x4 x5 x6 x7 x10 x11 x12 x13 x14 x15 x16 x17 x18 x19) (val_main_v13 (F := Ideal) x2 x4 x5 x6 x7) := by
  unfold val_main_v77 val_main_v74 val_main_v73 val_main_v72 aggR
  rfl

/-- Layer 3. -/
theorem layer3_eq (x0 : (⟨S50000x128, .f32⟩ : BufTy).Contents (Elt Ideal)) (x1 : (⟨S2x600000, .i32⟩ : BufTy).Contents (Elt Ideal)) (x2 : (⟨S600000x16, .f32⟩ : BufTy).Contents (Elt Ideal)) (x4 : (⟨S16x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S_, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S_, .f32⟩ : BufTy).Contents (Elt Ideal)) (x20 : (⟨S128x128, .f32⟩ : BufTy).Contents (Elt Ideal)) (x21 : (⟨S128, .f32⟩ : BufTy).Contents (Elt Ideal)) (x22 : (⟨S128x128, .f32⟩ : BufTy).Contents (Elt Ideal)) (x23 : (⟨S128, .f32⟩ : BufTy).Contents (Elt Ideal)) (x24 : (⟨S_, .f32⟩ : BufTy).Contents (Elt Ideal)) :
    val_main_v91 (F := Ideal) x0 x1 x2 x4 x5 x6 x7 x10 x11 x12 x13 x14 x15 x16 x17 x18 x19 x20 x21 x22 x23 x24
      = Cert.Gine.node (val_main_v65 (F := Ideal) x0 x1 x2 x4 x5 x6 x7 x10 x11 x12 x13 x14 x15 x16 x17 x18 x19) (aggR x1 (val_main_v65 (F := Ideal) x0 x1 x2 x4 x5 x6 x7 x10 x11 x12 x13 x14 x15 x16 x17 x18 x19) (val_main_v13 (F := Ideal) x2 x4 x5 x6 x7)) (x24 ix0) x20 (Cert.Gine.row x21) x22 (Cert.Gine.row x23) := by
  unfold val_main_v91 val_main_v90 val_main_v89 val_main_v88 val_main_v87 val_main_v86 val_main_v85 val_main_v84 val_main_v83
    val_main_v82 val_main_v81 val_main_v80 val_main_v79 val_main_v78 val_main_cst_9 val_main_call9_v0 val_main_call9_cst
    val_main_call10_v0 val_main_call10_cst
  rw [agg3_eq]
  exact node_eq dot_S50000x128_S128x128_S50000x128_1_0_0_1_n_n rfl rfl rfl rfl lhs_main_v30_0 rhs_main_v30_1
    bcast_S128_S1x128_1 bcast_S1x128_S50000x128_0_1 bcast_S_S50000x128 _ _ x24 x20 x21 x22 x23

/-- The read-out, of the per-graph sums of layer 3's result. -/
theorem out_eq (x0 : (⟨S50000x128, .f32⟩ : BufTy).Contents (Elt Ideal)) (x1 : (⟨S2x600000, .i32⟩ : BufTy).Contents (Elt Ideal)) (x2 : (⟨S600000x16, .f32⟩ : BufTy).Contents (Elt Ideal)) (x3 : (⟨S50000, .i32⟩ : BufTy).Contents (Elt Ideal)) (x4 : (⟨S16x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S_, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S_, .f32⟩ : BufTy).Contents (Elt Ideal)) (x20 : (⟨S128x128, .f32⟩ : BufTy).Contents (Elt Ideal)) (x21 : (⟨S128, .f32⟩ : BufTy).Contents (Elt Ideal)) (x22 : (⟨S128x128, .f32⟩ : BufTy).Contents (Elt Ideal)) (x23 : (⟨S128, .f32⟩ : BufTy).Contents (Elt Ideal)) (x24 : (⟨S_, .f32⟩ : BufTy).Contents (Elt Ideal)) :
    val_main_v99 (F := Ideal) x0 x1 x2 x3 x4 x5 x6 x7 x8 x9 x10 x11 x12 x13 x14 x15 x16 x17 x18 x19 x20 x21 x22 x23 x24
      = Cert.Gine.proj (poolR x3 (val_main_v91 (F := Ideal) x0 x1 x2 x4 x5 x6 x7 x10 x11 x12 x13 x14 x15 x16 x17 x18 x19 x20 x21 x22 x23 x24)) x8 (Cert.Gine.row x9) := by
  unfold val_main_v99 val_main_v98 val_main_v97 val_main_v96 val_main_v95 val_main_v94 val_main_call11_v0 val_main_call11_cst
  exact proj_eq dot_S1024x128_S128x128_S1024x128_1_0_0_1_n_n rfl rfl rfl rfl lhs_main_v95_0 rhs_main_v95_1
    bcast_S128_S1x128_1 bcast_S1x128_S1024x128_0_1 bcast_S_S1024x128 _ x8 x9

/-! ## The whole program -/

/-- The reference program's result is the network, with its own neighbourhood sum and per-graph sum. -/
theorem ref_eq (x0 : (⟨S50000x128, .f32⟩ : BufTy).Contents (Elt Ideal)) (x1 : (⟨S2x600000, .i32⟩ : BufTy).Contents (Elt Ideal)) (x2 : (⟨S600000x16, .f32⟩ : BufTy).Contents (Elt Ideal)) (x3 : (⟨S50000, .i32⟩ : BufTy).Contents (Elt Ideal)) (x4 : (⟨S16x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S_, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S_, .f32⟩ : BufTy).Contents (Elt Ideal)) (x20 : (⟨S128x128, .f32⟩ : BufTy).Contents (Elt Ideal)) (x21 : (⟨S128, .f32⟩ : BufTy).Contents (Elt Ideal)) (x22 : (⟨S128x128, .f32⟩ : BufTy).Contents (Elt Ideal)) (x23 : (⟨S128, .f32⟩ : BufTy).Contents (Elt Ideal)) (x24 : (⟨S_, .f32⟩ : BufTy).Contents (Elt Ideal)) :
    val_main_v99 (F := Ideal) x0 x1 x2 x3 x4 x5 x6 x7 x8 x9 x10 x11 x12 x13 x14 x15 x16 x17 x18 x19 x20 x21 x22 x23 x24
      = Cert.Gine.net (aggR x1) (poolR x3) x0 x2 x4 (Cert.Gine.row x5) x6 (Cert.Gine.row x7) x8 (Cert.Gine.row x9)
          x10 (Cert.Gine.row x11) x12 (Cert.Gine.row x13) (x14 ix0)
          x15 (Cert.Gine.row x16) x17 (Cert.Gine.row x18) (x19 ix0)
          x20 (Cert.Gine.row x21) x22 (Cert.Gine.row x23) (x24 ix0) := by
  rw [out_eq, layer3_eq, layer2_eq, layer1_eq, edge_eq]
  rfl

end Cert.Gine.Ref

end
-- ==== Proof.Bridge.lean ====
/-
  The two programs' host chains are one function.

  The kernel program's neighbourhood sum and per-graph sum, and the reference program's, are spelled with the same
  operations over records with the same literal fields; the kernel program's edge features pass through a widening
  change of float format, which is the identity on the extended reals.  So they are equal as whole functions, and the
  reference program's result is the network with the kernel program's two sums.
-/
import proofs.«145339_j5291399709172_2_alg».proof.Proof.HostFns
import proofs.«145339_j5291399709172_2_alg».proof.Proof.RefNet

noncomputable section

namespace Cert.Gine.Bridge

open Idealize.ShloMosaic Idealize.ShloMosaic.TcCoe Idealize.ShloMosaic.ValueIdx Idealize.SL.Sem

/-- The neighbourhood sum of the kernel program, on the two rows of the edge array, is the reference program's. -/
theorem agg_eq (x1 : (⟨Cert.KernelIdeal.S2x600000, .i32⟩ : BufTy).Contents (Elt Ideal)) :
    (fun h e => Cert.Gine.HostK.aggK (Cert.Gine.HostK.srcOf x1) (Cert.Gine.HostK.dstOf x1) h e) = Cert.Gine.Ref.aggR x1 := by
  funext h e
  unfold Cert.Gine.HostK.aggK Cert.Gine.HostK.srcOf Cert.Gine.HostK.dstOf Cert.Gine.Ref.aggR
    Cert.ReferenceIdeal.Read.val_main_v23 Cert.ReferenceIdeal.Read.val_main_cst
    Cert.ReferenceIdeal.Read.val_main_v24 Cert.ReferenceIdeal.Read.val_main_v3 Cert.ReferenceIdeal.Read.val_main_v2
    Cert.ReferenceIdeal.Read.val_main_v19 Cert.ReferenceIdeal.Read.val_main_v18 Cert.ReferenceIdeal.Read.val_main_v17
    Cert.ReferenceIdeal.Read.val_main_v16 Cert.ReferenceIdeal.Read.val_main_c_0 Cert.ReferenceIdeal.Read.val_main_v15
    Cert.ReferenceIdeal.Read.val_main_v14 Cert.ReferenceIdeal.Read.val_main_c Cert.ReferenceIdeal.Read.val_main_v1
    Cert.ReferenceIdeal.Read.val_main_v0 Cert.ReferenceIdeal.Read.val_main_call2_v0 Cert.ReferenceIdeal.Read.val_main_call2_cst
  rfl

/-- The per-graph sum of the kernel program is the reference program's. -/
theorem pool_eq (x3 : (⟨Cert.KernelIdeal.S50000, .i32⟩ : BufTy).Contents (Elt Ideal)) : Cert.Gine.HostK.poolK x3 = Cert.Gine.Ref.poolR x3 := by
  funext h
  unfold Cert.Gine.HostK.poolK Cert.Gine.Ref.poolR Cert.ReferenceIdeal.Read.val_main_v92 Cert.ReferenceIdeal.Read.val_main_cst_10
    Cert.ReferenceIdeal.Read.val_main_v93
  rfl

/-- The network with the kernel program's two sums, as one function of the 25 argument arrays. -/
def netK (a0 : (⟨Cert.KernelIdeal.S50000x128, .f32⟩ : BufTy).Contents (Elt Ideal)) (a1 : (⟨Cert.KernelIdeal.S2x600000, .i32⟩ : BufTy).Contents (Elt Ideal)) (a2 : (⟨Cert.KernelIdeal.S600000x16, .f32⟩ : BufTy).Contents (Elt Ideal)) (a3 : (⟨Cert.KernelIdeal.S50000, .i32⟩ : BufTy).Contents (Elt Ideal)) (a4 : (⟨Cert.KernelIdeal.S16x128, .f32⟩ : BufTy).Contents (Elt Ideal)) (a5 : (⟨Cert.KernelIdeal.S128, .f32⟩ : BufTy).Contents (Elt Ideal)) (a6 : (⟨Cert.KernelIdeal.S128x128, .f32⟩ : BufTy).Contents (Elt Ideal)) (a7 : (⟨Cert.KernelIdeal.S128, .f32⟩ : BufTy).Contents (Elt Ideal)) (a8 : (⟨Cert.KernelIdeal.S128x128, .f32⟩ : BufTy).Contents (Elt Ideal)) (a9 : (⟨Cert.KernelIdeal.S128, .f32⟩ : BufTy).Contents (Elt Ideal)) (a10 : (⟨Cert.KernelIdeal.S128x128, .f32⟩ : BufTy).Contents (Elt Ideal)) (a11 : (⟨Cert.KernelIdeal.S128, .f32⟩ : BufTy).Contents (Elt Ideal)) (a12 : (⟨Cert.KernelIdeal.S128x128, .f32⟩ : BufTy).Contents (Elt Ideal)) (a13 : (⟨Cert.KernelIdeal.S128, .f32⟩ : BufTy).Contents (Elt Ideal)) (a14 : (⟨Cert.KernelIdeal.S_, .f32⟩ : BufTy).Contents (Elt Ideal)) (a15 : (⟨Cert.KernelIdeal.S128x128, .f32⟩ : BufTy).Contents (Elt Ideal)) (a16 : (⟨Cert.KernelIdeal.S128, .f32⟩ : BufTy).Contents (Elt Ideal)) (a17 : (⟨Cert.KernelIdeal.S128x128, .f32⟩ : BufTy).Contents (Elt Ideal)) (a18 : (⟨Cert.KernelIdeal.S128, .f32⟩ : BufTy).Contents (Elt Ideal)) (a19 : (⟨Cert.KernelIdeal.S_, .f32⟩ : BufTy).Contents (Elt Ideal)) (a20 : (⟨Cert.KernelIdeal.S128x128, .f32⟩ : BufTy).Contents (Elt Ideal)) (a21 : (⟨Cert.KernelIdeal.S128, .f32⟩ : BufTy).Contents (Elt Ideal)) (a22 : (⟨Cert.KernelIdeal.S128x128, .f32⟩ : BufTy).Contents (Elt Ideal)) (a23 : (⟨Cert.KernelIdeal.S128, .f32⟩ : BufTy).Contents (Elt Ideal)) (a24 : (⟨Cert.KernelIdeal.S_, .f32⟩ : BufTy).Contents (Elt Ideal)) : Cert.Gine.Arr 1024 128 :=
  Cert.Gine.net (Cert.Gine.HostK.aggK (Cert.Gine.HostK.srcOf a1) (Cert.Gine.HostK.dstOf a1)) (Cert.Gine.HostK.poolK a3)
      a0 a2 a4 (Cert.Gine.row a5) a6 (Cert.Gine.row a7) a8 (Cert.Gine.row a9)
      a10 (Cert.Gine.row a11) a12 (Cert.Gine.row a13) (a14 ix0)
      a15 (Cert.Gine.row a16) a17 (Cert.Gine.row a18) (a19 ix0)
      a20 (Cert.Gine.row a21) a22 (Cert.Gine.row a23) (a24 ix0)

/-- The reference program's result is that function of its own argument arrays. -/
theorem ref_side (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v99 m' c
      = netK (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg11))
          (m' ((c.tc : Thread Cert.ReferenceIdeal.nD Cert.ReferenceIdeal.τ).loc Cert.ReferenceIdeal.main_arg12))
          (m' ((c.tc : Thread Cert.ReferenceIdeal.nD Cert.ReferenceIdeal.τ).loc Cert.ReferenceIdeal.main_arg13))
          (m' ((c.tc : Thread Cert.ReferenceIdeal.nD Cert.ReferenceIdeal.τ).loc Cert.ReferenceIdeal.main_arg14))
          (m' ((c.tc : Thread Cert.ReferenceIdeal.nD Cert.ReferenceIdeal.τ).loc Cert.ReferenceIdeal.main_arg15))
          (m' ((c.tc : Thread Cert.ReferenceIdeal.nD Cert.ReferenceIdeal.τ).loc Cert.ReferenceIdeal.main_arg16))
          (m' ((c.tc : Thread Cert.ReferenceIdeal.nD Cert.ReferenceIdeal.τ).loc Cert.ReferenceIdeal.main_arg17))
          (m' ((c.tc : Thread Cert.ReferenceIdeal.nD Cert.ReferenceIdeal.τ).loc Cert.ReferenceIdeal.main_arg18))
          (m' ((c.tc : Thread Cert.ReferenceIdeal.nD Cert.ReferenceIdeal.τ).loc Cert.ReferenceIdeal.main_arg19))
          (m' ((c.tc : Thread Cert.ReferenceIdeal.nD Cert.ReferenceIdeal.τ).loc Cert.ReferenceIdeal.main_arg20))
          (m' ((c.tc : Thread Cert.ReferenceIdeal.nD Cert.ReferenceIdeal.τ).loc Cert.ReferenceIdeal.main_arg21))
          (m' ((c.tc : Thread Cert.ReferenceIdeal.nD Cert.ReferenceIdeal.τ).loc Cert.ReferenceIdeal.main_arg22))
          (m' ((c.tc : Thread Cert.ReferenceIdeal.nD Cert.ReferenceIdeal.τ).loc Cert.ReferenceIdeal.main_arg23))
          (m' ((c.tc : Thread Cert.ReferenceIdeal.nD Cert.ReferenceIdeal.τ).loc Cert.ReferenceIdeal.main_arg24)) := by
  rw [Cert.ReferenceIdeal.Read.val_main_v99_eq m' c, Cert.Gine.Ref.ref_eq, ← agg_eq, ← pool_eq]
  rfl

end Cert.Gine.Bridge

end
-- ==== Proof.lean ====
/-
  The proof of the certificate's claims.

  Frames: each of the three programs runs and leaves its argument arrays unchanged.  The idealized kernel program is
  the kernel program's own text, so nothing is to be preserved.

  Equal results on the extended reals: both programs compute one network of the 25 argument arrays — the edge features
  e = relu (relu (a · W1 + b1) · W2 + b2); three layers h' = relu (relu (z · Wa + ba) · Wb + bb) with
  z = (1 + eps) · h + aggr, aggr the neighbourhood sum of h and e; the read-out relu (pool h3 · Wp + bp), pool the
  per-graph sum.  The kernel program's result buffer holds that network of its arguments (its regions compute the edge
  features, the layers' perceptrons and the read-out row block by row block, its host code the two sums); the reference
  program's result is the same network of its own arguments, its two sums being the kernel program's as whole functions.
  From memories that agree on the arguments the two results are therefore the same array.
-/
import proofs.«145339_j5291399709172_2_alg».proof.Defs
import proofs.«145339_j5291399709172_2_alg».proof.Proof.Gen.Kernel
import proofs.«145339_j5291399709172_2_alg».proof.Proof.Gen.Kernel.Skeleton
import proofs.«145339_j5291399709172_2_alg».proof.Proof.Gen.Kernel.Launch
import proofs.«145339_j5291399709172_2_alg».proof.Proof.Gen.Kernel.Points
import proofs.«145339_j5291399709172_2_alg».proof.Proof.Gen.Kernel.Frame
import proofs.«145339_j5291399709172_2_alg».proof.Proof.Gen.KernelIdeal
import proofs.«145339_j5291399709172_2_alg».proof.Proof.Gen.KernelIdeal.Skeleton
import proofs.«145339_j5291399709172_2_alg».proof.Proof.Gen.KernelIdeal.Launch
import proofs.«145339_j5291399709172_2_alg».proof.Proof.Gen.KernelIdeal.Points
import proofs.«145339_j5291399709172_2_alg».proof.Proof.Gen.KernelIdeal.Frame
import proofs.«145339_j5291399709172_2_alg».proof.Proof.Gen.ReferenceIdeal
import proofs.«145339_j5291399709172_2_alg».proof.Proof.Gen.ReferenceIdeal.Run
import proofs.«145339_j5291399709172_2_alg».proof.Proof.Gen.ReferenceIdeal.Read
import proofs.«145339_j5291399709172_2_alg».proof.Proof.Gen.Pre_finite_inputs
import Idealize.ShloMosaic.Adequacy
import Idealize.ShloMosaic.Init
import proofs.«145339_j5291399709172_2_alg».proof.Proof.KRun
import proofs.«145339_j5291399709172_2_alg».proof.Proof.Vals
import proofs.«145339_j5291399709172_2_alg».proof.Proof.Bridge

noncomputable section

namespace Cert.Proof

open Idealize.ShloMosaic Idealize.ShloMosaic.TcCoe Idealize.SL.Sem

/-- The network of the kernel program's argument arrays as memory `m` holds them on device `c`. -/
def netOf (m : (ℓ : Loc Cert.KernelIdeal.nD Cert.KernelIdeal.τ Cert.KernelIdeal.sig) → Buf (Elt Ideal) ℓ)
    (c : Dev Cert.KernelIdeal.nD) :
    Buf (Elt Ideal) ((c.tc : Thread Cert.KernelIdeal.nD Cert.KernelIdeal.τ).loc Cert.KernelIdeal.main_v62) :=
  Cert.Gine.Bridge.netK (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))
    (m ((c.tc : Thread Cert.KernelIdeal.nD Cert.KernelIdeal.τ).loc Cert.KernelIdeal.main_arg18))
    (m ((c.tc : Thread Cert.KernelIdeal.nD Cert.KernelIdeal.τ).loc Cert.KernelIdeal.main_arg19))
    (m ((c.tc : Thread Cert.KernelIdeal.nD Cert.KernelIdeal.τ).loc Cert.KernelIdeal.main_arg20))
    (m ((c.tc : Thread Cert.KernelIdeal.nD Cert.KernelIdeal.τ).loc Cert.KernelIdeal.main_arg21))
    (m ((c.tc : Thread Cert.KernelIdeal.nD Cert.KernelIdeal.τ).loc Cert.KernelIdeal.main_arg22))
    (m ((c.tc : Thread Cert.KernelIdeal.nD Cert.KernelIdeal.τ).loc Cert.KernelIdeal.main_arg23))
    (m ((c.tc : Thread Cert.KernelIdeal.nD Cert.KernelIdeal.τ).loc Cert.KernelIdeal.main_arg24))

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel program is the kernel program's own text: no operation was rewritten. -/
theorem preserves : Cert.preserves_Kernel_KernelIdeal := trivial

/-- From memories agreeing on the arguments, both programs end with the network of the kernel program's arguments in
    their result buffers, and with their arguments unchanged. -/
theorem algebraic : Cert.algebraic_KernelIdeal_ReferenceIdeal := by
  intro m ρ m' ρ' _ hagree
  refine ⟨fun c => netOf m c,
    (θ_run Cert.KernelIdeal.defs _ _).mono
      (fun r h c => ⟨(h c).1.trans (Cert.Gine.Vals.result m ρ c), (h c).2⟩)
      (Cert.Gine.KRun.run_result (F := Ideal) m ρ),
    (θ_run Cert.ReferenceIdeal.defs _ _).mono (fun _ h c => ⟨(h c).1.trans ?_, (h c).2⟩)
      (Cert.ReferenceIdeal.Value.run (F := Ideal) m' ρ')⟩
  obtain ⟨h0, h1, h2, h3, h4, h5, h6, h7, h8, h9, h10, h11, h12, h13, h14, h15, h16, h17, h18, h19, h20, h21, h22, h23, h24⟩ := hagree c
  rw [Cert.Gine.Bridge.ref_side m' c, h0, h1, h2, h3, h4, h5, h6, h7, h8, h9, h10, h11, h12, h13, h14, h15, h16, h17, h18, h19, h20, h21, h22, h23, h24]
  rfl

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
